-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64 : Shape := ⟨3, ![16, 512, 64]⟩
abbrev S64 : Shape := ⟨1, ![64]⟩
abbrev S8192x64 : Shape := ⟨2, ![8192, 64]⟩
abbrev S_ : Shape := ⟨0, ![]⟩

class Facts : Prop where
  bcast_S_S16x512x64 : S_.BroadcastsInDim S16x512x64 (![] : Fin 0 → Fin S16x512x64.rank)
  reducesTo_S16x512x64_S_d0_1_2 : S16x512x64.ReducesTo [0, 1, 2] S_
  h_S_ : 0 < S_.numel
  bcast_S_S64 : S_.BroadcastsInDim S64 (![] : Fin 0 → Fin S64.rank)
  reducesTo_S64_S_d0 : S64.ReducesTo [0] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  main_v18

def fn {F : FTy → Type} [FloatOps F] (main_arg0 : FVec F S16x512x64 .f32) (main_arg1 : FVec F S64 .f32) (main_arg2 : FVec F S64 .f32) (main_arg3 : FVec F S8192x64 .f32) : IVec S_ 1 :=
  let main_v0 : FVec F S16x512x64 .f32 := Host.absf main_arg0
  let main_cst : FVec F S_ .f32 := constant S_ .f32 0x7F800000#32
  let main_v1 : FVec F S16x512x64 .f32 := broadcastInDim S16x512x64 ![] bcast_S_S16x512x64 main_cst
  let main_v2 : IVec S16x512x64 1 := cmpf .olt main_v0 main_v1
  let main_c : IVec S_ 1 := constantI S_ 1 1#1
  let main_v3 : IVec S_ 1 := (fun x v => Host.reduce IntOp.andi x v reducesTo_S16x512x64_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8192x64 .f32 := Host.absf main_arg3
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_v13 main_v16
-- ==== Kernel.lean ====
abbrev S16x512x64 : Shape := ⟨3, ![16, 512, 64]⟩
abbrev S64 : Shape := ⟨1, ![64]⟩
abbrev S8192x64 : Shape := ⟨2, ![8192, 64]⟩
abbrev S1x64 : Shape := ⟨2, ![1, 64]⟩
abbrev S1x1 : Shape := ⟨2, ![1, 1]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩
abbrev S1024x1024 : Shape := ⟨2, ![1024, 1024]⟩
abbrev S1 : Shape := ⟨1, ![1]⟩
abbrev S_ : Shape := ⟨0, ![]⟩

abbrev nBuf : Space → Nat
  | .hbm => 35
  | .vmem => 17
  | .smem => 0
  | _ => 0

abbrev bufTy : (tb : Table) → Fin (tcTables nBuf tb) → BufTy
  | .hbm, ⟨0, _⟩ => ⟨S16x512x64, .f32⟩
  | .hbm, ⟨1, _⟩ => ⟨S64, .f32⟩
  | .hbm, ⟨2, _⟩ => ⟨S64, .f32⟩
  | .hbm, ⟨3, _⟩ => ⟨S8192x64, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S1x1, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1x1, .f32⟩
  | .local _ .vmem, ⟨5, _⟩ => ⟨S1x1, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1x1, .f32⟩
  | .local _ .vmem, ⟨11, _⟩ => ⟨S1x1, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1x1, .f32⟩
  | _, _ => ⟨S16x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg0 : BitVec 32 := BitVec.ofNat 32 (i 0).val
  let arg1 : BitVec 32 := BitVec.ofNat 32 (i 1).val
  let v41 : BitVec 1 := Scalar.cmpi .eq arg0 arg1
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![8, 8], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k1_cond2 (i : grid1.Coords) : BitVec 1 :=
  let arg0 : BitVec 32 := BitVec.ofNat 32 (i 0).val
  let arg1 : BitVec 32 := BitVec.ofNat 32 (i 1).val
  let v39 : BitVec 1 := Scalar.cmpi .eq arg0 arg1
  let v40 : BitVec 32 := Scalar.extui v39
  let c0_i32_17 : BitVec 32 := 0#32
  let v41 : BitVec 1 := Scalar.cmpi .ne v40 c0_i32_17
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  shapeCasts_S16x512x64_S8192x64 : S16x512x64.ShapeCasts S8192x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  inb_S1x1_S1x1_0_0 : ∀ a, (![0, 0] : Fin 2 → Nat) a + S1x1.size a ≤ S1x1.size a
  h_S1x1 : 0 < S1x1.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  shapeCasts_S1024x1_S1x1024 : S1024x1.ShapeCasts S1x1024
  bitsLt_bf16_f32 : FTy.bits .bf16 < FTy.bits .f32
  transposes_S1024x64_p1_0_S64x1024 : S1024x64.Transposes [1, 0] S64x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S1x1 : S1x1.ShapeCasts S1x1
  iota_S1024x1_d0_w32 : S1024x1.Iotas .tc 32 [0]
  iota_S1x1024_d1_w32 : S1x1024.Iotas .tc 32 [1]
  shapeCasts_S1x1_S_ : S1x1.ShapeCasts S_
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v6) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

abbrev win1_0 : Pipeline.Window sig grid1 :=
  Pipeline.Window.ofSpec (Memref.whole main_arg3) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_0) S1x1.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10_1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

abbrev win2_0 : Pipeline.Window sig grid2 :=
  Pipeline.Window.ofSpec (Memref.whole main_v6) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16x512x64 : Shape := ⟨3, ![16, 512, 64]⟩
abbrev S64 : Shape := ⟨1, ![64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 128
  | .vmem => 0
  | .smem => 0
  | _ => 0

abbrev bufTy : (tb : Table) → Fin (tcTables nBuf tb) → BufTy
  | .hbm, ⟨0, _⟩ => ⟨S16x512x64, .f32⟩
  | .hbm, ⟨1, _⟩ => ⟨S64, .f32⟩
  | .hbm, ⟨2, _⟩ => ⟨S64, .f32⟩
  | .hbm, ⟨3, _⟩ => ⟨S8192x64, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S64x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x64, .f32⟩
  | .hbm, ⟨37, _⟩ => ⟨S_, .f32⟩
  | .hbm, ⟨38, _⟩ => ⟨S8192, .f32⟩
  | .hbm, ⟨39, _⟩ => ⟨S8192x64, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S1x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S64x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S8192x64, .f32⟩
  | .hbm, ⟨62, _⟩ => ⟨S_, .f32⟩
  | .hbm, ⟨63, _⟩ => ⟨S8192, .f32⟩
  | .hbm, ⟨64, _⟩ => ⟨S8192x64, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S1x8192, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S64x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S_, .f32⟩
  | .hbm, ⟨88, _⟩ => ⟨S8192x8192, .i32⟩
  | .hbm, ⟨89, _⟩ => ⟨S8192x8192, .i32⟩
  | .hbm, ⟨90, _⟩ => ⟨S_, .i32⟩
  | .hbm, ⟨91, _⟩ => ⟨S8192x8192, .i32⟩
  | .hbm, ⟨92, _⟩ => ⟨S8192x8192, .i32⟩
  | .hbm, ⟨93, _⟩ => ⟨S8192x8192, .i1⟩
  | .hbm, ⟨94, _⟩ => ⟨S_, .f32⟩
  | .hbm, ⟨95, _⟩ => ⟨S8192x8192, .f32⟩
  | .hbm, ⟨96, _⟩ => ⟨S8192x8192, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S8192x8192, .i32⟩
  | .hbm, ⟨105, _⟩ => ⟨S8192x8192, .i32⟩
  | .hbm, ⟨106, _⟩ => ⟨S_, .i32⟩
  | .hbm, ⟨107, _⟩ => ⟨S8192x8192, .i32⟩
  | .hbm, ⟨108, _⟩ => ⟨S8192x8192, .i32⟩
  | .hbm, ⟨109, _⟩ => ⟨S8192x8192, .i1⟩
  | .hbm, ⟨110, _⟩ => ⟨S_, .f32⟩
  | .hbm, ⟨111, _⟩ => ⟨S8192x8192, .f32⟩
  | .hbm, ⟨112, _⟩ => ⟨S8192x8192, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S16x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_call0_v0 : Ref sig .tc := ⟨.hbm, 88, rfl⟩
abbrev main_call0_v1 : Ref sig .tc := ⟨.hbm, 89, rfl⟩
abbrev main_call0_c : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_cst : Ref sig .tc := ⟨.hbm, 94, rfl⟩
abbrev main_call0_v5 : Ref sig .tc := ⟨.hbm, 95, rfl⟩
abbrev main_call0_v6 : Ref sig .tc := ⟨.hbm, 96, rfl⟩
abbrev main_call0_cst_0 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_call1_v0 : Ref sig .tc := ⟨.hbm, 104, rfl⟩
abbrev main_call1_v1 : Ref sig .tc := ⟨.hbm, 105, rfl⟩
abbrev main_call1_c : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_cst : Ref sig .tc := ⟨.hbm, 110, rfl⟩
abbrev main_call1_v5 : Ref sig .tc := ⟨.hbm, 111, rfl⟩
abbrev main_call1_v6 : Ref sig .tc := ⟨.hbm, 112, rfl⟩
abbrev main_call1_cst_0 : Ref sig .tc := ⟨.hbm, 113, rfl⟩
abbrev main_v72 : Ref sig .tc := ⟨.hbm, 114, rfl⟩
abbrev main_v73 : Ref sig .tc := ⟨.hbm, 115, rfl⟩
abbrev main_cst_17 : Ref sig .tc := ⟨.hbm, 116, rfl⟩
abbrev main_v74 : Ref sig .tc := ⟨.hbm, 117, rfl⟩
abbrev main_v75 : Ref sig .tc := ⟨.hbm, 118, rfl⟩
abbrev main_cst_18 : Ref sig .tc := ⟨.hbm, 119, rfl⟩
abbrev main_v76 : Ref sig .tc := ⟨.hbm, 120, rfl⟩
abbrev main_cst_19 : Ref sig .tc := ⟨.hbm, 121, rfl⟩
abbrev main_v77 : Ref sig .tc := ⟨.hbm, 122, rfl⟩
abbrev main_cst_20 : Ref sig .tc := ⟨.hbm, 123, rfl⟩
abbrev main_v78 : Ref sig .tc := ⟨.hbm, 124, rfl⟩
abbrev main_v79 : Ref sig .tc := ⟨.hbm, 125, rfl⟩
abbrev main_cst_21 : Ref sig .tc := ⟨.hbm, 126, rfl⟩
abbrev main_v80 : Ref sig .tc := ⟨.hbm, 127, rfl⟩

abbrev nD : Nat := 1
abbrev τ : Topo := Topo.v7x

variable {F : FTy → Type} [FloatOps F]

class Facts₀ : Prop where
  shapeCasts_S16x512x64_S8192x64 : S16x512x64.ShapeCasts S8192x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K0Runs.lean ====
/-
  The first kernel region (weights among the standardised points): what the body's branches leave in its two one-word accumulators (the sum of all weights of a block pair, and
  the sum of the weights on the block's diagonal), as store pieces the symbolic run finds.

  The grid is 8 × 8 points in row-major order; both accumulators' block indices are constant, so their buffers are
  written back only after the last point. The body zeroes both at the first point; at every point it adds the block's
  sum to the first; at the points on the grid's diagonal (equal coordinates) it adds the block's diagonal sum to the
  second, and elsewhere leaves the second untouched. Three cases meet the grid: the first point (both tests hold), a
  later diagonal point, an off-diagonal point.
-/
import proofs.«104143_j84421877170330_1_alg».proof.Proof.Gen.Kernel.Launch
import proofs.«104143_j84421877170330_1_alg».proof.Proof.Gen.Kernel.Skeleton
import proofs.«104143_j84421877170330_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first point's test and the diagonal test, as the body spells them on the grid coordinates. -/
abbrev cond0_0 (i : grid0.Coords) : Prop := k0_cond1 i = 1#1
abbrev cond0_1 (i : grid0.Coords) : Prop := k0_cond2 i = 1#1
/-- The first holds at point 0 only; the second at the points 0, 9, 18, …, 63. -/
theorem hcond0_0 : ∀ t : Fin cfg0.N, cond0_0 (grid0.coords t) ↔ t.val % 64 = 0 :=
  (by decide +kernel : ∀ t : Fin grid0.N, cond0_0 (grid0.coords t) ↔ t.val % 64 = 0)
theorem hcond0_1 : ∀ t : Fin cfg0.N, cond0_1 (grid0.coords t) ↔ t.val % 9 = 0 :=
  (by decide +kernel : ∀ t : Fin grid0.N, cond0_1 (grid0.coords t) ↔ t.val % 9 = 0)

/-- The input windows and the first accumulator are never idle; the second is idle exactly off the diagonal. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3_diag : ∀ t : Fin cfg0.N, cond0_1 (grid0.coords t) → cfg0.idle 3 (grid0.coords t) = false := by decide +kernel
theorem idleAt0_3_off : ∀ t : Fin cfg0.N, ¬cond0_0 (grid0.coords t) → ¬cond0_1 (grid0.coords t) → cfg0.idle 3 (grid0.coords t) = true := by decide +kernel

/-- One staging buffer of each accumulator, through which its contents are stated. -/
abbrev VO0_2 : View sig .tc .vmem S1x1 .f32 := (Memref.whole cc0_stg2_0 : Memref sig .tc .vmem S1x1 .f32).view
abbrev VO0_3 : View sig .tc .vmem S1x1 .f32 := (Memref.whole cc0_stg3_0 : Memref sig .tc .vmem S1x1 .f32).view
/-- Each window's current staging memref at a point, and its wholeness. -/
abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

set_option maxHeartbeats 2000000 in
/-- The first point (both tests hold): both accumulators' buffers may hold anything; the body zeroes both, adds the block
    sum to the first and the diagonal sum to the second. The pieces stored into each are the witness. -/
noncomputable def kernelRun0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : cond0_0 i) (hc1 : cond0_1 i) (x0 : Vec F S1024x64 .f32) (x1 : Vec F S1024x64 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__trace_kernel i arg2 harg2 arg3 harg3 arg4 harg4 arg5 harg5) K } := by
  refine ⟨?_, ?_, fun E K => ?run⟩
  case run =>
    simp only [cc0__trace_kernel_eq_skeleton]; unfold cc0__trace_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 2000000 in
/-- A later diagonal point: the accumulators hold the running sums `xo2`, `xo3`; the body adds the block sum to the first
    and the diagonal sum to the second. -/
noncomputable def kernelRun0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : ¬cond0_0 i) (hc1 : cond0_1 i) (x0 : Vec F S1024x64 .f32) (x1 : Vec F S1024x64 .f32) (xo2 : Vec F S1x1 .f32) (xo3 : Vec F S1x1 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__trace_kernel i arg2 harg2 arg3 harg3 arg4 harg4 arg5 harg5) K } := by
  refine ⟨?_, ?_, fun E K => ?run⟩
  case run =>
    simp only [cc0__trace_kernel_eq_skeleton]; unfold cc0__trace_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 2000000 in
/-- An off-diagonal point: the first accumulator holds the running sum `xo2` and gets the block sum added; the second,
    at any contents `x3`, is not touched. -/
noncomputable def kernelRun0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : ¬cond0_0 i) (hc1 : ¬cond0_1 i) (x0 : Vec F S1024x64 .f32) (x1 : Vec F S1024x64 .f32) (xo2 : Vec F S1x1 .f32) (x3 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare x3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare x3) -∗ K ⟨⟩))
          ⊢ wp frame (wpE (defs₀ (F := F)) Variants.none c none) E (cc0__trace_kernel i arg2 harg2 arg3 harg3 arg4 harg4 arg5 harg5) K } := by
  refine ⟨?_, fun E K => ?run⟩
  case run =>
    simp only [cc0__trace_kernel_eq_skeleton]; unfold cc0__trace_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact hf3
    iexact H3

end Cert.Kernel.Hand

end
-- ==== Proof.K0Frame.lean ====
/-
  The first kernel region (weights among the standardised points): what its two one-word accumulators hold after each grid point, the region's proof data at given entry
  contents `V`, and the body obligation at every point.

  After point 0 both hold what the first-point case leaves from the two row blocks. After point `n + 1`: on the
  grid's diagonal, what the diagonal case leaves from the blocks and the pair after point `n`; off it, the first
  what the off-diagonal case leaves and the second UNCHANGED — the body does not touch it there, and its buffer is not
  written back between points, so the next diagonal point finds what the last one left.
-/
import proofs.«104143_j84421877170330_1_alg».proof.Proof.K0Runs
import Idealize.ShloMosaic.Lib.Pipeline.TableIdle

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Each case's stores cover the accumulators' blocks; what each case leaves -/

theorem cover0_A_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : cond0_1 i) (x0 x1 : Vec F S1024x64 .f32) (y : S1x1.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x1.size (by sl_kernel_rfl) y
theorem cover0_A_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : cond0_1 i) (x0 x1 : Vec F S1024x64 .f32) (y : S1x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x1.size (by sl_kernel_rfl) y
def out0_A_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : cond0_1 i) (x0 x1 : Vec F S1024x64 .f32) : Vec F S1x1 .f32 :=
  VO0_2.read (Elt F) (VO0_2.writes (Elt F) VO0_2.junk (kernelRun0_A c i arg2 harg2 arg3 harg3 arg4 harg4 arg5 harg5 hc0 hc1 x0 x1).1)
def out0_A_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : cond0_1 i) (x0 x1 : Vec F S1024x64 .f32) : Vec F S1x1 .f32 :=
  VO0_3.read (Elt F) (VO0_3.writes (Elt F) VO0_3.junk (kernelRun0_A c i arg2 harg2 arg3 harg3 arg4 harg4 arg5 harg5 hc0 hc1 x0 x1).2.1)

theorem cover0_B_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xo2 xo3 : Vec F S1x1 .f32) (y : S1x1.Idx) :
    ∃ pc ∈ (kernelRun0_B c i arg2 harg2 arg3 harg3 arg4 harg4 arg5 harg5 hc0 hc1 x0 x1 xo2 xo3).1, y ∈ pc.1.set :=
  View.cover_of_tiledL (kernelRun0_B c i arg2 harg2 arg3 harg3 arg4 harg4 arg5 harg5 hc0 hc1 x0 x1 xo2 xo3).1 S1x1.size (by sl_kernel_rfl) y
theorem cover0_B_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xo2 xo3 : Vec F S1x1 .f32) (y : S1x1.Idx) :
    ∃ pc ∈ (kernelRun0_B c i arg2 harg2 arg3 harg3 arg4 harg4 arg5 harg5 hc0 hc1 x0 x1 xo2 xo3).2.1, y ∈ pc.1.set :=
  View.cover_of_tiledL (kernelRun0_B c i arg2 harg2 arg3 harg3 arg4 harg4 arg5 harg5 hc0 hc1 x0 x1 xo2 xo3).2.1 S1x1.size (by sl_kernel_rfl) y
def out0_B_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xo2 xo3 : Vec F S1x1 .f32) : Vec F S1x1 .f32 :=
  VO0_2.read (Elt F) (VO0_2.writes (Elt F) VO0_2.junk (kernelRun0_B c i arg2 harg2 arg3 harg3 arg4 harg4 arg5 harg5 hc0 hc1 x0 x1 xo2 xo3).1)
def out0_B_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xo2 xo3 : Vec F S1x1 .f32) : Vec F S1x1 .f32 :=
  VO0_3.read (Elt F) (VO0_3.writes (Elt F) VO0_3.junk (kernelRun0_B c i arg2 harg2 arg3 harg3 arg4 harg4 arg5 harg5 hc0 hc1 x0 x1 xo2 xo3).2.1)

theorem cover0_C_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x64 .f32) (xo2 x3 : Vec F S1x1 .f32) (y : S1x1.Idx) :
    ∃ pc ∈ (kernelRun0_C c i arg2 harg2 arg3 harg3 arg4 harg4 arg5 harg5 hc0 hc1 x0 x1 xo2 x3).1, y ∈ pc.1.set :=
  View.cover_of_tiledL (kernelRun0_C c i arg2 harg2 arg3 harg3 arg4 harg4 arg5 harg5 hc0 hc1 x0 x1 xo2 x3).1 S1x1.size (by sl_kernel_rfl) y
def out0_C_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x64 .f32) (xo2 x3 : Vec F S1x1 .f32) : Vec F S1x1 .f32 :=
  VO0_2.read (Elt F) (VO0_2.writes (Elt F) VO0_2.junk (kernelRun0_C c i arg2 harg2 arg3 harg3 arg4 harg4 arg5 harg5 hc0 hc1 x0 x1 xo2 x3).1)

/-! ## What the accumulators hold after each point -/

/-- The pair (sum accumulator, diagonal accumulator) after the body at each point, by recursion on the point. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk0 V c 0 ⟨0, hn⟩) (iblk0 V c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk0 V c 0 ⟨0, hn⟩) (iblk0 V c 1 ⟨0, hn⟩))
  | n + 1, hn =>
    if h0 : (n + 1) % 64 = 0 then
      False.elim (by have hN : n + 1 < 64 := lt_of_lt_of_eq hn (show cfg0.N = 64 from N_0); omega)
    else
      if h1 : (n + 1) % 9 = 0 then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).1 (outsAt0 c n (Nat.lt_of_succ_lt hn)).2,
          out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).1 (outsAt0 c n (Nat.lt_of_succ_lt hn)).2)
      else
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2,
          (outsAt0 c n (Nat.lt_of_succ_lt hn)).2)

theorem outsAt0_A (c : Dev nD) (t : Fin cfg0.N) (h0 : t.val % 64 = 0) (h1 : t.val % 9 = 0) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) ((hcond0_1 t).mpr h1) (iblk0 V c 0 t) (iblk0 V c 1 t),
      out0_A_3 c (grid0.coords t) (ms0_0 t) (hs0_0 t) (ms0_1 t) (hs0_1 t) (ms0_2 t) (hs0_2 t) (ms0_3 t) (hs0_3 t) ((hcond0_0 t).mpr h0) ((hcond0_1 t).mpr h1) (iblk0 V c 0 t) (iblk0 V c 1 t)) := by
  obtain ⟨n, hn⟩ := t
  cases n with
  | zero => exact rfl
  | succ n => exact (by exfalso; have hN : n + 1 < 64 := lt_of_lt_of_eq hn (show cfg0.N = 64 from N_0); (try dsimp only at h0); omega)

theorem outsAt0_B (c : Dev nD) (t : Fin cfg0.N) (h0 : ¬t.val % 64 = 0) (h1 : t.val % 9 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t)
        (outsAt0 V c (t.val - 1) (Nat.lt_of_le_of_lt (Nat.sub_le _ _) t.isLt)).1 (outsAt0 V c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t)
        (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem outsAt0_C (c : Dev nD) (t : Fin cfg0.N) (h0 : ¬t.val % 64 = 0) (h1 : ¬t.val % 9 = 0) :
    outsAt0 V c t.val t.isLt = (out0_C_2 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk0 V c 0 t) (iblk0 V c 1 t)
        (outsAt0 V c (t.val - 1) (Nat.lt_of_le_of_lt (Nat.sub_le _ _) t.isLt)).1 (outsAt0 V c (t.val - 1) (Nat.lt_of_le_of_lt (Nat.sub_le _ _) t.isLt)).2,
      (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-! ## The region's proof data -/

/-- The region's proof data on core `c`: the arrays as the region finds them; after the body each input's buffer at
    its block and the accumulators' at `outsAt0`'s components; the invariant the scoped rest and the generator
    register; nothing owed; the two input windows, which read one array, hold it at the two halves of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- After the first point the sum accumulator's buffer holds what the body left at the point before. -/
theorem before0_2_pos (c : Dev nD) (t : Fin cfg0.N) (h0 : ¬t.val % 64 = 0) (d) :
    (dat0 V c).before 2 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]

/-- The diagonal accumulator's buffer is fresh (holds nothing the body stored) only when the first point runs. -/
theorem fresh0_3 : ∀ n, n ≤ cfg0.N → cfg0.fresh 3 n = decide (n = 0 ∨ 64 ≤ n) :=
  Pipeline.Cfg.fresh_tab cfg0 3 (fun n => decide (n = 0 ∨ 64 ≤ n)) rfl
    (by decide +kernel : ∀ t : Fin grid0.N, decide (t.val + 1 = 0 ∨ 64 ≤ t.val + 1) = ((cfg0.win 3).flush t || (cfg0.idle 3 (grid0.coords t) && decide (t.val = 0 ∨ 64 ≤ t.val))))

/-- After the first point the diagonal accumulator's buffer holds what `outsAt0` says of the point before — through
    the off-diagonal points, where the body leaves it alone, by the carried component. -/
theorem before0_3_pos (c : Dev nD) (t : Fin cfg0.N) (h0 : ¬t.val % 64 = 0) (d) :
    (dat0 V c).before 3 t d = (outsAt0 V c (t.val - 1) (Nat.lt_of_le_of_lt (Nat.sub_le _ _) t.isLt)).2 := by
  have hN : t.val < 64 := lt_of_lt_of_eq t.isLt (show cfg0.N = 64 from N_0)
  have ht0 : t.val ≠ 0 := by omega
  rw [Dat.before_out_traj (dat0 V c) 3 rfl (fun _ _ => rfl) (fun s hs hi hfr => by
      have hsN : s.val < 64 := lt_of_lt_of_eq s.isLt (show cfg0.N = 64 from N_0)
      have hc1 : ¬cond0_1 (grid0.coords s) := fun h => by rw [liveAt0_3_diag s h] at hi; exact Bool.false_ne_true hi
      have h1 : ¬s.val % 9 = 0 := fun h => hc1 ((hcond0_1 s).mpr h)
      have h0' : ¬s.val % 64 = 0 := by omega
      rw [after0_3, after0_3, outsAt0_C V c s h0' h1]) t.val t rfl d,
    fresh0_3 t.val (Nat.le_of_lt t.isLt), if_neg (by simp only [decide_eq_true_eq]; omega), after0_3]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' buffers hold their blocks; the closed forms of the two tests say which case the
    point is in; an accumulator a case reads holds what the point before left; the untouched one is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1,
    show (dat0 V c).leavesExact 2 t = owns (c : Thread nD τ) (ms0_2 t) fullShare ((dat0 V c).after 2 t) from by
      unfold Dat.leavesExact; rw [liveAt0_2 t], after0_2]
  have hN : t.val < 64 := lt_of_lt_of_eq t.isLt (show cfg0.N = 64 from N_0)
  by_cases h0 : t.val % 64 = 0
  · have h1 : t.val % 9 = 0 := by omega
    rw [show (dat0 V c).leavesExact 3 t = owns (c : Thread nD τ) (ms0_3 t) fullShare ((dat0 V c).after 3 t) from by
      unfold Dat.leavesExact; rw [liveAt0_3_diag t ((hcond0_1 t).mpr h1)], after0_3]
    rw [outsAt0_A V c t h0 h1]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) ((hcond0_1 t).mpr h1) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _)
    unfold owns; iexists _; isplitr
    swap; · iexact H3
    ipureintro; exact View.read_writes_of_cover _ _ _ _ _ (cover0_A_3 c _ _ _ _ _ _ _ _ _ _ _ _ _)
  · simp only [before0_2_pos V c t h0, before0_3_pos V c t h0]
    by_cases h1 : t.val % 9 = 0
    · rw [show (dat0 V c).leavesExact 3 t = owns (c : Thread nD τ) (ms0_3 t) fullShare ((dat0 V c).after 3 t) from by
        unfold Dat.leavesExact; rw [liveAt0_3_diag t ((hcond0_1 t).mpr h1)], after0_3]
      rw [outsAt0_B V c t h0 h1]
      unfold out0_B_2 out0_B_3; (try dsimp only)
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) ((hcond0_1 t).mpr h1) (iblk0 V c 0 t) (iblk0 V c 1 t) _ _).2.2 Set.univ _)
      isplitl [H0]; · iexact H0
      isplitl [H1]; · iexact H1
      isplitl [H2]; · iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _)
      unfold owns; iexists _; isplitr
      swap; · iexact H3
      ipureintro; exact View.read_writes_of_cover _ _ _ _ _ (cover0_B_3 c _ _ _ _ _ _ _ _ _ _ _ _ _ _ _)
    · rw [Dat.leavesExact_idle (dat0 V c) 3 t (idleAt0_3_off t (fun h => h0 ((hcond0_0 t).mp h)) (fun h => h1 ((hcond0_1 t).mp h)))
        (Bool.eq_false_iff.mpr fun h => by have := (flush0_3 _).mp h; omega)]
      simp only [before0_3_pos V c t h0]
      rw [outsAt0_C V c t h0 h1]
      unfold out0_C_2; (try dsimp only)
      iintro ⟨HΦ, Ho, ⟨%d0, H0⟩, ⟨%d1, H1⟩, ⟨%d2, H2⟩, ⟨%d3, H3⟩⟩
      iapply ((kernelRun0_C c (grid0.coords t) _ _ _ _ _ _ _ _ (fun h => h0 ((hcond0_0 t).mp h)) (fun h => h1 ((hcond0_1 t).mp h)) (iblk0 V c 0 t) (iblk0 V c 1 t) _ _).2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _)
      iexists d3; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K1Runs.lean ====
/-
  The second kernel region (weights among the prior's points): what the body's branches leave in its two one-word accumulators (the sum of all weights of a block pair, and
  the sum of the weights on the block's diagonal), as store pieces the symbolic run finds.

  The grid is 8 × 8 points in row-major order; both accumulators' block indices are constant, so their buffers are
  written back only after the last point. The body zeroes both at the first point; at every point it adds the block's
  sum to the first; at the points on the grid's diagonal (equal coordinates) it adds the block's diagonal sum to the
  second, and elsewhere leaves the second untouched. Three cases meet the grid: the first point (both tests hold), a
  later diagonal point, an off-diagonal point.
-/
import proofs.«104143_j84421877170330_1_alg».proof.Proof.Gen.Kernel.Launch
import proofs.«104143_j84421877170330_1_alg».proof.Proof.Gen.Kernel.Skeleton
import proofs.«104143_j84421877170330_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first point's test and the diagonal test, as the body spells them on the grid coordinates. -/
abbrev cond1_0 (i : grid1.Coords) : Prop := k1_cond1 i = 1#1
abbrev cond1_1 (i : grid1.Coords) : Prop := k1_cond2 i = 1#1
/-- The first holds at point 0 only; the second at the points 0, 9, 18, …, 63. -/
theorem hcond1_0 : ∀ t : Fin cfg1.N, cond1_0 (grid1.coords t) ↔ t.val % 64 = 0 :=
  (by decide +kernel : ∀ t : Fin grid1.N, cond1_0 (grid1.coords t) ↔ t.val % 64 = 0)
theorem hcond1_1 : ∀ t : Fin cfg1.N, cond1_1 (grid1.coords t) ↔ t.val % 9 = 0 :=
  (by decide +kernel : ∀ t : Fin grid1.N, cond1_1 (grid1.coords t) ↔ t.val % 9 = 0)

/-- The input windows and the first accumulator are never idle; the second is idle exactly off the diagonal. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3_diag : ∀ t : Fin cfg1.N, cond1_1 (grid1.coords t) → cfg1.idle 3 (grid1.coords t) = false := by decide +kernel
theorem idleAt1_3_off : ∀ t : Fin cfg1.N, ¬cond1_0 (grid1.coords t) → ¬cond1_1 (grid1.coords t) → cfg1.idle 3 (grid1.coords t) = true := by decide +kernel

/-- One staging buffer of each accumulator, through which its contents are stated. -/
abbrev VO1_2 : View sig .tc .vmem S1x1 .f32 := (Memref.whole cc1_stg2_0 : Memref sig .tc .vmem S1x1 .f32).view
abbrev VO1_3 : View sig .tc .vmem S1x1 .f32 := (Memref.whole cc1_stg3_0 : Memref sig .tc .vmem S1x1 .f32).view
/-- Each window's current staging memref at a point, and its wholeness. -/
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)

set_option maxHeartbeats 2000000 in
/-- The first point (both tests hold): both accumulators' buffers may hold anything; the body zeroes both, adds the block
    sum to the first and the diagonal sum to the second. The pieces stored into each are the witness. -/
noncomputable def kernelRun1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : cond1_0 i) (hc1 : cond1_1 i) (x0 : Vec F S1024x64 .f32) (x1 : Vec F S1024x64 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__trace_kernel i arg2 harg2 arg3 harg3 arg4 harg4 arg5 harg5) K } := by
  refine ⟨?_, ?_, fun E K => ?run⟩
  case run =>
    simp only [cc1__trace_kernel_eq_skeleton]; unfold cc1__trace_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 2000000 in
/-- A later diagonal point: the accumulators hold the running sums `xo2`, `xo3`; the body adds the block sum to the first
    and the diagonal sum to the second. -/
noncomputable def kernelRun1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : ¬cond1_0 i) (hc1 : cond1_1 i) (x0 : Vec F S1024x64 .f32) (x1 : Vec F S1024x64 .f32) (xo2 : Vec F S1x1 .f32) (xo3 : Vec F S1x1 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__trace_kernel i arg2 harg2 arg3 harg3 arg4 harg4 arg5 harg5) K } := by
  refine ⟨?_, ?_, fun E K => ?run⟩
  case run =>
    simp only [cc1__trace_kernel_eq_skeleton]; unfold cc1__trace_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 2000000 in
/-- An off-diagonal point: the first accumulator holds the running sum `xo2` and gets the block sum added; the second,
    at any contents `x3`, is not touched. -/
noncomputable def kernelRun1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : ¬cond1_0 i) (hc1 : ¬cond1_1 i) (x0 : Vec F S1024x64 .f32) (x1 : Vec F S1024x64 .f32) (xo2 : Vec F S1x1 .f32) (x3 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare x3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare x3) -∗ K ⟨⟩))
          ⊢ wp frame (wpE (defs₀ (F := F)) Variants.none c none) E (cc1__trace_kernel i arg2 harg2 arg3 harg3 arg4 harg4 arg5 harg5) K } := by
  refine ⟨?_, fun E K => ?run⟩
  case run =>
    simp only [cc1__trace_kernel_eq_skeleton]; unfold cc1__trace_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact hf3
    iexact H3

end Cert.Kernel.Hand

end
-- ==== Proof.K1Frame.lean ====
/-
  The second kernel region (weights among the prior's points): what its two one-word accumulators hold after each grid point, the region's proof data at given entry
  contents `V`, and the body obligation at every point.

  After point 0 both hold what the first-point case leaves from the two row blocks. After point `n + 1`: on the
  grid's diagonal, what the diagonal case leaves from the blocks and the pair after point `n`; off it, the first
  what the off-diagonal case leaves and the second UNCHANGED — the body does not touch it there, and its buffer is not
  written back between points, so the next diagonal point finds what the last one left.
-/
import proofs.«104143_j84421877170330_1_alg».proof.Proof.K1Runs
import Idealize.ShloMosaic.Lib.Pipeline.TableIdle

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Each case's stores cover the accumulators' blocks; what each case leaves -/

theorem cover1_A_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : cond1_1 i) (x0 x1 : Vec F S1024x64 .f32) (y : S1x1.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1x1.size (by sl_kernel_rfl) y
theorem cover1_A_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : cond1_1 i) (x0 x1 : Vec F S1024x64 .f32) (y : S1x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1x1.size (by sl_kernel_rfl) y
def out1_A_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : cond1_1 i) (x0 x1 : Vec F S1024x64 .f32) : Vec F S1x1 .f32 :=
  VO1_2.read (Elt F) (VO1_2.writes (Elt F) VO1_2.junk (kernelRun1_A c i arg2 harg2 arg3 harg3 arg4 harg4 arg5 harg5 hc0 hc1 x0 x1).1)
def out1_A_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : cond1_1 i) (x0 x1 : Vec F S1024x64 .f32) : Vec F S1x1 .f32 :=
  VO1_3.read (Elt F) (VO1_3.writes (Elt F) VO1_3.junk (kernelRun1_A c i arg2 harg2 arg3 harg3 arg4 harg4 arg5 harg5 hc0 hc1 x0 x1).2.1)

theorem cover1_B_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xo2 xo3 : Vec F S1x1 .f32) (y : S1x1.Idx) :
    ∃ pc ∈ (kernelRun1_B c i arg2 harg2 arg3 harg3 arg4 harg4 arg5 harg5 hc0 hc1 x0 x1 xo2 xo3).1, y ∈ pc.1.set :=
  View.cover_of_tiledL (kernelRun1_B c i arg2 harg2 arg3 harg3 arg4 harg4 arg5 harg5 hc0 hc1 x0 x1 xo2 xo3).1 S1x1.size (by sl_kernel_rfl) y
theorem cover1_B_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xo2 xo3 : Vec F S1x1 .f32) (y : S1x1.Idx) :
    ∃ pc ∈ (kernelRun1_B c i arg2 harg2 arg3 harg3 arg4 harg4 arg5 harg5 hc0 hc1 x0 x1 xo2 xo3).2.1, y ∈ pc.1.set :=
  View.cover_of_tiledL (kernelRun1_B c i arg2 harg2 arg3 harg3 arg4 harg4 arg5 harg5 hc0 hc1 x0 x1 xo2 xo3).2.1 S1x1.size (by sl_kernel_rfl) y
def out1_B_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xo2 xo3 : Vec F S1x1 .f32) : Vec F S1x1 .f32 :=
  VO1_2.read (Elt F) (VO1_2.writes (Elt F) VO1_2.junk (kernelRun1_B c i arg2 harg2 arg3 harg3 arg4 harg4 arg5 harg5 hc0 hc1 x0 x1 xo2 xo3).1)
def out1_B_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xo2 xo3 : Vec F S1x1 .f32) : Vec F S1x1 .f32 :=
  VO1_3.read (Elt F) (VO1_3.writes (Elt F) VO1_3.junk (kernelRun1_B c i arg2 harg2 arg3 harg3 arg4 harg4 arg5 harg5 hc0 hc1 x0 x1 xo2 xo3).2.1)

theorem cover1_C_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x64 .f32) (xo2 x3 : Vec F S1x1 .f32) (y : S1x1.Idx) :
    ∃ pc ∈ (kernelRun1_C c i arg2 harg2 arg3 harg3 arg4 harg4 arg5 harg5 hc0 hc1 x0 x1 xo2 x3).1, y ∈ pc.1.set :=
  View.cover_of_tiledL (kernelRun1_C c i arg2 harg2 arg3 harg3 arg4 harg4 arg5 harg5 hc0 hc1 x0 x1 xo2 x3).1 S1x1.size (by sl_kernel_rfl) y
def out1_C_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x64 .f32) (xo2 x3 : Vec F S1x1 .f32) : Vec F S1x1 .f32 :=
  VO1_2.read (Elt F) (VO1_2.writes (Elt F) VO1_2.junk (kernelRun1_C c i arg2 harg2 arg3 harg3 arg4 harg4 arg5 harg5 hc0 hc1 x0 x1 xo2 x3).1)

/-! ## What the accumulators hold after each point -/

/-- The pair (sum accumulator, diagonal accumulator) after the body at each point, by recursion on the point. -/
def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) ((hcond1_1 ⟨0, hn⟩).mpr (Nat.zero_mod _)) (iblk1 V c 0 ⟨0, hn⟩) (iblk1 V c 1 ⟨0, hn⟩),
      out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) ((hcond1_1 ⟨0, hn⟩).mpr (Nat.zero_mod _)) (iblk1 V c 0 ⟨0, hn⟩) (iblk1 V c 1 ⟨0, hn⟩))
  | n + 1, hn =>
    if h0 : (n + 1) % 64 = 0 then
      False.elim (by have hN : n + 1 < 64 := lt_of_lt_of_eq hn (show cfg1.N = 64 from N_1); omega)
    else
      if h1 : (n + 1) % 9 = 0 then
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).1 (outsAt1 c n (Nat.lt_of_succ_lt hn)).2,
          out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).1 (outsAt1 c n (Nat.lt_of_succ_lt hn)).2)
      else
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2,
          (outsAt1 c n (Nat.lt_of_succ_lt hn)).2)

theorem outsAt1_A (c : Dev nD) (t : Fin cfg1.N) (h0 : t.val % 64 = 0) (h1 : t.val % 9 = 0) :
    outsAt1 V c t.val t.isLt = (out1_A_2 c (grid1.coords t) (ms1_0 t) (hs1_0 t) (ms1_1 t) (hs1_1 t) (ms1_2 t) (hs1_2 t) (ms1_3 t) (hs1_3 t) ((hcond1_0 t).mpr h0) ((hcond1_1 t).mpr h1) (iblk1 V c 0 t) (iblk1 V c 1 t),
      out1_A_3 c (grid1.coords t) (ms1_0 t) (hs1_0 t) (ms1_1 t) (hs1_1 t) (ms1_2 t) (hs1_2 t) (ms1_3 t) (hs1_3 t) ((hcond1_0 t).mpr h0) ((hcond1_1 t).mpr h1) (iblk1 V c 0 t) (iblk1 V c 1 t)) := by
  obtain ⟨n, hn⟩ := t
  cases n with
  | zero => exact rfl
  | succ n => exact (by exfalso; have hN : n + 1 < 64 := lt_of_lt_of_eq hn (show cfg1.N = 64 from N_1); (try dsimp only at h0); omega)

theorem outsAt1_B (c : Dev nD) (t : Fin cfg1.N) (h0 : ¬t.val % 64 = 0) (h1 : t.val % 9 = 0) :
    outsAt1 V c t.val t.isLt = (out1_B_2 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t)
        (outsAt1 V c (t.val - 1) (Nat.lt_of_le_of_lt (Nat.sub_le _ _) t.isLt)).1 (outsAt1 V c (t.val - 1) (Nat.lt_of_le_of_lt (Nat.sub_le _ _) t.isLt)).2,
      out1_B_3 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t)
        (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem outsAt1_C (c : Dev nD) (t : Fin cfg1.N) (h0 : ¬t.val % 64 = 0) (h1 : ¬t.val % 9 = 0) :
    outsAt1 V c t.val t.isLt = (out1_C_2 c (grid1.coords t) (ms1_0 t) (hs1_0 t) (ms1_1 t) (hs1_1 t) (ms1_2 t) (hs1_2 t) (ms1_3 t) (hs1_3 t) (fun h => h0 ((hcond1_0 t).mp h)) (fun h => h1 ((hcond1_1 t).mp h)) (iblk1 V c 0 t) (iblk1 V c 1 t)
        (outsAt1 V c (t.val - 1) (Nat.lt_of_le_of_lt (Nat.sub_le _ _) t.isLt)).1 (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-! ## The region's proof data -/

/-- The region's proof data on core `c`: the arrays as the region finds them; after the body each input's buffer at
    its block and the accumulators' at `outsAt1`'s components; the invariant the scoped rest and the generator
    register; nothing owed; the two input windows, which read one array, hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- After the first point the sum accumulator's buffer holds what the body left at the point before. -/
theorem before1_2_pos (c : Dev nD) (t : Fin cfg1.N) (h0 : ¬t.val % 64 = 0) (d) :
    (dat1 V c).before 2 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-- The diagonal accumulator's buffer is fresh (holds nothing the body stored) only when the first point runs. -/
theorem fresh1_3 : ∀ n, n ≤ cfg1.N → cfg1.fresh 3 n = decide (n = 0 ∨ 64 ≤ n) :=
  Pipeline.Cfg.fresh_tab cfg1 3 (fun n => decide (n = 0 ∨ 64 ≤ n)) rfl
    (by decide +kernel : ∀ t : Fin grid1.N, decide (t.val + 1 = 0 ∨ 64 ≤ t.val + 1) = ((cfg1.win 3).flush t || (cfg1.idle 3 (grid1.coords t) && decide (t.val = 0 ∨ 64 ≤ t.val))))

/-- After the first point the diagonal accumulator's buffer holds what `outsAt1` says of the point before — through
    the off-diagonal points, where the body leaves it alone, by the carried component. -/
theorem before1_3_pos (c : Dev nD) (t : Fin cfg1.N) (h0 : ¬t.val % 64 = 0) (d) :
    (dat1 V c).before 3 t d = (outsAt1 V c (t.val - 1) (Nat.lt_of_le_of_lt (Nat.sub_le _ _) t.isLt)).2 := by
  have hN : t.val < 64 := lt_of_lt_of_eq t.isLt (show cfg1.N = 64 from N_1)
  have ht0 : t.val ≠ 0 := by omega
  rw [Dat.before_out_traj (dat1 V c) 3 rfl (fun _ _ => rfl) (fun s hs hi hfr => by
      have hsN : s.val < 64 := lt_of_lt_of_eq s.isLt (show cfg1.N = 64 from N_1)
      have hc1 : ¬cond1_1 (grid1.coords s) := fun h => by rw [liveAt1_3_diag s h] at hi; exact Bool.false_ne_true hi
      have h1 : ¬s.val % 9 = 0 := fun h => hc1 ((hcond1_1 s).mpr h)
      have h0' : ¬s.val % 64 = 0 := by omega
      rw [after1_3, after1_3, outsAt1_C V c s h0' h1]) t.val t rfl d,
    fresh1_3 t.val (Nat.le_of_lt t.isLt), if_neg (by simp only [decide_eq_true_eq]; omega), after1_3]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' buffers hold their blocks; the closed forms of the two tests say which case the
    point is in; an accumulator a case reads holds what the point before left; the untouched one is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2]
  have hN : t.val < 64 := lt_of_lt_of_eq t.isLt (show cfg1.N = 64 from N_1)
  by_cases h0 : t.val % 64 = 0
  · have h1 : t.val % 9 = 0 := by omega
    rw [show (dat1 V c).leavesExact 3 t = owns (c : Thread nD τ) (ms1_3 t) fullShare ((dat1 V c).after 3 t) from by
      unfold Dat.leavesExact; rw [liveAt1_3_diag t ((hcond1_1 t).mpr h1)], after1_3]
    rw [outsAt1_A V c t h0 h1]
    unfold out1_A_2 out1_A_3; (try dsimp only)
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) ((hcond1_1 t).mpr h1) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _)
    unfold owns; iexists _; isplitr
    swap; · iexact H3
    ipureintro; exact View.read_writes_of_cover _ _ _ _ _ (cover1_A_3 c _ _ _ _ _ _ _ _ _ _ _ _ _)
  · simp only [before1_2_pos V c t h0, before1_3_pos V c t h0]
    by_cases h1 : t.val % 9 = 0
    · rw [show (dat1 V c).leavesExact 3 t = owns (c : Thread nD τ) (ms1_3 t) fullShare ((dat1 V c).after 3 t) from by
        unfold Dat.leavesExact; rw [liveAt1_3_diag t ((hcond1_1 t).mpr h1)], after1_3]
      rw [outsAt1_B V c t h0 h1]
      unfold out1_B_2 out1_B_3; (try dsimp only)
      iintro ⟨HΦ, Ho, ⟨%d0, H0⟩, ⟨%d1, H1⟩, ⟨%d2, H2⟩, ⟨%d3, H3⟩⟩
      iapply ((kernelRun1_B c (grid1.coords t) _ _ _ _ _ _ _ _ (fun h => h0 ((hcond1_0 t).mp h)) ((hcond1_1 t).mpr h1) (iblk1 V c 0 t) (iblk1 V c 1 t) _ _).2.2 Set.univ _)
      isplitl [H0]; · iexact H0
      isplitl [H1]; · iexact H1
      isplitl [H2]; · iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_B_2 c _ _ _ _ _ _ _ _ _ _ _ _ _ _ _)
      unfold owns; iexists _; isplitr
      swap; · iexact H3
      ipureintro; exact View.read_writes_of_cover _ _ _ _ _ (cover1_B_3 c _ _ _ _ _ _ _ _ _ _ _ _ _ _ _)
    · rw [Dat.leavesExact_idle (dat1 V c) 3 t (idleAt1_3_off t (fun h => h0 ((hcond1_0 t).mp h)) (fun h => h1 ((hcond1_1 t).mp h)))
        (Bool.eq_false_iff.mpr fun h => by have := (flush1_3 _).mp h; omega)]
      simp only [before1_3_pos V c t h0]
      rw [outsAt1_C V c t h0 h1]
      unfold out1_C_2; (try dsimp only)
      iintro ⟨HΦ, Ho, ⟨%d0, H0⟩, ⟨%d1, H1⟩, ⟨%d2, H2⟩, ⟨%d3, H3⟩⟩
      iapply ((kernelRun1_C c (grid1.coords t) _ _ _ _ _ _ _ _ (fun h => h0 ((hcond1_0 t).mp h)) (fun h => h1 ((hcond1_1 t).mp h)) (iblk1 V c 0 t) (iblk1 V c 1 t) _ _).2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _)
      iexists d3; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K2Runs.lean ====
/-
  The third kernel region (the cross sum of weights) on its own: what the body's two branches leave in the one-word
  accumulator, as store pieces the symbolic run finds.

  The grid is 8 × 8 points in row-major order. The accumulator's block index is constant, so its buffer is written
  back only after the last point; the body zeroes it at the first point (both coordinates 0) and at every point adds
  the point's block sum to what it holds. Two cases: the first point (zeroed, then read and overwritten) and every
  later point (read at what the point before left, overwritten).
-/
import proofs.«104143_j84421877170330_1_alg».proof.Proof.Gen.Kernel.Launch
import proofs.«104143_j84421877170330_1_alg».proof.Proof.Gen.Kernel.Skeleton
import proofs.«104143_j84421877170330_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first point's test, as the body spells it on the grid coordinates. -/
abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond2_0 : ∀ t : Fin cfg2.N, cond2_0 (grid2.coords t) ↔ t.val % 64 = 0 :=
  (by decide +kernel : ∀ t : Fin grid2.N, cond2_0 (grid2.coords t) ↔ t.val % 64 = 0)

/-- One staging buffer of the accumulator, through which its contents are stated. -/
abbrev VO2_2 : View sig .tc .vmem S1x1 .f32 := (Memref.whole cc2_stg2_0 : Memref sig .tc .vmem S1x1 .f32).view
/-- Each window's current staging memref at a point, and its wholeness. -/
abbrev ms2_0 (t : Fin cfg2.N) : Memref sig .tc .vmem S1024x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

set_option maxHeartbeats 1000000 in
/-- The first point: the accumulator's buffer may hold anything; the body zeroes it, reads it back, adds the block
    sum of the two row blocks and stores the result. The pieces stored are the witness. -/
noncomputable def kernelRun2_A (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : cond2_0 i) (x0 : Vec F S1024x64 .f32) (x1 : Vec F S1024x64 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__sum_kernel i arg2 harg2 arg3 harg3 arg4 harg4) K } := by
  refine ⟨?_, fun E K => ?run⟩
  case run =>
    simp only [cc2__sum_kernel_eq_skeleton]; unfold cc2__sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A later point: the accumulator's buffer holds the running sum `xo2`; the body reads it, adds the block sum and
    stores the result. -/
noncomputable def kernelRun2_B (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : ¬cond2_0 i) (x0 : Vec F S1024x64 .f32) (x1 : Vec F S1024x64 .f32) (xo2 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__sum_kernel i arg2 harg2 arg3 harg3 arg4 harg4) K } := by
  refine ⟨?_, fun E K => ?run⟩
  case run =>
    simp only [cc2__sum_kernel_eq_skeleton]; unfold cc2__sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K2Frame.lean ====
/-
  The third kernel region (the cross sum of weights): what its one-word accumulator holds after each grid point, the
  region's proof data at given entry contents `V`, and the body obligation at every point.

  After point 0 the accumulator holds what the first-point case leaves from the two row blocks; after point
  `n + 1` what the later-point case leaves from the blocks and from the contents after point `n` — the buffer is
  not written back between points (its block index never moves), so each point finds what the one before left.
-/
import proofs.«104143_j84421877170330_1_alg».proof.Proof.K2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first-point case's stores cover the accumulator's block. -/
theorem cover2_A_2 (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : cond2_0 i) (x0 x1 : Vec F S1024x64 .f32) (y : S1x1.Idx) :
    ∃ pc ∈ (kernelRun2_A c i arg2 harg2 arg3 harg3 arg4 harg4 hc0 x0 x1).1, y ∈ pc.1.set :=
  View.cover_of_tiledL (kernelRun2_A c i arg2 harg2 arg3 harg3 arg4 harg4 hc0 x0 x1).1 S1x1.size (by sl_kernel_rfl) y

/-- What the first-point case leaves in the accumulator. -/
def out2_A_2 (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : cond2_0 i) (x0 x1 : Vec F S1024x64 .f32) : Vec F S1x1 .f32 :=
  VO2_2.read (Elt F) (VO2_2.writes (Elt F) VO2_2.junk (kernelRun2_A c i arg2 harg2 arg3 harg3 arg4 harg4 hc0 x0 x1).1)

/-- The later-point case's stores cover the accumulator's block. -/
theorem cover2_B_2 (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : ¬cond2_0 i) (x0 x1 : Vec F S1024x64 .f32) (xo2 : Vec F S1x1 .f32) (y : S1x1.Idx) :
    ∃ pc ∈ (kernelRun2_B c i arg2 harg2 arg3 harg3 arg4 harg4 hc0 x0 x1 xo2).1, y ∈ pc.1.set :=
  View.cover_of_tiledL (kernelRun2_B c i arg2 harg2 arg3 harg3 arg4 harg4 hc0 x0 x1 xo2).1 S1x1.size (by sl_kernel_rfl) y

/-- What the later-point case leaves in the accumulator. -/
def out2_B_2 (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : ¬cond2_0 i) (x0 x1 : Vec F S1024x64 .f32) (xo2 : Vec F S1x1 .f32) : Vec F S1x1 .f32 :=
  VO2_2.read (Elt F) (VO2_2.writes (Elt F) VO2_2.junk (kernelRun2_B c i arg2 harg2 arg3 harg3 arg4 harg4 hc0 x0 x1 xo2).1)

/-- The accumulator after the body at each point, by recursion on the point. -/
def outsAt2 (c : Dev nD) : (n : ℕ) → n < cfg2.N → Vec F S1x1 .f32
  | 0, hn => out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩)
      ((hcond2_0 ⟨0, hn⟩).mpr (Nat.zero_mod _)) (iblk2 V c 0 ⟨0, hn⟩) (iblk2 V c 1 ⟨0, hn⟩)
  | n + 1, hn =>
    if h0 : (n + 1) % 64 = 0 then
      out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
        ((hcond2_0 ⟨n + 1, hn⟩).mpr h0) (iblk2 V c 0 ⟨n + 1, hn⟩) (iblk2 V c 1 ⟨n + 1, hn⟩)
    else
      out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
        (fun h => h0 ((hcond2_0 ⟨n + 1, hn⟩).mp h)) (iblk2 V c 0 ⟨n + 1, hn⟩) (iblk2 V c 1 ⟨n + 1, hn⟩) (outsAt2 c n (Nat.lt_of_succ_lt hn))

theorem outsAt2_A (c : Dev nD) (t : Fin cfg2.N) (h0 : t.val % 64 = 0) :
    outsAt2 V c t.val t.isLt = out2_A_2 c (grid2.coords t) (ms2_0 t) (hs2_0 t) (ms2_1 t) (hs2_1 t) (ms2_2 t) (hs2_2 t) ((hcond2_0 t).mpr h0) (iblk2 V c 0 t) (iblk2 V c 1 t) := by
  obtain ⟨n, hn⟩ := t
  cases n with
  | zero => exact rfl
  | succ n => exact (dif_pos h0).trans rfl

theorem outsAt2_B (c : Dev nD) (t : Fin cfg2.N) (h0 : ¬t.val % 64 = 0) :
    outsAt2 V c t.val t.isLt = out2_B_2 c (grid2.coords t) (ms2_0 t) (hs2_0 t) (ms2_1 t) (hs2_1 t) (ms2_2 t) (hs2_2 t) (fun h => h0 ((hcond2_0 t).mp h)) (iblk2 V c 0 t) (iblk2 V c 1 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body each input's buffer at
    its block and the accumulator's at `outsAt2`; the invariant the scoped rest and the generator register; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a later point the accumulator's buffer holds what the body left at the point before: it was not written back
    between. -/
theorem before2_2_B (c : Dev nD) (t : Fin cfg2.N) (h0 : ¬t.val % 64 = 0) (d) :
    (dat2 V c).before 2 t d = (outsAt2 V c (t.val - 1) (Nat.lt_of_le_of_lt (Nat.sub_le _ _) t.isLt)) := by
  have hN : t.val < 64 := lt_of_lt_of_eq t.isLt (show cfg2.N = 64 from N_2)
  rw [Dat.before_out_kept _ 2 rfl t (by omega) (Bool.eq_false_iff.mpr fun h => by have := (flush2_2 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the inputs' buffers hold their blocks; at point 0 the first-point case runs, at any other
    the later-point case on what the point before left; the invariant passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 64 := lt_of_lt_of_eq t.isLt (show cfg2.N = 64 from N_2)
  by_cases h0 : t.val % 64 = 0
  · rw [outsAt2_A V c t h0]
    unfold out2_A_2
    iintro ⟨HΦ, Ho, ⟨%d0, H0⟩, ⟨%d1, H1⟩, ⟨%d2, H2⟩⟩
    iapply ((kernelRun2_A c (grid2.coords t) _ _ _ _ _ _ ((hcond2_0 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A_2 c _ _ _ _ _ _ _ _ _ _)
  · rw [outsAt2_B V c t h0]
    simp only [before2_2_B V c t h0]
    unfold out2_B_2
    iintro ⟨HΦ, Ho, ⟨%d0, H0⟩, ⟨%d1, H1⟩, ⟨%d2, H2⟩⟩
    iapply ((kernelRun2_B c (grid2.coords t) _ _ _ _ _ _ (fun h => h0 ((hcond2_0 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KVals.lean ====
/-
  The contents of every unscoped buffer at every boundary between the program's seven segments (four stretches of
  host operations, three kernel regions between them), as a fold from the launch memory: a host stretch applies its
  operations; a kernel region leaves its input arrays as they were and each accumulator's one-word array at what the
  region's last point wrote back.
-/
import proofs.«104143_j84421877170330_1_alg».proof.Proof.K0Frame
import proofs.«104143_j84421877170330_1_alg».proof.Proof.K1Frame
import proofs.«104143_j84421877170330_1_alg».proof.Proof.K2Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first host stretch (region 0's entry): the points standardised. -/
abbrev W1 : Dev nD → Valuation τ sig (Elt F) := fun c => StableHlo.after hostOps0 (W0 m ρ c)
abbrev T1 : (c : Dev nD) → (b : Ref sig .tc) → Buf (Elt F) ((c : Thread nD τ).loc b) := fun c b => W1 m ρ c b
/-- At region 0's exit: its two accumulators' arrays at what its last point wrote back, every other buffer as entered. -/
def W2 (c : Dev nD) : Valuation τ sig (Elt F) :=
  Function.update (Function.update (W1 m ρ c) (Proc.devRef .tc main_v7_0) ((dat0 (T1 m ρ) c).arrAt 2 cfg0.N))
    (Proc.devRef .tc main_v7_1) ((dat0 (T1 m ρ) c).arrAt 3 cfg0.N)
abbrev T2 : (c : Dev nD) → (b : Ref sig .tc) → Buf (Elt F) ((c : Thread nD τ).loc b) := fun c b => W2 m ρ c b
/-- After the second host stretch (region 1's entry). -/
abbrev W3 : Dev nD → Valuation τ sig (Elt F) := fun c => StableHlo.after hostOps1 (W2 m ρ c)
abbrev T3 : (c : Dev nD) → (b : Ref sig .tc) → Buf (Elt F) ((c : Thread nD τ).loc b) := fun c b => W3 m ρ c b
/-- At region 1's exit. -/
def W4 (c : Dev nD) : Valuation τ sig (Elt F) :=
  Function.update (Function.update (W3 m ρ c) (Proc.devRef .tc main_v10_0) ((dat1 (T3 m ρ) c).arrAt 2 cfg1.N))
    (Proc.devRef .tc main_v10_1) ((dat1 (T3 m ρ) c).arrAt 3 cfg1.N)
abbrev T4 : (c : Dev nD) → (b : Ref sig .tc) → Buf (Elt F) ((c : Thread nD τ).loc b) := fun c b => W4 m ρ c b
/-- After the third host stretch (region 2's entry). -/
abbrev W5 : Dev nD → Valuation τ sig (Elt F) := fun c => StableHlo.after hostOps2 (W4 m ρ c)
abbrev T5 : (c : Dev nD) → (b : Ref sig .tc) → Buf (Elt F) ((c : Thread nD τ).loc b) := fun c b => W5 m ρ c b
/-- At region 2's exit. -/
def W6 (c : Dev nD) : Valuation τ sig (Elt F) :=
  Function.update (W5 m ρ c) (Proc.devRef .tc main_v13) ((dat2 (T5 m ρ) c).arrAt 2 cfg2.N)
abbrev T6 : (c : Dev nD) → (b : Ref sig .tc) → Buf (Elt F) ((c : Thread nD τ).loc b) := fun c b => W6 m ρ c b
/-- After the last host stretch: the return. -/
abbrev W7 : Dev nD → Valuation τ sig (Elt F) := fun c => StableHlo.after hostOps3 (W6 m ρ c)

/-! ### What a region's exit contents hold at its arrays and off them -/

theorem ne_of_ref {r r' : Ref sig .tc} (h : r ≠ r') : (Proc.devRef .tc r : DevRef τ sig) ≠ Proc.devRef .tc r' :=
  StableHlo.devRef_ne_of_ne h

theorem hF0 (c : Dev nD) (w : Fin cfg0.W) : (dat0 (T1 m ρ) c).arrAt w cfg0.N = T2 m ρ c (Pipeline.arrRef spec0 w) := by
  match w with
  | ⟨0, _⟩ => exact ((dat0 (T1 m ρ) c).arrAt_in 0 rfl _).trans (by
      show _ = W2 m ρ c (Proc.devRef .tc main_v6); unfold W2
      rw [Function.update_of_ne (ne_of_ref (by decide)), Function.update_of_ne (ne_of_ref (by decide))]; rfl)
  | ⟨1, _⟩ => exact ((dat0 (T1 m ρ) c).arrAt_in 1 rfl _).trans (by
      show _ = W2 m ρ c (Proc.devRef .tc main_v6); unfold W2
      rw [Function.update_of_ne (ne_of_ref (by decide)), Function.update_of_ne (ne_of_ref (by decide))]; rfl)
  | ⟨2, _⟩ => exact (by
      show _ = W2 m ρ c (Proc.devRef .tc main_v7_0); unfold W2
      rw [Function.update_of_ne (ne_of_ref (by decide)), Function.update_self]; rfl)
  | ⟨3, _⟩ => exact (by
      show _ = W2 m ρ c (Proc.devRef .tc main_v7_1); unfold W2
      rw [Function.update_self]; rfl)
theorem hrest0 (c : Dev nD) : ∀ b, b ∉ Finset.univ.image (Pipeline.arrRef spec0) → T2 m ρ c b = T1 m ρ c b := fun b hb => by
  have h2 : b ≠ main_v7_0 := fun e => hb (e ▸ (by decide : main_v7_0 ∈ Finset.univ.image (Pipeline.arrRef spec0)))
  have h3 : b ≠ main_v7_1 := fun e => hb (e ▸ (by decide : main_v7_1 ∈ Finset.univ.image (Pipeline.arrRef spec0)))
  show W2 m ρ c (Proc.devRef .tc b) = W1 m ρ c (Proc.devRef .tc b); unfold W2
  rw [Function.update_of_ne (ne_of_ref h3), Function.update_of_ne (ne_of_ref h2)]

theorem hF1 (c : Dev nD) (w : Fin cfg1.W) : (dat1 (T3 m ρ) c).arrAt w cfg1.N = T4 m ρ c (Pipeline.arrRef spec1 w) := by
  match w with
  | ⟨0, _⟩ => exact ((dat1 (T3 m ρ) c).arrAt_in 0 rfl _).trans (by
      show _ = W4 m ρ c (Proc.devRef .tc main_arg3); unfold W4
      rw [Function.update_of_ne (ne_of_ref (by decide)), Function.update_of_ne (ne_of_ref (by decide))]; rfl)
  | ⟨1, _⟩ => exact ((dat1 (T3 m ρ) c).arrAt_in 1 rfl _).trans (by
      show _ = W4 m ρ c (Proc.devRef .tc main_arg3); unfold W4
      rw [Function.update_of_ne (ne_of_ref (by decide)), Function.update_of_ne (ne_of_ref (by decide))]; rfl)
  | ⟨2, _⟩ => exact (by
      show _ = W4 m ρ c (Proc.devRef .tc main_v10_0); unfold W4
      rw [Function.update_of_ne (ne_of_ref (by decide)), Function.update_self]; rfl)
  | ⟨3, _⟩ => exact (by
      show _ = W4 m ρ c (Proc.devRef .tc main_v10_1); unfold W4
      rw [Function.update_self]; rfl)
theorem hrest1 (c : Dev nD) : ∀ b, b ∉ Finset.univ.image (Pipeline.arrRef spec1) → T4 m ρ c b = T3 m ρ c b := fun b hb => by
  have h2 : b ≠ main_v10_0 := fun e => hb (e ▸ (by decide : main_v10_0 ∈ Finset.univ.image (Pipeline.arrRef spec1)))
  have h3 : b ≠ main_v10_1 := fun e => hb (e ▸ (by decide : main_v10_1 ∈ Finset.univ.image (Pipeline.arrRef spec1)))
  show W4 m ρ c (Proc.devRef .tc b) = W3 m ρ c (Proc.devRef .tc b); unfold W4
  rw [Function.update_of_ne (ne_of_ref h3), Function.update_of_ne (ne_of_ref h2)]

theorem hF2 (c : Dev nD) (w : Fin cfg2.W) : (dat2 (T5 m ρ) c).arrAt w cfg2.N = T6 m ρ c (Pipeline.arrRef spec2 w) := by
  match w with
  | ⟨0, _⟩ => exact ((dat2 (T5 m ρ) c).arrAt_in 0 rfl _).trans (by
      show _ = W6 m ρ c (Proc.devRef .tc main_v6); unfold W6
      rw [Function.update_of_ne (ne_of_ref (by decide))]; rfl)
  | ⟨1, _⟩ => exact ((dat2 (T5 m ρ) c).arrAt_in 1 rfl _).trans (by
      show _ = W6 m ρ c (Proc.devRef .tc main_arg3); unfold W6
      rw [Function.update_of_ne (ne_of_ref (by decide))]; rfl)
  | ⟨2, _⟩ => exact (by
      show _ = W6 m ρ c (Proc.devRef .tc main_v13); unfold W6
      rw [Function.update_self]; rfl)
theorem hrest2 (c : Dev nD) : ∀ b, b ∉ Finset.univ.image (Pipeline.arrRef spec2) → T6 m ρ c b = T5 m ρ c b := fun b hb => by
  have h2 : b ≠ main_v13 := fun e => hb (e ▸ (by decide : main_v13 ∈ Finset.univ.image (Pipeline.arrRef spec2)))
  show W6 m ρ c (Proc.devRef .tc b) = W5 m ρ c (Proc.devRef .tc b); unfold W6
  rw [Function.update_of_ne (ne_of_ref h2)]

end Cert.Kernel.Hand

end
-- ==== Proof.KShare.lean ====
/-
  Two of the three kernel regions hand ONE array to both of their input windows (the weights of a point set with
  itself). Each window then holds the array at half of the full share — enough to read it — and the halves rejoin
  when the region ends, the array unchanged. This module splits a core's unscoped buffers into such a region's arrays
  and the rest at the region's entry, and puts them back at its exit.
-/
import proofs.«104143_j84421877170330_1_alg».proof.Proof.Gen.Kernel.Launch
import proofs.«104143_j84421877170330_1_alg».proof.Proof.Gen.Kernel.Skeleton
import proofs.«104143_j84421877170330_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Rules.PointsTo

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 0: the array `main_v6` is read through both input windows -/

/-- ENTRY. The core's unscoped buffers at contents `V` are region 0's arrays at `V` — the doubly-read array split in
    two halves of its full share, one per input window — and the unscoped rest. -/
theorem arrays_in0 (c : Dev nD) (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (Fw : (w : Fin cfg0.W) → Buf (Elt F) ((cfg0.win w).arr.view.loc (c : Thread nD τ)))
    (hF : ∀ w, Fw w = V (Pipeline.arrRef spec0 w)) :
    (unscopedBufs c V : sProp 𝕄) ⊢ iprop(dat.arrays Fw ∗ Pipeline.unscopedRest spec0 c V) := by
  obtain rfl : Fw = fun w => V (Pipeline.arrRef spec0 w) := funext hF
  rw [Pipeline.unscopedBufs_split₀ cfgs 0 winFacts₀0.arr_unscoped c V]
  refine sep_mono ?_ .rfl
  have hs0 : dat.share 0 = fullShare.left := by unfold Dat.share; rw [if_neg (by decide)]; exact hq0
  have hs1 : dat.share 1 = fullShare.right := by unfold Dat.share; rw [if_neg (by decide)]; exact hq1
  have hs2 : dat.share 2 = fullShare := by unfold Dat.share; rw [if_pos (by decide)]
  have hs3 : dat.share 3 = fullShare := by unfold Dat.share; rw [if_pos (by decide)]
  unfold Pipeline.arrBufs Dat.arrays
  rw [show bigSep (Finset.univ.image (Pipeline.arrRef (cfgs 0).spec)) (fun b : Ref sig .tc => ((((c.tc : Thread nD τ).loc b) ↦{fullShare} V b) : sProp 𝕄))
        = iprop((((c.tc : Thread nD τ).loc main_v6) ↦{fullShare} V main_v6) ∗ (((c.tc : Thread nD τ).loc main_v7_0) ↦{fullShare} V main_v7_0) ∗ (((c.tc : Thread nD τ).loc main_v7_1) ↦{fullShare} V main_v7_1))
      from Idealize.SL.BI.bigSep_eq_bigSepL_of_eq [main_v6, main_v7_0, main_v7_1] (by decide) (by decide) _, bigSep_W0]
  rw [hs0, hs1, hs2, hs3, (arr_whole0 0).set_eq_univ, (arr_whole0 2).set_eq_univ, (arr_whole0 3).set_eq_univ]
  iintro ⟨Hin, H2, H3⟩
  ihave Hin' := (pointsTo_share (PosShare.mem_left_op_right fullShare)).1 $$ Hin
  icases Hin' with ⟨Hl, Hr⟩
  isplitl [Hl]; · iexact Hl
  isplitl [Hr]; · iexact Hr
  isplitl [H2]; · iexact H2
  iexact H3

/-- EXIT. Region 0's arrays at contents `Fw` and the unscoped rest at `V` are the core's unscoped buffers at any
    valuation `V'` that has the arrays at `Fw` and agrees with `V` off them: the two halves of the doubly-read array,
    both still at its contents, rejoin. -/
theorem arrays_out0 (c : Dev nD) (dat : Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w))
    (hrest : ∀ b, b ∉ Finset.univ.image (Pipeline.arrRef spec0) → V' b = V b) :
    iprop(dat.arrays Fw ∗ Pipeline.unscopedRest spec0 c V) ⊢ (unscopedBufs c V' : sProp 𝕄) := by
  obtain rfl : Fw = fun w => V' (Pipeline.arrRef spec0 w) := funext hF
  rw [Pipeline.unscopedBufs_split₀ cfgs 0 winFacts₀0.arr_unscoped c V']
  refine sep_mono ?_ (Entails.of_eq ?_)
  · have hs0 : dat.share 0 = fullShare.left := by unfold Dat.share; rw [if_neg (by decide)]; exact hq0
    have hs1 : dat.share 1 = fullShare.right := by unfold Dat.share; rw [if_neg (by decide)]; exact hq1
    have hs2 : dat.share 2 = fullShare := by unfold Dat.share; rw [if_pos (by decide)]
    have hs3 : dat.share 3 = fullShare := by unfold Dat.share; rw [if_pos (by decide)]
    unfold Pipeline.arrBufs Dat.arrays
    rw [show bigSep (Finset.univ.image (Pipeline.arrRef (cfgs 0).spec)) (fun b : Ref sig .tc => ((((c.tc : Thread nD τ).loc b) ↦{fullShare} V' b) : sProp 𝕄))
          = iprop((((c.tc : Thread nD τ).loc main_v6) ↦{fullShare} V' main_v6) ∗ (((c.tc : Thread nD τ).loc main_v7_0) ↦{fullShare} V' main_v7_0) ∗ (((c.tc : Thread nD τ).loc main_v7_1) ↦{fullShare} V' main_v7_1))
        from Idealize.SL.BI.bigSep_eq_bigSepL_of_eq [main_v6, main_v7_0, main_v7_1] (by decide) (by decide) _, bigSep_W0]
    rw [hs0, hs1, hs2, hs3, (arr_whole0 0).set_eq_univ, (arr_whole0 2).set_eq_univ, (arr_whole0 3).set_eq_univ]
    iintro ⟨Hl, Hr, H2, H3⟩
    isplitl [Hl Hr]
    · iapply (pointsTo_share (PosShare.mem_left_op_right fullShare)).2
      isplitl [Hl]; · iexact Hl
      iexact Hr
    isplitl [H2]; · iexact H2
    iexact H3
  · unfold Pipeline.unscopedRest
    exact bigSep_congr fun b hb => by rw [hrest b (Finset.mem_sdiff.mp hb).2]

/-! ## Region 1: the array `main_arg3` is read through both input windows -/

/-- ENTRY. The core's unscoped buffers at contents `V` are region 1's arrays at `V` — the doubly-read array split in
    two halves of its full share, one per input window — and the unscoped rest. -/
theorem arrays_in1 (c : Dev nD) (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (Fw : (w : Fin cfg1.W) → Buf (Elt F) ((cfg1.win w).arr.view.loc (c : Thread nD τ)))
    (hF : ∀ w, Fw w = V (Pipeline.arrRef spec1 w)) :
    (unscopedBufs c V : sProp 𝕄) ⊢ iprop(dat.arrays Fw ∗ Pipeline.unscopedRest spec1 c V) := by
  obtain rfl : Fw = fun w => V (Pipeline.arrRef spec1 w) := funext hF
  rw [Pipeline.unscopedBufs_split₀ cfgs 1 winFacts₀1.arr_unscoped c V]
  refine sep_mono ?_ .rfl
  have hs0 : dat.share 0 = fullShare.left := by unfold Dat.share; rw [if_neg (by decide)]; exact hq0
  have hs1 : dat.share 1 = fullShare.right := by unfold Dat.share; rw [if_neg (by decide)]; exact hq1
  have hs2 : dat.share 2 = fullShare := by unfold Dat.share; rw [if_pos (by decide)]
  have hs3 : dat.share 3 = fullShare := by unfold Dat.share; rw [if_pos (by decide)]
  unfold Pipeline.arrBufs Dat.arrays
  rw [show bigSep (Finset.univ.image (Pipeline.arrRef (cfgs 1).spec)) (fun b : Ref sig .tc => ((((c.tc : Thread nD τ).loc b) ↦{fullShare} V b) : sProp 𝕄))
        = iprop((((c.tc : Thread nD τ).loc main_arg3) ↦{fullShare} V main_arg3) ∗ (((c.tc : Thread nD τ).loc main_v10_0) ↦{fullShare} V main_v10_0) ∗ (((c.tc : Thread nD τ).loc main_v10_1) ↦{fullShare} V main_v10_1))
      from Idealize.SL.BI.bigSep_eq_bigSepL_of_eq [main_arg3, main_v10_0, main_v10_1] (by decide) (by decide) _, bigSep_W1]
  rw [hs0, hs1, hs2, hs3, (arr_whole1 0).set_eq_univ, (arr_whole1 2).set_eq_univ, (arr_whole1 3).set_eq_univ]
  iintro ⟨Hin, H2, H3⟩
  ihave Hin' := (pointsTo_share (PosShare.mem_left_op_right fullShare)).1 $$ Hin
  icases Hin' with ⟨Hl, Hr⟩
  isplitl [Hl]; · iexact Hl
  isplitl [Hr]; · iexact Hr
  isplitl [H2]; · iexact H2
  iexact H3

/-- EXIT. Region 1's arrays at contents `Fw` and the unscoped rest at `V` are the core's unscoped buffers at any
    valuation `V'` that has the arrays at `Fw` and agrees with `V` off them: the two halves of the doubly-read array,
    both still at its contents, rejoin. -/
theorem arrays_out1 (c : Dev nD) (dat : Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w))
    (hrest : ∀ b, b ∉ Finset.univ.image (Pipeline.arrRef spec1) → V' b = V b) :
    iprop(dat.arrays Fw ∗ Pipeline.unscopedRest spec1 c V) ⊢ (unscopedBufs c V' : sProp 𝕄) := by
  obtain rfl : Fw = fun w => V' (Pipeline.arrRef spec1 w) := funext hF
  rw [Pipeline.unscopedBufs_split₀ cfgs 1 winFacts₀1.arr_unscoped c V']
  refine sep_mono ?_ (Entails.of_eq ?_)
  · have hs0 : dat.share 0 = fullShare.left := by unfold Dat.share; rw [if_neg (by decide)]; exact hq0
    have hs1 : dat.share 1 = fullShare.right := by unfold Dat.share; rw [if_neg (by decide)]; exact hq1
    have hs2 : dat.share 2 = fullShare := by unfold Dat.share; rw [if_pos (by decide)]
    have hs3 : dat.share 3 = fullShare := by unfold Dat.share; rw [if_pos (by decide)]
    unfold Pipeline.arrBufs Dat.arrays
    rw [show bigSep (Finset.univ.image (Pipeline.arrRef (cfgs 1).spec)) (fun b : Ref sig .tc => ((((c.tc : Thread nD τ).loc b) ↦{fullShare} V' b) : sProp 𝕄))
          = iprop((((c.tc : Thread nD τ).loc main_arg3) ↦{fullShare} V' main_arg3) ∗ (((c.tc : Thread nD τ).loc main_v10_0) ↦{fullShare} V' main_v10_0) ∗ (((c.tc : Thread nD τ).loc main_v10_1) ↦{fullShare} V' main_v10_1))
        from Idealize.SL.BI.bigSep_eq_bigSepL_of_eq [main_arg3, main_v10_0, main_v10_1] (by decide) (by decide) _, bigSep_W1]
    rw [hs0, hs1, hs2, hs3, (arr_whole1 0).set_eq_univ, (arr_whole1 2).set_eq_univ, (arr_whole1 3).set_eq_univ]
    iintro ⟨Hl, Hr, H2, H3⟩
    isplitl [Hl Hr]
    · iapply (pointsTo_share (PosShare.mem_left_op_right fullShare)).2
      isplitl [Hl]; · iexact Hl
      iexact Hr
    isplitl [H2]; · iexact H2
    iexact H3
  · unfold Pipeline.unscopedRest
    exact bigSep_congr fun b hb => by rw [hrest b (Finset.mem_sdiff.mp hb).2]

end Cert.Kernel.Hand

end
-- ==== Proof.KRun.lean ====
/-
  THE RUN of the whole program: @main as seven segments — four stretches of host operations and the three kernel
  regions between them — from the launch to the return, with every unscoped buffer's contents named at every
  segment boundary.

  The contents are a fold from the launch memory: a host stretch applies its operations; a kernel region leaves its
  input arrays as they were and each accumulator's one-word array at what the region's last point wrote back. The
  run's post says that every weakly fair execution terminates, faulting nowhere, with every unscoped buffer at the
  last boundary's contents; the argument arrays, which no stretch and no region writes, read back through the fold
  to their launch contents.
-/
import proofs.«104143_j84421877170330_1_alg».proof.Proof.KVals
import proofs.«104143_j84421877170330_1_alg».proof.Proof.KShare
import proofs.«104143_j84421877170330_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T3 m ρ) c
  | ⟨2, _⟩ => fun c => dat2 (T5 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := StableHlo.held (c : Thread nD τ) (Pipeline.ucRefs τ sig) (W7 m ρ c)

/-! ## The regions as segments -/

set_option backward.isDefEq.respectTransparency.types false in
/-- REGION 0 over the thread state: entered from every unscoped buffer at `W1`, left at `W2`. Its arrays are split
    out of the unscoped buffers — the doubly-read array in two half shares — and put back at the exit contents; the
    generator register goes into the region's invariant and comes out; nothing is owed; the kernel has no semaphore of
    its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := arrays_in0 c (pdats m ρ 0 c) rfl rfl (T1 m ρ c) ((pdats m ρ 0 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_out0 c (pdats m ρ 0 c) rfl rfl (T1 m ρ c) (T2 m ρ c) ((pdats m ρ 0 c).arrAt · cfg0.N)
      (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split
    out of the unscoped buffers — the doubly-read array in two half shares — and put back at the exit contents; the
    generator register goes into the region's invariant and comes out; nothing is owed; the kernel has no semaphore of
    its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (T3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := arrays_in1 c (pdats m ρ 1 c) rfl rfl (T3 m ρ c) ((pdats m ρ 1 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays_out1 c (pdats m ρ 1 c) rfl rfl (T3 m ρ c) (T4 m ρ c) ((pdats m ρ 1 c).arrAt · cfg1.N)
      (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`; its three arrays are
    distinct buffers, each held whole. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (T5 m ρ c) (T6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch as a segment whose post is the last thread state beside the core owing nothing. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      show iprop(StableHlo.held (c : Thread nD τ) (Pipeline.ucRefs τ sig) (W7 m ρ c) ∗ SI s') ⊢ _
      unfold StableHlo.held
      iintro ⟨Hh, HSI⟩
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.KArgs.lean ====
/-
  What each segment of the program leaves alone. A host stretch changes only the buffers its operations write; a kernel
  region changes only its accumulators' one-word arrays. So a buffer that no stretch writes and that is no accumulator
  array holds at every later boundary what it held before; in particular each of the four argument buffers reaches the
  return holding its launch contents.
-/
import proofs.«104143_j84421877170330_1_alg».proof.Proof.KVals
import proofs.«104143_j84421877170330_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## A buffer a segment does not change -/

/-- The first host stretch leaves a buffer it does not write as launched. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- Region 0 changes its two accumulator arrays only. -/
theorem W2_of (c : Dev nD) (r : Ref sig .tc) (h0 : r ≠ main_v7_0) (h1 : r ≠ main_v7_1) :
    W2 m ρ c (Proc.devRef .tc r) = W1 m ρ c (Proc.devRef .tc r) := by
  unfold W2; rw [Function.update_of_ne (ne_of_ref h1), Function.update_of_ne (ne_of_ref h0)]
/-- The second host stretch leaves a buffer it does not write as it was. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- Region 1 changes its two accumulator arrays only. -/
theorem W4_of (c : Dev nD) (r : Ref sig .tc) (h0 : r ≠ main_v10_0) (h1 : r ≠ main_v10_1) :
    W4 m ρ c (Proc.devRef .tc r) = W3 m ρ c (Proc.devRef .tc r) := by
  unfold W4; rw [Function.update_of_ne (ne_of_ref h1), Function.update_of_ne (ne_of_ref h0)]
/-- The third host stretch leaves a buffer it does not write as it was. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- Region 2 changes its accumulator array only. -/
theorem W6_of (c : Dev nD) (r : Ref sig .tc) (h : r ≠ main_v13) :
    W6 m ρ c (Proc.devRef .tc r) = W5 m ρ c (Proc.devRef .tc r) := by
  unfold W6; rw [Function.update_of_ne (ne_of_ref h)]
/-- The last host stretch leaves a buffer it does not write as it was. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ## The arguments at the return -/

/-- Argument 0's buffer reaches the return as launched: no host stretch writes it and no region's accumulator array is it. -/
theorem W7_main_arg0 (c : Dev nD) : W7 m ρ c (Proc.devRef .tc main_arg0) = m ((c.tc : Thread nD τ).loc main_arg0) :=
  (W7_of m ρ c main_arg0 (by decide)).trans <| (W6_of m ρ c main_arg0 (by decide)).trans <|
    (W5_of m ρ c main_arg0 (by decide)).trans <| (W4_of m ρ c main_arg0 (by decide) (by decide)).trans <|
    (W3_of m ρ c main_arg0 (by decide)).trans <| (W2_of m ρ c main_arg0 (by decide) (by decide)).trans <|
    (W1_of m ρ c main_arg0 (by decide)).trans rfl

/-- Argument 1's buffer reaches the return as launched: no host stretch writes it and no region's accumulator array is it. -/
theorem W7_main_arg1 (c : Dev nD) : W7 m ρ c (Proc.devRef .tc main_arg1) = m ((c.tc : Thread nD τ).loc main_arg1) :=
  (W7_of m ρ c main_arg1 (by decide)).trans <| (W6_of m ρ c main_arg1 (by decide)).trans <|
    (W5_of m ρ c main_arg1 (by decide)).trans <| (W4_of m ρ c main_arg1 (by decide) (by decide)).trans <|
    (W3_of m ρ c main_arg1 (by decide)).trans <| (W2_of m ρ c main_arg1 (by decide) (by decide)).trans <|
    (W1_of m ρ c main_arg1 (by decide)).trans rfl

/-- Argument 2's buffer reaches the return as launched: no host stretch writes it and no region's accumulator array is it. -/
theorem W7_main_arg2 (c : Dev nD) : W7 m ρ c (Proc.devRef .tc main_arg2) = m ((c.tc : Thread nD τ).loc main_arg2) :=
  (W7_of m ρ c main_arg2 (by decide)).trans <| (W6_of m ρ c main_arg2 (by decide)).trans <|
    (W5_of m ρ c main_arg2 (by decide)).trans <| (W4_of m ρ c main_arg2 (by decide) (by decide)).trans <|
    (W3_of m ρ c main_arg2 (by decide)).trans <| (W2_of m ρ c main_arg2 (by decide) (by decide)).trans <|
    (W1_of m ρ c main_arg2 (by decide)).trans rfl

/-- Argument 3's buffer reaches the return as launched: no host stretch writes it and no region's accumulator array is it. -/
theorem W7_main_arg3 (c : Dev nD) : W7 m ρ c (Proc.devRef .tc main_arg3) = m ((c.tc : Thread nD τ).loc main_arg3) :=
  (W7_of m ρ c main_arg3 (by decide)).trans <| (W6_of m ρ c main_arg3 (by decide)).trans <|
    (W5_of m ρ c main_arg3 (by decide)).trans <| (W4_of m ρ c main_arg3 (by decide) (by decide)).trans <|
    (W3_of m ρ c main_arg3 (by decide)).trans <| (W2_of m ρ c main_arg3 (by decide) (by decide)).trans <|
    (W1_of m ρ c main_arg3 (by decide)).trans rfl

end Cert.Kernel.Hand

end
-- ==== Proof.KI0Runs.lean ====
/-
  The first kernel region (weights among the standardised points): what the body's branches leave in its two one-word accumulators (the sum of all weights of a block pair, and
  the sum of the weights on the block's diagonal), as store pieces the symbolic run finds.

  The grid is 8 × 8 points in row-major order; both accumulators' block indices are constant, so their buffers are
  written back only after the last point. The body zeroes both at the first point; at every point it adds the block's
  sum to the first; at the points on the grid's diagonal (equal coordinates) it adds the block's diagonal sum to the
  second, and elsewhere leaves the second untouched. Three cases meet the grid: the first point (both tests hold), a
  later diagonal point, an off-diagonal point.
-/
import proofs.«104143_j84421877170330_1_alg».proof.Proof.Gen.KernelIdeal.Launch
import proofs.«104143_j84421877170330_1_alg».proof.Proof.Gen.KernelIdeal.Skeleton
import proofs.«104143_j84421877170330_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first point's test and the diagonal test, as the body spells them on the grid coordinates. -/
abbrev cond0_0 (i : grid0.Coords) : Prop := k0_cond1 i = 1#1
abbrev cond0_1 (i : grid0.Coords) : Prop := k0_cond2 i = 1#1
/-- The first holds at point 0 only; the second at the points 0, 9, 18, …, 63. -/
theorem hcond0_0 : ∀ t : Fin cfg0.N, cond0_0 (grid0.coords t) ↔ t.val % 64 = 0 :=
  (by decide +kernel : ∀ t : Fin grid0.N, cond0_0 (grid0.coords t) ↔ t.val % 64 = 0)
theorem hcond0_1 : ∀ t : Fin cfg0.N, cond0_1 (grid0.coords t) ↔ t.val % 9 = 0 :=
  (by decide +kernel : ∀ t : Fin grid0.N, cond0_1 (grid0.coords t) ↔ t.val % 9 = 0)

/-- The input windows and the first accumulator are never idle; the second is idle exactly off the diagonal. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3_diag : ∀ t : Fin cfg0.N, cond0_1 (grid0.coords t) → cfg0.idle 3 (grid0.coords t) = false := by decide +kernel
theorem idleAt0_3_off : ∀ t : Fin cfg0.N, ¬cond0_0 (grid0.coords t) → ¬cond0_1 (grid0.coords t) → cfg0.idle 3 (grid0.coords t) = true := by decide +kernel

/-- One staging buffer of each accumulator, through which its contents are stated. -/
abbrev VO0_2 : View sig .tc .vmem S1x1 .f32 := (Memref.whole cc0_stg2_0 : Memref sig .tc .vmem S1x1 .f32).view
abbrev VO0_3 : View sig .tc .vmem S1x1 .f32 := (Memref.whole cc0_stg3_0 : Memref sig .tc .vmem S1x1 .f32).view
/-- Each window's current staging memref at a point, and its wholeness. -/
abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

set_option maxHeartbeats 2000000 in
/-- The first point (both tests hold): both accumulators' buffers may hold anything; the body zeroes both, adds the block
    sum to the first and the diagonal sum to the second. The pieces stored into each are the witness. -/
noncomputable def kernelRun0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : cond0_0 i) (hc1 : cond0_1 i) (x0 : Vec F S1024x64 .f32) (x1 : Vec F S1024x64 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__trace_kernel i arg2 harg2 arg3 harg3 arg4 harg4 arg5 harg5) K } := by
  refine ⟨?_, ?_, fun E K => ?run⟩
  case run =>
    simp only [cc0__trace_kernel_eq_skeleton]; unfold cc0__trace_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 2000000 in
/-- A later diagonal point: the accumulators hold the running sums `xo2`, `xo3`; the body adds the block sum to the first
    and the diagonal sum to the second. -/
noncomputable def kernelRun0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : ¬cond0_0 i) (hc1 : cond0_1 i) (x0 : Vec F S1024x64 .f32) (x1 : Vec F S1024x64 .f32) (xo2 : Vec F S1x1 .f32) (xo3 : Vec F S1x1 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__trace_kernel i arg2 harg2 arg3 harg3 arg4 harg4 arg5 harg5) K } := by
  refine ⟨?_, ?_, fun E K => ?run⟩
  case run =>
    simp only [cc0__trace_kernel_eq_skeleton]; unfold cc0__trace_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 2000000 in
/-- An off-diagonal point: the first accumulator holds the running sum `xo2` and gets the block sum added; the second,
    at any contents `x3`, is not touched. -/
noncomputable def kernelRun0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : ¬cond0_0 i) (hc1 : ¬cond0_1 i) (x0 : Vec F S1024x64 .f32) (x1 : Vec F S1024x64 .f32) (xo2 : Vec F S1x1 .f32) (x3 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare x3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare x3) -∗ K ⟨⟩))
          ⊢ wp frame (wpE (defs₀ (F := F)) Variants.none c none) E (cc0__trace_kernel i arg2 harg2 arg3 harg3 arg4 harg4 arg5 harg5) K } := by
  refine ⟨?_, fun E K => ?run⟩
  case run =>
    simp only [cc0__trace_kernel_eq_skeleton]; unfold cc0__trace_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact hf3
    iexact H3

end Cert.KernelIdeal.Hand

end
-- ==== Proof.KI0Frame.lean ====
/-
  The first kernel region (weights among the standardised points): what its two one-word accumulators hold after each grid point, the region's proof data at given entry
  contents `V`, and the body obligation at every point.

  After point 0 both hold what the first-point case leaves from the two row blocks. After point `n + 1`: on the
  grid's diagonal, what the diagonal case leaves from the blocks and the pair after point `n`; off it, the first
  what the off-diagonal case leaves and the second UNCHANGED — the body does not touch it there, and its buffer is not
  written back between points, so the next diagonal point finds what the last one left.
-/
import proofs.«104143_j84421877170330_1_alg».proof.Proof.KI0Runs
import Idealize.ShloMosaic.Lib.Pipeline.TableIdle

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Each case's stores cover the accumulators' blocks; what each case leaves -/

theorem cover0_A_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : cond0_1 i) (x0 x1 : Vec F S1024x64 .f32) (y : S1x1.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x1.size (by sl_kernel_rfl) y
theorem cover0_A_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : cond0_1 i) (x0 x1 : Vec F S1024x64 .f32) (y : S1x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x1.size (by sl_kernel_rfl) y
def out0_A_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : cond0_1 i) (x0 x1 : Vec F S1024x64 .f32) : Vec F S1x1 .f32 :=
  VO0_2.read (Elt F) (VO0_2.writes (Elt F) VO0_2.junk (kernelRun0_A c i arg2 harg2 arg3 harg3 arg4 harg4 arg5 harg5 hc0 hc1 x0 x1).1)
def out0_A_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : cond0_1 i) (x0 x1 : Vec F S1024x64 .f32) : Vec F S1x1 .f32 :=
  VO0_3.read (Elt F) (VO0_3.writes (Elt F) VO0_3.junk (kernelRun0_A c i arg2 harg2 arg3 harg3 arg4 harg4 arg5 harg5 hc0 hc1 x0 x1).2.1)

theorem cover0_B_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xo2 xo3 : Vec F S1x1 .f32) (y : S1x1.Idx) :
    ∃ pc ∈ (kernelRun0_B c i arg2 harg2 arg3 harg3 arg4 harg4 arg5 harg5 hc0 hc1 x0 x1 xo2 xo3).1, y ∈ pc.1.set :=
  View.cover_of_tiledL (kernelRun0_B c i arg2 harg2 arg3 harg3 arg4 harg4 arg5 harg5 hc0 hc1 x0 x1 xo2 xo3).1 S1x1.size (by sl_kernel_rfl) y
theorem cover0_B_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xo2 xo3 : Vec F S1x1 .f32) (y : S1x1.Idx) :
    ∃ pc ∈ (kernelRun0_B c i arg2 harg2 arg3 harg3 arg4 harg4 arg5 harg5 hc0 hc1 x0 x1 xo2 xo3).2.1, y ∈ pc.1.set :=
  View.cover_of_tiledL (kernelRun0_B c i arg2 harg2 arg3 harg3 arg4 harg4 arg5 harg5 hc0 hc1 x0 x1 xo2 xo3).2.1 S1x1.size (by sl_kernel_rfl) y
def out0_B_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xo2 xo3 : Vec F S1x1 .f32) : Vec F S1x1 .f32 :=
  VO0_2.read (Elt F) (VO0_2.writes (Elt F) VO0_2.junk (kernelRun0_B c i arg2 harg2 arg3 harg3 arg4 harg4 arg5 harg5 hc0 hc1 x0 x1 xo2 xo3).1)
def out0_B_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xo2 xo3 : Vec F S1x1 .f32) : Vec F S1x1 .f32 :=
  VO0_3.read (Elt F) (VO0_3.writes (Elt F) VO0_3.junk (kernelRun0_B c i arg2 harg2 arg3 harg3 arg4 harg4 arg5 harg5 hc0 hc1 x0 x1 xo2 xo3).2.1)

theorem cover0_C_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x64 .f32) (xo2 x3 : Vec F S1x1 .f32) (y : S1x1.Idx) :
    ∃ pc ∈ (kernelRun0_C c i arg2 harg2 arg3 harg3 arg4 harg4 arg5 harg5 hc0 hc1 x0 x1 xo2 x3).1, y ∈ pc.1.set :=
  View.cover_of_tiledL (kernelRun0_C c i arg2 harg2 arg3 harg3 arg4 harg4 arg5 harg5 hc0 hc1 x0 x1 xo2 x3).1 S1x1.size (by sl_kernel_rfl) y
def out0_C_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x64 .f32) (xo2 x3 : Vec F S1x1 .f32) : Vec F S1x1 .f32 :=
  VO0_2.read (Elt F) (VO0_2.writes (Elt F) VO0_2.junk (kernelRun0_C c i arg2 harg2 arg3 harg3 arg4 harg4 arg5 harg5 hc0 hc1 x0 x1 xo2 x3).1)

/-! ## What the accumulators hold after each point -/

/-- The pair (sum accumulator, diagonal accumulator) after the body at each point, by recursion on the point. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk0 V c 0 ⟨0, hn⟩) (iblk0 V c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk0 V c 0 ⟨0, hn⟩) (iblk0 V c 1 ⟨0, hn⟩))
  | n + 1, hn =>
    if h0 : (n + 1) % 64 = 0 then
      False.elim (by have hN : n + 1 < 64 := lt_of_lt_of_eq hn (show cfg0.N = 64 from N_0); omega)
    else
      if h1 : (n + 1) % 9 = 0 then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).1 (outsAt0 c n (Nat.lt_of_succ_lt hn)).2,
          out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).1 (outsAt0 c n (Nat.lt_of_succ_lt hn)).2)
      else
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2,
          (outsAt0 c n (Nat.lt_of_succ_lt hn)).2)

theorem outsAt0_A (c : Dev nD) (t : Fin cfg0.N) (h0 : t.val % 64 = 0) (h1 : t.val % 9 = 0) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) ((hcond0_1 t).mpr h1) (iblk0 V c 0 t) (iblk0 V c 1 t),
      out0_A_3 c (grid0.coords t) (ms0_0 t) (hs0_0 t) (ms0_1 t) (hs0_1 t) (ms0_2 t) (hs0_2 t) (ms0_3 t) (hs0_3 t) ((hcond0_0 t).mpr h0) ((hcond0_1 t).mpr h1) (iblk0 V c 0 t) (iblk0 V c 1 t)) := by
  obtain ⟨n, hn⟩ := t
  cases n with
  | zero => exact rfl
  | succ n => exact (by exfalso; have hN : n + 1 < 64 := lt_of_lt_of_eq hn (show cfg0.N = 64 from N_0); (try dsimp only at h0); omega)

theorem outsAt0_B (c : Dev nD) (t : Fin cfg0.N) (h0 : ¬t.val % 64 = 0) (h1 : t.val % 9 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t)
        (outsAt0 V c (t.val - 1) (Nat.lt_of_le_of_lt (Nat.sub_le _ _) t.isLt)).1 (outsAt0 V c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t)
        (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem outsAt0_C (c : Dev nD) (t : Fin cfg0.N) (h0 : ¬t.val % 64 = 0) (h1 : ¬t.val % 9 = 0) :
    outsAt0 V c t.val t.isLt = (out0_C_2 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk0 V c 0 t) (iblk0 V c 1 t)
        (outsAt0 V c (t.val - 1) (Nat.lt_of_le_of_lt (Nat.sub_le _ _) t.isLt)).1 (outsAt0 V c (t.val - 1) (Nat.lt_of_le_of_lt (Nat.sub_le _ _) t.isLt)).2,
      (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-! ## The region's proof data -/

/-- The region's proof data on core `c`: the arrays as the region finds them; after the body each input's buffer at
    its block and the accumulators' at `outsAt0`'s components; the invariant the scoped rest and the generator
    register; nothing owed; the two input windows, which read one array, hold it at the two halves of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- After the first point the sum accumulator's buffer holds what the body left at the point before. -/
theorem before0_2_pos (c : Dev nD) (t : Fin cfg0.N) (h0 : ¬t.val % 64 = 0) (d) :
    (dat0 V c).before 2 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]

/-- The diagonal accumulator's buffer is fresh (holds nothing the body stored) only when the first point runs. -/
theorem fresh0_3 : ∀ n, n ≤ cfg0.N → cfg0.fresh 3 n = decide (n = 0 ∨ 64 ≤ n) :=
  Pipeline.Cfg.fresh_tab cfg0 3 (fun n => decide (n = 0 ∨ 64 ≤ n)) rfl
    (by decide +kernel : ∀ t : Fin grid0.N, decide (t.val + 1 = 0 ∨ 64 ≤ t.val + 1) = ((cfg0.win 3).flush t || (cfg0.idle 3 (grid0.coords t) && decide (t.val = 0 ∨ 64 ≤ t.val))))

/-- After the first point the diagonal accumulator's buffer holds what `outsAt0` says of the point before — through
    the off-diagonal points, where the body leaves it alone, by the carried component. -/
theorem before0_3_pos (c : Dev nD) (t : Fin cfg0.N) (h0 : ¬t.val % 64 = 0) (d) :
    (dat0 V c).before 3 t d = (outsAt0 V c (t.val - 1) (Nat.lt_of_le_of_lt (Nat.sub_le _ _) t.isLt)).2 := by
  have hN : t.val < 64 := lt_of_lt_of_eq t.isLt (show cfg0.N = 64 from N_0)
  have ht0 : t.val ≠ 0 := by omega
  rw [Dat.before_out_traj (dat0 V c) 3 rfl (fun _ _ => rfl) (fun s hs hi hfr => by
      have hsN : s.val < 64 := lt_of_lt_of_eq s.isLt (show cfg0.N = 64 from N_0)
      have hc1 : ¬cond0_1 (grid0.coords s) := fun h => by rw [liveAt0_3_diag s h] at hi; exact Bool.false_ne_true hi
      have h1 : ¬s.val % 9 = 0 := fun h => hc1 ((hcond0_1 s).mpr h)
      have h0' : ¬s.val % 64 = 0 := by omega
      rw [after0_3, after0_3, outsAt0_C V c s h0' h1]) t.val t rfl d,
    fresh0_3 t.val (Nat.le_of_lt t.isLt), if_neg (by simp only [decide_eq_true_eq]; omega), after0_3]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' buffers hold their blocks; the closed forms of the two tests say which case the
    point is in; an accumulator a case reads holds what the point before left; the untouched one is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1,
    show (dat0 V c).leavesExact 2 t = owns (c : Thread nD τ) (ms0_2 t) fullShare ((dat0 V c).after 2 t) from by
      unfold Dat.leavesExact; rw [liveAt0_2 t], after0_2]
  have hN : t.val < 64 := lt_of_lt_of_eq t.isLt (show cfg0.N = 64 from N_0)
  by_cases h0 : t.val % 64 = 0
  · have h1 : t.val % 9 = 0 := by omega
    rw [show (dat0 V c).leavesExact 3 t = owns (c : Thread nD τ) (ms0_3 t) fullShare ((dat0 V c).after 3 t) from by
      unfold Dat.leavesExact; rw [liveAt0_3_diag t ((hcond0_1 t).mpr h1)], after0_3]
    rw [outsAt0_A V c t h0 h1]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) ((hcond0_1 t).mpr h1) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _)
    unfold owns; iexists _; isplitr
    swap; · iexact H3
    ipureintro; exact View.read_writes_of_cover _ _ _ _ _ (cover0_A_3 c _ _ _ _ _ _ _ _ _ _ _ _ _)
  · simp only [before0_2_pos V c t h0, before0_3_pos V c t h0]
    by_cases h1 : t.val % 9 = 0
    · rw [show (dat0 V c).leavesExact 3 t = owns (c : Thread nD τ) (ms0_3 t) fullShare ((dat0 V c).after 3 t) from by
        unfold Dat.leavesExact; rw [liveAt0_3_diag t ((hcond0_1 t).mpr h1)], after0_3]
      rw [outsAt0_B V c t h0 h1]
      unfold out0_B_2 out0_B_3; (try dsimp only)
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) ((hcond0_1 t).mpr h1) (iblk0 V c 0 t) (iblk0 V c 1 t) _ _).2.2 Set.univ _)
      isplitl [H0]; · iexact H0
      isplitl [H1]; · iexact H1
      isplitl [H2]; · iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _)
      unfold owns; iexists _; isplitr
      swap; · iexact H3
      ipureintro; exact View.read_writes_of_cover _ _ _ _ _ (cover0_B_3 c _ _ _ _ _ _ _ _ _ _ _ _ _ _ _)
    · rw [Dat.leavesExact_idle (dat0 V c) 3 t (idleAt0_3_off t (fun h => h0 ((hcond0_0 t).mp h)) (fun h => h1 ((hcond0_1 t).mp h)))
        (Bool.eq_false_iff.mpr fun h => by have := (flush0_3 _).mp h; omega)]
      simp only [before0_3_pos V c t h0]
      rw [outsAt0_C V c t h0 h1]
      unfold out0_C_2; (try dsimp only)
      iintro ⟨HΦ, Ho, ⟨%d0, H0⟩, ⟨%d1, H1⟩, ⟨%d2, H2⟩, ⟨%d3, H3⟩⟩
      iapply ((kernelRun0_C c (grid0.coords t) _ _ _ _ _ _ _ _ (fun h => h0 ((hcond0_0 t).mp h)) (fun h => h1 ((hcond0_1 t).mp h)) (iblk0 V c 0 t) (iblk0 V c 1 t) _ _).2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _)
      iexists d3; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI1Runs.lean ====
/-
  The second kernel region (weights among the prior's points): what the body's branches leave in its two one-word accumulators (the sum of all weights of a block pair, and
  the sum of the weights on the block's diagonal), as store pieces the symbolic run finds.

  The grid is 8 × 8 points in row-major order; both accumulators' block indices are constant, so their buffers are
  written back only after the last point. The body zeroes both at the first point; at every point it adds the block's
  sum to the first; at the points on the grid's diagonal (equal coordinates) it adds the block's diagonal sum to the
  second, and elsewhere leaves the second untouched. Three cases meet the grid: the first point (both tests hold), a
  later diagonal point, an off-diagonal point.
-/
import proofs.«104143_j84421877170330_1_alg».proof.Proof.Gen.KernelIdeal.Launch
import proofs.«104143_j84421877170330_1_alg».proof.Proof.Gen.KernelIdeal.Skeleton
import proofs.«104143_j84421877170330_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first point's test and the diagonal test, as the body spells them on the grid coordinates. -/
abbrev cond1_0 (i : grid1.Coords) : Prop := k1_cond1 i = 1#1
abbrev cond1_1 (i : grid1.Coords) : Prop := k1_cond2 i = 1#1
/-- The first holds at point 0 only; the second at the points 0, 9, 18, …, 63. -/
theorem hcond1_0 : ∀ t : Fin cfg1.N, cond1_0 (grid1.coords t) ↔ t.val % 64 = 0 :=
  (by decide +kernel : ∀ t : Fin grid1.N, cond1_0 (grid1.coords t) ↔ t.val % 64 = 0)
theorem hcond1_1 : ∀ t : Fin cfg1.N, cond1_1 (grid1.coords t) ↔ t.val % 9 = 0 :=
  (by decide +kernel : ∀ t : Fin grid1.N, cond1_1 (grid1.coords t) ↔ t.val % 9 = 0)

/-- The input windows and the first accumulator are never idle; the second is idle exactly off the diagonal. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3_diag : ∀ t : Fin cfg1.N, cond1_1 (grid1.coords t) → cfg1.idle 3 (grid1.coords t) = false := by decide +kernel
theorem idleAt1_3_off : ∀ t : Fin cfg1.N, ¬cond1_0 (grid1.coords t) → ¬cond1_1 (grid1.coords t) → cfg1.idle 3 (grid1.coords t) = true := by decide +kernel

/-- One staging buffer of each accumulator, through which its contents are stated. -/
abbrev VO1_2 : View sig .tc .vmem S1x1 .f32 := (Memref.whole cc1_stg2_0 : Memref sig .tc .vmem S1x1 .f32).view
abbrev VO1_3 : View sig .tc .vmem S1x1 .f32 := (Memref.whole cc1_stg3_0 : Memref sig .tc .vmem S1x1 .f32).view
/-- Each window's current staging memref at a point, and its wholeness. -/
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)

set_option maxHeartbeats 2000000 in
/-- The first point (both tests hold): both accumulators' buffers may hold anything; the body zeroes both, adds the block
    sum to the first and the diagonal sum to the second. The pieces stored into each are the witness. -/
noncomputable def kernelRun1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : cond1_0 i) (hc1 : cond1_1 i) (x0 : Vec F S1024x64 .f32) (x1 : Vec F S1024x64 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__trace_kernel i arg2 harg2 arg3 harg3 arg4 harg4 arg5 harg5) K } := by
  refine ⟨?_, ?_, fun E K => ?run⟩
  case run =>
    simp only [cc1__trace_kernel_eq_skeleton]; unfold cc1__trace_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 2000000 in
/-- A later diagonal point: the accumulators hold the running sums `xo2`, `xo3`; the body adds the block sum to the first
    and the diagonal sum to the second. -/
noncomputable def kernelRun1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : ¬cond1_0 i) (hc1 : cond1_1 i) (x0 : Vec F S1024x64 .f32) (x1 : Vec F S1024x64 .f32) (xo2 : Vec F S1x1 .f32) (xo3 : Vec F S1x1 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__trace_kernel i arg2 harg2 arg3 harg3 arg4 harg4 arg5 harg5) K } := by
  refine ⟨?_, ?_, fun E K => ?run⟩
  case run =>
    simp only [cc1__trace_kernel_eq_skeleton]; unfold cc1__trace_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 2000000 in
/-- An off-diagonal point: the first accumulator holds the running sum `xo2` and gets the block sum added; the second,
    at any contents `x3`, is not touched. -/
noncomputable def kernelRun1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole)
    (hc0 : ¬cond1_0 i) (hc1 : ¬cond1_1 i) (x0 : Vec F S1024x64 .f32) (x1 : Vec F S1024x64 .f32) (xo2 : Vec F S1x1 .f32) (x3 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare x3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare x3) -∗ K ⟨⟩))
          ⊢ wp frame (wpE (defs₀ (F := F)) Variants.none c none) E (cc1__trace_kernel i arg2 harg2 arg3 harg3 arg4 harg4 arg5 harg5) K } := by
  refine ⟨?_, fun E K => ?run⟩
  case run =>
    simp only [cc1__trace_kernel_eq_skeleton]; unfold cc1__trace_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact hf3
    iexact H3

end Cert.KernelIdeal.Hand

end
-- ==== Proof.KI1Frame.lean ====
/-
  The second kernel region (weights among the prior's points): what its two one-word accumulators hold after each grid point, the region's proof data at given entry
  contents `V`, and the body obligation at every point.

  After point 0 both hold what the first-point case leaves from the two row blocks. After point `n + 1`: on the
  grid's diagonal, what the diagonal case leaves from the blocks and the pair after point `n`; off it, the first
  what the off-diagonal case leaves and the second UNCHANGED — the body does not touch it there, and its buffer is not
  written back between points, so the next diagonal point finds what the last one left.
-/
import proofs.«104143_j84421877170330_1_alg».proof.Proof.KI1Runs
import Idealize.ShloMosaic.Lib.Pipeline.TableIdle

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Each case's stores cover the accumulators' blocks; what each case leaves -/

theorem cover1_A_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : cond1_1 i) (x0 x1 : Vec F S1024x64 .f32) (y : S1x1.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1x1.size (by sl_kernel_rfl) y
theorem cover1_A_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : cond1_1 i) (x0 x1 : Vec F S1024x64 .f32) (y : S1x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1x1.size (by sl_kernel_rfl) y
def out1_A_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : cond1_1 i) (x0 x1 : Vec F S1024x64 .f32) : Vec F S1x1 .f32 :=
  VO1_2.read (Elt F) (VO1_2.writes (Elt F) VO1_2.junk (kernelRun1_A c i arg2 harg2 arg3 harg3 arg4 harg4 arg5 harg5 hc0 hc1 x0 x1).1)
def out1_A_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : cond1_1 i) (x0 x1 : Vec F S1024x64 .f32) : Vec F S1x1 .f32 :=
  VO1_3.read (Elt F) (VO1_3.writes (Elt F) VO1_3.junk (kernelRun1_A c i arg2 harg2 arg3 harg3 arg4 harg4 arg5 harg5 hc0 hc1 x0 x1).2.1)

theorem cover1_B_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xo2 xo3 : Vec F S1x1 .f32) (y : S1x1.Idx) :
    ∃ pc ∈ (kernelRun1_B c i arg2 harg2 arg3 harg3 arg4 harg4 arg5 harg5 hc0 hc1 x0 x1 xo2 xo3).1, y ∈ pc.1.set :=
  View.cover_of_tiledL (kernelRun1_B c i arg2 harg2 arg3 harg3 arg4 harg4 arg5 harg5 hc0 hc1 x0 x1 xo2 xo3).1 S1x1.size (by sl_kernel_rfl) y
theorem cover1_B_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xo2 xo3 : Vec F S1x1 .f32) (y : S1x1.Idx) :
    ∃ pc ∈ (kernelRun1_B c i arg2 harg2 arg3 harg3 arg4 harg4 arg5 harg5 hc0 hc1 x0 x1 xo2 xo3).2.1, y ∈ pc.1.set :=
  View.cover_of_tiledL (kernelRun1_B c i arg2 harg2 arg3 harg3 arg4 harg4 arg5 harg5 hc0 hc1 x0 x1 xo2 xo3).2.1 S1x1.size (by sl_kernel_rfl) y
def out1_B_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xo2 xo3 : Vec F S1x1 .f32) : Vec F S1x1 .f32 :=
  VO1_2.read (Elt F) (VO1_2.writes (Elt F) VO1_2.junk (kernelRun1_B c i arg2 harg2 arg3 harg3 arg4 harg4 arg5 harg5 hc0 hc1 x0 x1 xo2 xo3).1)
def out1_B_3 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xo2 xo3 : Vec F S1x1 .f32) : Vec F S1x1 .f32 :=
  VO1_3.read (Elt F) (VO1_3.writes (Elt F) VO1_3.junk (kernelRun1_B c i arg2 harg2 arg3 harg3 arg4 harg4 arg5 harg5 hc0 hc1 x0 x1 xo2 xo3).2.1)

theorem cover1_C_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x64 .f32) (xo2 x3 : Vec F S1x1 .f32) (y : S1x1.Idx) :
    ∃ pc ∈ (kernelRun1_C c i arg2 harg2 arg3 harg3 arg4 harg4 arg5 harg5 hc0 hc1 x0 x1 xo2 x3).1, y ∈ pc.1.set :=
  View.cover_of_tiledL (kernelRun1_C c i arg2 harg2 arg3 harg3 arg4 harg4 arg5 harg5 hc0 hc1 x0 x1 xo2 x3).1 S1x1.size (by sl_kernel_rfl) y
def out1_C_2 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x64 .f32) (xo2 x3 : Vec F S1x1 .f32) : Vec F S1x1 .f32 :=
  VO1_2.read (Elt F) (VO1_2.writes (Elt F) VO1_2.junk (kernelRun1_C c i arg2 harg2 arg3 harg3 arg4 harg4 arg5 harg5 hc0 hc1 x0 x1 xo2 x3).1)

/-! ## What the accumulators hold after each point -/

/-- The pair (sum accumulator, diagonal accumulator) after the body at each point, by recursion on the point. -/
def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) ((hcond1_1 ⟨0, hn⟩).mpr (Nat.zero_mod _)) (iblk1 V c 0 ⟨0, hn⟩) (iblk1 V c 1 ⟨0, hn⟩),
      out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) ((hcond1_1 ⟨0, hn⟩).mpr (Nat.zero_mod _)) (iblk1 V c 0 ⟨0, hn⟩) (iblk1 V c 1 ⟨0, hn⟩))
  | n + 1, hn =>
    if h0 : (n + 1) % 64 = 0 then
      False.elim (by have hN : n + 1 < 64 := lt_of_lt_of_eq hn (show cfg1.N = 64 from N_1); omega)
    else
      if h1 : (n + 1) % 9 = 0 then
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).1 (outsAt1 c n (Nat.lt_of_succ_lt hn)).2,
          out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).1 (outsAt1 c n (Nat.lt_of_succ_lt hn)).2)
      else
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2,
          (outsAt1 c n (Nat.lt_of_succ_lt hn)).2)

theorem outsAt1_A (c : Dev nD) (t : Fin cfg1.N) (h0 : t.val % 64 = 0) (h1 : t.val % 9 = 0) :
    outsAt1 V c t.val t.isLt = (out1_A_2 c (grid1.coords t) (ms1_0 t) (hs1_0 t) (ms1_1 t) (hs1_1 t) (ms1_2 t) (hs1_2 t) (ms1_3 t) (hs1_3 t) ((hcond1_0 t).mpr h0) ((hcond1_1 t).mpr h1) (iblk1 V c 0 t) (iblk1 V c 1 t),
      out1_A_3 c (grid1.coords t) (ms1_0 t) (hs1_0 t) (ms1_1 t) (hs1_1 t) (ms1_2 t) (hs1_2 t) (ms1_3 t) (hs1_3 t) ((hcond1_0 t).mpr h0) ((hcond1_1 t).mpr h1) (iblk1 V c 0 t) (iblk1 V c 1 t)) := by
  obtain ⟨n, hn⟩ := t
  cases n with
  | zero => exact rfl
  | succ n => exact (by exfalso; have hN : n + 1 < 64 := lt_of_lt_of_eq hn (show cfg1.N = 64 from N_1); (try dsimp only at h0); omega)

theorem outsAt1_B (c : Dev nD) (t : Fin cfg1.N) (h0 : ¬t.val % 64 = 0) (h1 : t.val % 9 = 0) :
    outsAt1 V c t.val t.isLt = (out1_B_2 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t)
        (outsAt1 V c (t.val - 1) (Nat.lt_of_le_of_lt (Nat.sub_le _ _) t.isLt)).1 (outsAt1 V c (t.val - 1) (Nat.lt_of_le_of_lt (Nat.sub_le _ _) t.isLt)).2,
      out1_B_3 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t)
        (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem outsAt1_C (c : Dev nD) (t : Fin cfg1.N) (h0 : ¬t.val % 64 = 0) (h1 : ¬t.val % 9 = 0) :
    outsAt1 V c t.val t.isLt = (out1_C_2 c (grid1.coords t) (ms1_0 t) (hs1_0 t) (ms1_1 t) (hs1_1 t) (ms1_2 t) (hs1_2 t) (ms1_3 t) (hs1_3 t) (fun h => h0 ((hcond1_0 t).mp h)) (fun h => h1 ((hcond1_1 t).mp h)) (iblk1 V c 0 t) (iblk1 V c 1 t)
        (outsAt1 V c (t.val - 1) (Nat.lt_of_le_of_lt (Nat.sub_le _ _) t.isLt)).1 (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-! ## The region's proof data -/

/-- The region's proof data on core `c`: the arrays as the region finds them; after the body each input's buffer at
    its block and the accumulators' at `outsAt1`'s components; the invariant the scoped rest and the generator
    register; nothing owed; the two input windows, which read one array, hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- After the first point the sum accumulator's buffer holds what the body left at the point before. -/
theorem before1_2_pos (c : Dev nD) (t : Fin cfg1.N) (h0 : ¬t.val % 64 = 0) (d) :
    (dat1 V c).before 2 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-- The diagonal accumulator's buffer is fresh (holds nothing the body stored) only when the first point runs. -/
theorem fresh1_3 : ∀ n, n ≤ cfg1.N → cfg1.fresh 3 n = decide (n = 0 ∨ 64 ≤ n) :=
  Pipeline.Cfg.fresh_tab cfg1 3 (fun n => decide (n = 0 ∨ 64 ≤ n)) rfl
    (by decide +kernel : ∀ t : Fin grid1.N, decide (t.val + 1 = 0 ∨ 64 ≤ t.val + 1) = ((cfg1.win 3).flush t || (cfg1.idle 3 (grid1.coords t) && decide (t.val = 0 ∨ 64 ≤ t.val))))

/-- After the first point the diagonal accumulator's buffer holds what `outsAt1` says of the point before — through
    the off-diagonal points, where the body leaves it alone, by the carried component. -/
theorem before1_3_pos (c : Dev nD) (t : Fin cfg1.N) (h0 : ¬t.val % 64 = 0) (d) :
    (dat1 V c).before 3 t d = (outsAt1 V c (t.val - 1) (Nat.lt_of_le_of_lt (Nat.sub_le _ _) t.isLt)).2 := by
  have hN : t.val < 64 := lt_of_lt_of_eq t.isLt (show cfg1.N = 64 from N_1)
  have ht0 : t.val ≠ 0 := by omega
  rw [Dat.before_out_traj (dat1 V c) 3 rfl (fun _ _ => rfl) (fun s hs hi hfr => by
      have hsN : s.val < 64 := lt_of_lt_of_eq s.isLt (show cfg1.N = 64 from N_1)
      have hc1 : ¬cond1_1 (grid1.coords s) := fun h => by rw [liveAt1_3_diag s h] at hi; exact Bool.false_ne_true hi
      have h1 : ¬s.val % 9 = 0 := fun h => hc1 ((hcond1_1 s).mpr h)
      have h0' : ¬s.val % 64 = 0 := by omega
      rw [after1_3, after1_3, outsAt1_C V c s h0' h1]) t.val t rfl d,
    fresh1_3 t.val (Nat.le_of_lt t.isLt), if_neg (by simp only [decide_eq_true_eq]; omega), after1_3]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' buffers hold their blocks; the closed forms of the two tests say which case the
    point is in; an accumulator a case reads holds what the point before left; the untouched one is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2]
  have hN : t.val < 64 := lt_of_lt_of_eq t.isLt (show cfg1.N = 64 from N_1)
  by_cases h0 : t.val % 64 = 0
  · have h1 : t.val % 9 = 0 := by omega
    rw [show (dat1 V c).leavesExact 3 t = owns (c : Thread nD τ) (ms1_3 t) fullShare ((dat1 V c).after 3 t) from by
      unfold Dat.leavesExact; rw [liveAt1_3_diag t ((hcond1_1 t).mpr h1)], after1_3]
    rw [outsAt1_A V c t h0 h1]
    unfold out1_A_2 out1_A_3; (try dsimp only)
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) ((hcond1_1 t).mpr h1) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _)
    unfold owns; iexists _; isplitr
    swap; · iexact H3
    ipureintro; exact View.read_writes_of_cover _ _ _ _ _ (cover1_A_3 c _ _ _ _ _ _ _ _ _ _ _ _ _)
  · simp only [before1_2_pos V c t h0, before1_3_pos V c t h0]
    by_cases h1 : t.val % 9 = 0
    · rw [show (dat1 V c).leavesExact 3 t = owns (c : Thread nD τ) (ms1_3 t) fullShare ((dat1 V c).after 3 t) from by
        unfold Dat.leavesExact; rw [liveAt1_3_diag t ((hcond1_1 t).mpr h1)], after1_3]
      rw [outsAt1_B V c t h0 h1]
      unfold out1_B_2 out1_B_3; (try dsimp only)
      iintro ⟨HΦ, Ho, ⟨%d0, H0⟩, ⟨%d1, H1⟩, ⟨%d2, H2⟩, ⟨%d3, H3⟩⟩
      iapply ((kernelRun1_B c (grid1.coords t) _ _ _ _ _ _ _ _ (fun h => h0 ((hcond1_0 t).mp h)) ((hcond1_1 t).mpr h1) (iblk1 V c 0 t) (iblk1 V c 1 t) _ _).2.2 Set.univ _)
      isplitl [H0]; · iexact H0
      isplitl [H1]; · iexact H1
      isplitl [H2]; · iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_B_2 c _ _ _ _ _ _ _ _ _ _ _ _ _ _ _)
      unfold owns; iexists _; isplitr
      swap; · iexact H3
      ipureintro; exact View.read_writes_of_cover _ _ _ _ _ (cover1_B_3 c _ _ _ _ _ _ _ _ _ _ _ _ _ _ _)
    · rw [Dat.leavesExact_idle (dat1 V c) 3 t (idleAt1_3_off t (fun h => h0 ((hcond1_0 t).mp h)) (fun h => h1 ((hcond1_1 t).mp h)))
        (Bool.eq_false_iff.mpr fun h => by have := (flush1_3 _).mp h; omega)]
      simp only [before1_3_pos V c t h0]
      rw [outsAt1_C V c t h0 h1]
      unfold out1_C_2; (try dsimp only)
      iintro ⟨HΦ, Ho, ⟨%d0, H0⟩, ⟨%d1, H1⟩, ⟨%d2, H2⟩, ⟨%d3, H3⟩⟩
      iapply ((kernelRun1_C c (grid1.coords t) _ _ _ _ _ _ _ _ (fun h => h0 ((hcond1_0 t).mp h)) (fun h => h1 ((hcond1_1 t).mp h)) (iblk1 V c 0 t) (iblk1 V c 1 t) _ _).2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _)
      iexists d3; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI2Runs.lean ====
/-
  The third kernel region (the cross sum of weights) on its own: what the body's two branches leave in the one-word
  accumulator, as store pieces the symbolic run finds.

  The grid is 8 × 8 points in row-major order. The accumulator's block index is constant, so its buffer is written
  back only after the last point; the body zeroes it at the first point (both coordinates 0) and at every point adds
  the point's block sum to what it holds. Two cases: the first point (zeroed, then read and overwritten) and every
  later point (read at what the point before left, overwritten).
-/
import proofs.«104143_j84421877170330_1_alg».proof.Proof.Gen.KernelIdeal.Launch
import proofs.«104143_j84421877170330_1_alg».proof.Proof.Gen.KernelIdeal.Skeleton
import proofs.«104143_j84421877170330_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first point's test, as the body spells it on the grid coordinates. -/
abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond2_0 : ∀ t : Fin cfg2.N, cond2_0 (grid2.coords t) ↔ t.val % 64 = 0 :=
  (by decide +kernel : ∀ t : Fin grid2.N, cond2_0 (grid2.coords t) ↔ t.val % 64 = 0)

/-- One staging buffer of the accumulator, through which its contents are stated. -/
abbrev VO2_2 : View sig .tc .vmem S1x1 .f32 := (Memref.whole cc2_stg2_0 : Memref sig .tc .vmem S1x1 .f32).view
/-- Each window's current staging memref at a point, and its wholeness. -/
abbrev ms2_0 (t : Fin cfg2.N) : Memref sig .tc .vmem S1024x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

set_option maxHeartbeats 1000000 in
/-- The first point: the accumulator's buffer may hold anything; the body zeroes it, reads it back, adds the block
    sum of the two row blocks and stores the result. The pieces stored are the witness. -/
noncomputable def kernelRun2_A (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : cond2_0 i) (x0 : Vec F S1024x64 .f32) (x1 : Vec F S1024x64 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__sum_kernel i arg2 harg2 arg3 harg3 arg4 harg4) K } := by
  refine ⟨?_, fun E K => ?run⟩
  case run =>
    simp only [cc2__sum_kernel_eq_skeleton]; unfold cc2__sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A later point: the accumulator's buffer holds the running sum `xo2`; the body reads it, adds the block sum and
    stores the result. -/
noncomputable def kernelRun2_B (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : ¬cond2_0 i) (x0 : Vec F S1024x64 .f32) (x1 : Vec F S1024x64 .f32) (xo2 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__sum_kernel i arg2 harg2 arg3 harg3 arg4 harg4) K } := by
  refine ⟨?_, fun E K => ?run⟩
  case run =>
    simp only [cc2__sum_kernel_eq_skeleton]; unfold cc2__sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI2Frame.lean ====
/-
  The third kernel region (the cross sum of weights): what its one-word accumulator holds after each grid point, the
  region's proof data at given entry contents `V`, and the body obligation at every point.

  After point 0 the accumulator holds what the first-point case leaves from the two row blocks; after point
  `n + 1` what the later-point case leaves from the blocks and from the contents after point `n` — the buffer is
  not written back between points (its block index never moves), so each point finds what the one before left.
-/
import proofs.«104143_j84421877170330_1_alg».proof.Proof.KI2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first-point case's stores cover the accumulator's block. -/
theorem cover2_A_2 (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : cond2_0 i) (x0 x1 : Vec F S1024x64 .f32) (y : S1x1.Idx) :
    ∃ pc ∈ (kernelRun2_A c i arg2 harg2 arg3 harg3 arg4 harg4 hc0 x0 x1).1, y ∈ pc.1.set :=
  View.cover_of_tiledL (kernelRun2_A c i arg2 harg2 arg3 harg3 arg4 harg4 hc0 x0 x1).1 S1x1.size (by sl_kernel_rfl) y

/-- What the first-point case leaves in the accumulator. -/
def out2_A_2 (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : cond2_0 i) (x0 x1 : Vec F S1024x64 .f32) : Vec F S1x1 .f32 :=
  VO2_2.read (Elt F) (VO2_2.writes (Elt F) VO2_2.junk (kernelRun2_A c i arg2 harg2 arg3 harg3 arg4 harg4 hc0 x0 x1).1)

/-- The later-point case's stores cover the accumulator's block. -/
theorem cover2_B_2 (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : ¬cond2_0 i) (x0 x1 : Vec F S1024x64 .f32) (xo2 : Vec F S1x1 .f32) (y : S1x1.Idx) :
    ∃ pc ∈ (kernelRun2_B c i arg2 harg2 arg3 harg3 arg4 harg4 hc0 x0 x1 xo2).1, y ∈ pc.1.set :=
  View.cover_of_tiledL (kernelRun2_B c i arg2 harg2 arg3 harg3 arg4 harg4 hc0 x0 x1 xo2).1 S1x1.size (by sl_kernel_rfl) y

/-- What the later-point case leaves in the accumulator. -/
def out2_B_2 (c : Dev nD) (i : grid2.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc0 : ¬cond2_0 i) (x0 x1 : Vec F S1024x64 .f32) (xo2 : Vec F S1x1 .f32) : Vec F S1x1 .f32 :=
  VO2_2.read (Elt F) (VO2_2.writes (Elt F) VO2_2.junk (kernelRun2_B c i arg2 harg2 arg3 harg3 arg4 harg4 hc0 x0 x1 xo2).1)

/-- The accumulator after the body at each point, by recursion on the point. -/
def outsAt2 (c : Dev nD) : (n : ℕ) → n < cfg2.N → Vec F S1x1 .f32
  | 0, hn => out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩)
      ((hcond2_0 ⟨0, hn⟩).mpr (Nat.zero_mod _)) (iblk2 V c 0 ⟨0, hn⟩) (iblk2 V c 1 ⟨0, hn⟩)
  | n + 1, hn =>
    if h0 : (n + 1) % 64 = 0 then
      out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
        ((hcond2_0 ⟨n + 1, hn⟩).mpr h0) (iblk2 V c 0 ⟨n + 1, hn⟩) (iblk2 V c 1 ⟨n + 1, hn⟩)
    else
      out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
        (fun h => h0 ((hcond2_0 ⟨n + 1, hn⟩).mp h)) (iblk2 V c 0 ⟨n + 1, hn⟩) (iblk2 V c 1 ⟨n + 1, hn⟩) (outsAt2 c n (Nat.lt_of_succ_lt hn))

theorem outsAt2_A (c : Dev nD) (t : Fin cfg2.N) (h0 : t.val % 64 = 0) :
    outsAt2 V c t.val t.isLt = out2_A_2 c (grid2.coords t) (ms2_0 t) (hs2_0 t) (ms2_1 t) (hs2_1 t) (ms2_2 t) (hs2_2 t) ((hcond2_0 t).mpr h0) (iblk2 V c 0 t) (iblk2 V c 1 t) := by
  obtain ⟨n, hn⟩ := t
  cases n with
  | zero => exact rfl
  | succ n => exact (dif_pos h0).trans rfl

theorem outsAt2_B (c : Dev nD) (t : Fin cfg2.N) (h0 : ¬t.val % 64 = 0) :
    outsAt2 V c t.val t.isLt = out2_B_2 c (grid2.coords t) (ms2_0 t) (hs2_0 t) (ms2_1 t) (hs2_1 t) (ms2_2 t) (hs2_2 t) (fun h => h0 ((hcond2_0 t).mp h)) (iblk2 V c 0 t) (iblk2 V c 1 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body each input's buffer at
    its block and the accumulator's at `outsAt2`; the invariant the scoped rest and the generator register; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a later point the accumulator's buffer holds what the body left at the point before: it was not written back
    between. -/
theorem before2_2_B (c : Dev nD) (t : Fin cfg2.N) (h0 : ¬t.val % 64 = 0) (d) :
    (dat2 V c).before 2 t d = (outsAt2 V c (t.val - 1) (Nat.lt_of_le_of_lt (Nat.sub_le _ _) t.isLt)) := by
  have hN : t.val < 64 := lt_of_lt_of_eq t.isLt (show cfg2.N = 64 from N_2)
  rw [Dat.before_out_kept _ 2 rfl t (by omega) (Bool.eq_false_iff.mpr fun h => by have := (flush2_2 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the inputs' buffers hold their blocks; at point 0 the first-point case runs, at any other
    the later-point case on what the point before left; the invariant passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 64 := lt_of_lt_of_eq t.isLt (show cfg2.N = 64 from N_2)
  by_cases h0 : t.val % 64 = 0
  · rw [outsAt2_A V c t h0]
    unfold out2_A_2
    iintro ⟨HΦ, Ho, ⟨%d0, H0⟩, ⟨%d1, H1⟩, ⟨%d2, H2⟩⟩
    iapply ((kernelRun2_A c (grid2.coords t) _ _ _ _ _ _ ((hcond2_0 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A_2 c _ _ _ _ _ _ _ _ _ _)
  · rw [outsAt2_B V c t h0]
    simp only [before2_2_B V c t h0]
    unfold out2_B_2
    iintro ⟨HΦ, Ho, ⟨%d0, H0⟩, ⟨%d1, H1⟩, ⟨%d2, H2⟩⟩
    iapply ((kernelRun2_B c (grid2.coords t) _ _ _ _ _ _ (fun h => h0 ((hcond2_0 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIVals.lean ====
/-
  The contents of every unscoped buffer at every boundary between the program's seven segments (four stretches of
  host operations, three kernel regions between them), as a fold from the launch memory: a host stretch applies its
  operations; a kernel region leaves its input arrays as they were and each accumulator's one-word array at what the
  region's last point wrote back.
-/
import proofs.«104143_j84421877170330_1_alg».proof.Proof.KI0Frame
import proofs.«104143_j84421877170330_1_alg».proof.Proof.KI1Frame
import proofs.«104143_j84421877170330_1_alg».proof.Proof.KI2Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first host stretch (region 0's entry): the points standardised. -/
abbrev W1 : Dev nD → Valuation τ sig (Elt F) := fun c => StableHlo.after hostOps0 (W0 m ρ c)
abbrev T1 : (c : Dev nD) → (b : Ref sig .tc) → Buf (Elt F) ((c : Thread nD τ).loc b) := fun c b => W1 m ρ c b
/-- At region 0's exit: its two accumulators' arrays at what its last point wrote back, every other buffer as entered. -/
def W2 (c : Dev nD) : Valuation τ sig (Elt F) :=
  Function.update (Function.update (W1 m ρ c) (Proc.devRef .tc main_v7_0) ((dat0 (T1 m ρ) c).arrAt 2 cfg0.N))
    (Proc.devRef .tc main_v7_1) ((dat0 (T1 m ρ) c).arrAt 3 cfg0.N)
abbrev T2 : (c : Dev nD) → (b : Ref sig .tc) → Buf (Elt F) ((c : Thread nD τ).loc b) := fun c b => W2 m ρ c b
/-- After the second host stretch (region 1's entry). -/
abbrev W3 : Dev nD → Valuation τ sig (Elt F) := fun c => StableHlo.after hostOps1 (W2 m ρ c)
abbrev T3 : (c : Dev nD) → (b : Ref sig .tc) → Buf (Elt F) ((c : Thread nD τ).loc b) := fun c b => W3 m ρ c b
/-- At region 1's exit. -/
def W4 (c : Dev nD) : Valuation τ sig (Elt F) :=
  Function.update (Function.update (W3 m ρ c) (Proc.devRef .tc main_v10_0) ((dat1 (T3 m ρ) c).arrAt 2 cfg1.N))
    (Proc.devRef .tc main_v10_1) ((dat1 (T3 m ρ) c).arrAt 3 cfg1.N)
abbrev T4 : (c : Dev nD) → (b : Ref sig .tc) → Buf (Elt F) ((c : Thread nD τ).loc b) := fun c b => W4 m ρ c b
/-- After the third host stretch (region 2's entry). -/
abbrev W5 : Dev nD → Valuation τ sig (Elt F) := fun c => StableHlo.after hostOps2 (W4 m ρ c)
abbrev T5 : (c : Dev nD) → (b : Ref sig .tc) → Buf (Elt F) ((c : Thread nD τ).loc b) := fun c b => W5 m ρ c b
/-- At region 2's exit. -/
def W6 (c : Dev nD) : Valuation τ sig (Elt F) :=
  Function.update (W5 m ρ c) (Proc.devRef .tc main_v13) ((dat2 (T5 m ρ) c).arrAt 2 cfg2.N)
abbrev T6 : (c : Dev nD) → (b : Ref sig .tc) → Buf (Elt F) ((c : Thread nD τ).loc b) := fun c b => W6 m ρ c b
/-- After the last host stretch: the return. -/
abbrev W7 : Dev nD → Valuation τ sig (Elt F) := fun c => StableHlo.after hostOps3 (W6 m ρ c)

/-! ### What a region's exit contents hold at its arrays and off them -/

theorem ne_of_ref {r r' : Ref sig .tc} (h : r ≠ r') : (Proc.devRef .tc r : DevRef τ sig) ≠ Proc.devRef .tc r' :=
  StableHlo.devRef_ne_of_ne h

theorem hF0 (c : Dev nD) (w : Fin cfg0.W) : (dat0 (T1 m ρ) c).arrAt w cfg0.N = T2 m ρ c (Pipeline.arrRef spec0 w) := by
  match w with
  | ⟨0, _⟩ => exact ((dat0 (T1 m ρ) c).arrAt_in 0 rfl _).trans (by
      show _ = W2 m ρ c (Proc.devRef .tc main_v6); unfold W2
      rw [Function.update_of_ne (ne_of_ref (by decide)), Function.update_of_ne (ne_of_ref (by decide))]; rfl)
  | ⟨1, _⟩ => exact ((dat0 (T1 m ρ) c).arrAt_in 1 rfl _).trans (by
      show _ = W2 m ρ c (Proc.devRef .tc main_v6); unfold W2
      rw [Function.update_of_ne (ne_of_ref (by decide)), Function.update_of_ne (ne_of_ref (by decide))]; rfl)
  | ⟨2, _⟩ => exact (by
      show _ = W2 m ρ c (Proc.devRef .tc main_v7_0); unfold W2
      rw [Function.update_of_ne (ne_of_ref (by decide)), Function.update_self]; rfl)
  | ⟨3, _⟩ => exact (by
      show _ = W2 m ρ c (Proc.devRef .tc main_v7_1); unfold W2
      rw [Function.update_self]; rfl)
theorem hrest0 (c : Dev nD) : ∀ b, b ∉ Finset.univ.image (Pipeline.arrRef spec0) → T2 m ρ c b = T1 m ρ c b := fun b hb => by
  have h2 : b ≠ main_v7_0 := fun e => hb (e ▸ (by decide : main_v7_0 ∈ Finset.univ.image (Pipeline.arrRef spec0)))
  have h3 : b ≠ main_v7_1 := fun e => hb (e ▸ (by decide : main_v7_1 ∈ Finset.univ.image (Pipeline.arrRef spec0)))
  show W2 m ρ c (Proc.devRef .tc b) = W1 m ρ c (Proc.devRef .tc b); unfold W2
  rw [Function.update_of_ne (ne_of_ref h3), Function.update_of_ne (ne_of_ref h2)]

theorem hF1 (c : Dev nD) (w : Fin cfg1.W) : (dat1 (T3 m ρ) c).arrAt w cfg1.N = T4 m ρ c (Pipeline.arrRef spec1 w) := by
  match w with
  | ⟨0, _⟩ => exact ((dat1 (T3 m ρ) c).arrAt_in 0 rfl _).trans (by
      show _ = W4 m ρ c (Proc.devRef .tc main_arg3); unfold W4
      rw [Function.update_of_ne (ne_of_ref (by decide)), Function.update_of_ne (ne_of_ref (by decide))]; rfl)
  | ⟨1, _⟩ => exact ((dat1 (T3 m ρ) c).arrAt_in 1 rfl _).trans (by
      show _ = W4 m ρ c (Proc.devRef .tc main_arg3); unfold W4
      rw [Function.update_of_ne (ne_of_ref (by decide)), Function.update_of_ne (ne_of_ref (by decide))]; rfl)
  | ⟨2, _⟩ => exact (by
      show _ = W4 m ρ c (Proc.devRef .tc main_v10_0); unfold W4
      rw [Function.update_of_ne (ne_of_ref (by decide)), Function.update_self]; rfl)
  | ⟨3, _⟩ => exact (by
      show _ = W4 m ρ c (Proc.devRef .tc main_v10_1); unfold W4
      rw [Function.update_self]; rfl)
theorem hrest1 (c : Dev nD) : ∀ b, b ∉ Finset.univ.image (Pipeline.arrRef spec1) → T4 m ρ c b = T3 m ρ c b := fun b hb => by
  have h2 : b ≠ main_v10_0 := fun e => hb (e ▸ (by decide : main_v10_0 ∈ Finset.univ.image (Pipeline.arrRef spec1)))
  have h3 : b ≠ main_v10_1 := fun e => hb (e ▸ (by decide : main_v10_1 ∈ Finset.univ.image (Pipeline.arrRef spec1)))
  show W4 m ρ c (Proc.devRef .tc b) = W3 m ρ c (Proc.devRef .tc b); unfold W4
  rw [Function.update_of_ne (ne_of_ref h3), Function.update_of_ne (ne_of_ref h2)]

theorem hF2 (c : Dev nD) (w : Fin cfg2.W) : (dat2 (T5 m ρ) c).arrAt w cfg2.N = T6 m ρ c (Pipeline.arrRef spec2 w) := by
  match w with
  | ⟨0, _⟩ => exact ((dat2 (T5 m ρ) c).arrAt_in 0 rfl _).trans (by
      show _ = W6 m ρ c (Proc.devRef .tc main_v6); unfold W6
      rw [Function.update_of_ne (ne_of_ref (by decide))]; rfl)
  | ⟨1, _⟩ => exact ((dat2 (T5 m ρ) c).arrAt_in 1 rfl _).trans (by
      show _ = W6 m ρ c (Proc.devRef .tc main_arg3); unfold W6
      rw [Function.update_of_ne (ne_of_ref (by decide))]; rfl)
  | ⟨2, _⟩ => exact (by
      show _ = W6 m ρ c (Proc.devRef .tc main_v13); unfold W6
      rw [Function.update_self]; rfl)
theorem hrest2 (c : Dev nD) : ∀ b, b ∉ Finset.univ.image (Pipeline.arrRef spec2) → T6 m ρ c b = T5 m ρ c b := fun b hb => by
  have h2 : b ≠ main_v13 := fun e => hb (e ▸ (by decide : main_v13 ∈ Finset.univ.image (Pipeline.arrRef spec2)))
  show W6 m ρ c (Proc.devRef .tc b) = W5 m ρ c (Proc.devRef .tc b); unfold W6
  rw [Function.update_of_ne (ne_of_ref h2)]

end Cert.KernelIdeal.Hand

end
-- ==== Proof.KIShare.lean ====
/-
  Two of the three kernel regions hand ONE array to both of their input windows (the weights of a point set with
  itself). Each window then holds the array at half of the full share — enough to read it — and the halves rejoin
  when the region ends, the array unchanged. This module splits a core's unscoped buffers into such a region's arrays
  and the rest at the region's entry, and puts them back at its exit.
-/
import proofs.«104143_j84421877170330_1_alg».proof.Proof.Gen.KernelIdeal.Launch
import proofs.«104143_j84421877170330_1_alg».proof.Proof.Gen.KernelIdeal.Skeleton
import proofs.«104143_j84421877170330_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Rules.PointsTo

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 0: the array `main_v6` is read through both input windows -/

/-- ENTRY. The core's unscoped buffers at contents `V` are region 0's arrays at `V` — the doubly-read array split in
    two halves of its full share, one per input window — and the unscoped rest. -/
theorem arrays_in0 (c : Dev nD) (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (Fw : (w : Fin cfg0.W) → Buf (Elt F) ((cfg0.win w).arr.view.loc (c : Thread nD τ)))
    (hF : ∀ w, Fw w = V (Pipeline.arrRef spec0 w)) :
    (unscopedBufs c V : sProp 𝕄) ⊢ iprop(dat.arrays Fw ∗ Pipeline.unscopedRest spec0 c V) := by
  obtain rfl : Fw = fun w => V (Pipeline.arrRef spec0 w) := funext hF
  rw [Pipeline.unscopedBufs_split₀ cfgs 0 winFacts₀0.arr_unscoped c V]
  refine sep_mono ?_ .rfl
  have hs0 : dat.share 0 = fullShare.left := by unfold Dat.share; rw [if_neg (by decide)]; exact hq0
  have hs1 : dat.share 1 = fullShare.right := by unfold Dat.share; rw [if_neg (by decide)]; exact hq1
  have hs2 : dat.share 2 = fullShare := by unfold Dat.share; rw [if_pos (by decide)]
  have hs3 : dat.share 3 = fullShare := by unfold Dat.share; rw [if_pos (by decide)]
  unfold Pipeline.arrBufs Dat.arrays
  rw [show bigSep (Finset.univ.image (Pipeline.arrRef (cfgs 0).spec)) (fun b : Ref sig .tc => ((((c.tc : Thread nD τ).loc b) ↦{fullShare} V b) : sProp 𝕄))
        = iprop((((c.tc : Thread nD τ).loc main_v6) ↦{fullShare} V main_v6) ∗ (((c.tc : Thread nD τ).loc main_v7_0) ↦{fullShare} V main_v7_0) ∗ (((c.tc : Thread nD τ).loc main_v7_1) ↦{fullShare} V main_v7_1))
      from Idealize.SL.BI.bigSep_eq_bigSepL_of_eq [main_v6, main_v7_0, main_v7_1] (by decide) (by decide) _, bigSep_W0]
  rw [hs0, hs1, hs2, hs3, (arr_whole0 0).set_eq_univ, (arr_whole0 2).set_eq_univ, (arr_whole0 3).set_eq_univ]
  iintro ⟨Hin, H2, H3⟩
  ihave Hin' := (pointsTo_share (PosShare.mem_left_op_right fullShare)).1 $$ Hin
  icases Hin' with ⟨Hl, Hr⟩
  isplitl [Hl]; · iexact Hl
  isplitl [Hr]; · iexact Hr
  isplitl [H2]; · iexact H2
  iexact H3

/-- EXIT. Region 0's arrays at contents `Fw` and the unscoped rest at `V` are the core's unscoped buffers at any
    valuation `V'` that has the arrays at `Fw` and agrees with `V` off them: the two halves of the doubly-read array,
    both still at its contents, rejoin. -/
theorem arrays_out0 (c : Dev nD) (dat : Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w))
    (hrest : ∀ b, b ∉ Finset.univ.image (Pipeline.arrRef spec0) → V' b = V b) :
    iprop(dat.arrays Fw ∗ Pipeline.unscopedRest spec0 c V) ⊢ (unscopedBufs c V' : sProp 𝕄) := by
  obtain rfl : Fw = fun w => V' (Pipeline.arrRef spec0 w) := funext hF
  rw [Pipeline.unscopedBufs_split₀ cfgs 0 winFacts₀0.arr_unscoped c V']
  refine sep_mono ?_ (Entails.of_eq ?_)
  · have hs0 : dat.share 0 = fullShare.left := by unfold Dat.share; rw [if_neg (by decide)]; exact hq0
    have hs1 : dat.share 1 = fullShare.right := by unfold Dat.share; rw [if_neg (by decide)]; exact hq1
    have hs2 : dat.share 2 = fullShare := by unfold Dat.share; rw [if_pos (by decide)]
    have hs3 : dat.share 3 = fullShare := by unfold Dat.share; rw [if_pos (by decide)]
    unfold Pipeline.arrBufs Dat.arrays
    rw [show bigSep (Finset.univ.image (Pipeline.arrRef (cfgs 0).spec)) (fun b : Ref sig .tc => ((((c.tc : Thread nD τ).loc b) ↦{fullShare} V' b) : sProp 𝕄))
          = iprop((((c.tc : Thread nD τ).loc main_v6) ↦{fullShare} V' main_v6) ∗ (((c.tc : Thread nD τ).loc main_v7_0) ↦{fullShare} V' main_v7_0) ∗ (((c.tc : Thread nD τ).loc main_v7_1) ↦{fullShare} V' main_v7_1))
        from Idealize.SL.BI.bigSep_eq_bigSepL_of_eq [main_v6, main_v7_0, main_v7_1] (by decide) (by decide) _, bigSep_W0]
    rw [hs0, hs1, hs2, hs3, (arr_whole0 0).set_eq_univ, (arr_whole0 2).set_eq_univ, (arr_whole0 3).set_eq_univ]
    iintro ⟨Hl, Hr, H2, H3⟩
    isplitl [Hl Hr]
    · iapply (pointsTo_share (PosShare.mem_left_op_right fullShare)).2
      isplitl [Hl]; · iexact Hl
      iexact Hr
    isplitl [H2]; · iexact H2
    iexact H3
  · unfold Pipeline.unscopedRest
    exact bigSep_congr fun b hb => by rw [hrest b (Finset.mem_sdiff.mp hb).2]

/-! ## Region 1: the array `main_arg3` is read through both input windows -/

/-- ENTRY. The core's unscoped buffers at contents `V` are region 1's arrays at `V` — the doubly-read array split in
    two halves of its full share, one per input window — and the unscoped rest. -/
theorem arrays_in1 (c : Dev nD) (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (Fw : (w : Fin cfg1.W) → Buf (Elt F) ((cfg1.win w).arr.view.loc (c : Thread nD τ)))
    (hF : ∀ w, Fw w = V (Pipeline.arrRef spec1 w)) :
    (unscopedBufs c V : sProp 𝕄) ⊢ iprop(dat.arrays Fw ∗ Pipeline.unscopedRest spec1 c V) := by
  obtain rfl : Fw = fun w => V (Pipeline.arrRef spec1 w) := funext hF
  rw [Pipeline.unscopedBufs_split₀ cfgs 1 winFacts₀1.arr_unscoped c V]
  refine sep_mono ?_ .rfl
  have hs0 : dat.share 0 = fullShare.left := by unfold Dat.share; rw [if_neg (by decide)]; exact hq0
  have hs1 : dat.share 1 = fullShare.right := by unfold Dat.share; rw [if_neg (by decide)]; exact hq1
  have hs2 : dat.share 2 = fullShare := by unfold Dat.share; rw [if_pos (by decide)]
  have hs3 : dat.share 3 = fullShare := by unfold Dat.share; rw [if_pos (by decide)]
  unfold Pipeline.arrBufs Dat.arrays
  rw [show bigSep (Finset.univ.image (Pipeline.arrRef (cfgs 1).spec)) (fun b : Ref sig .tc => ((((c.tc : Thread nD τ).loc b) ↦{fullShare} V b) : sProp 𝕄))
        = iprop((((c.tc : Thread nD τ).loc main_arg3) ↦{fullShare} V main_arg3) ∗ (((c.tc : Thread nD τ).loc main_v10_0) ↦{fullShare} V main_v10_0) ∗ (((c.tc : Thread nD τ).loc main_v10_1) ↦{fullShare} V main_v10_1))
      from Idealize.SL.BI.bigSep_eq_bigSepL_of_eq [main_arg3, main_v10_0, main_v10_1] (by decide) (by decide) _, bigSep_W1]
  rw [hs0, hs1, hs2, hs3, (arr_whole1 0).set_eq_univ, (arr_whole1 2).set_eq_univ, (arr_whole1 3).set_eq_univ]
  iintro ⟨Hin, H2, H3⟩
  ihave Hin' := (pointsTo_share (PosShare.mem_left_op_right fullShare)).1 $$ Hin
  icases Hin' with ⟨Hl, Hr⟩
  isplitl [Hl]; · iexact Hl
  isplitl [Hr]; · iexact Hr
  isplitl [H2]; · iexact H2
  iexact H3

/-- EXIT. Region 1's arrays at contents `Fw` and the unscoped rest at `V` are the core's unscoped buffers at any
    valuation `V'` that has the arrays at `Fw` and agrees with `V` off them: the two halves of the doubly-read array,
    both still at its contents, rejoin. -/
theorem arrays_out1 (c : Dev nD) (dat : Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w))
    (hrest : ∀ b, b ∉ Finset.univ.image (Pipeline.arrRef spec1) → V' b = V b) :
    iprop(dat.arrays Fw ∗ Pipeline.unscopedRest spec1 c V) ⊢ (unscopedBufs c V' : sProp 𝕄) := by
  obtain rfl : Fw = fun w => V' (Pipeline.arrRef spec1 w) := funext hF
  rw [Pipeline.unscopedBufs_split₀ cfgs 1 winFacts₀1.arr_unscoped c V']
  refine sep_mono ?_ (Entails.of_eq ?_)
  · have hs0 : dat.share 0 = fullShare.left := by unfold Dat.share; rw [if_neg (by decide)]; exact hq0
    have hs1 : dat.share 1 = fullShare.right := by unfold Dat.share; rw [if_neg (by decide)]; exact hq1
    have hs2 : dat.share 2 = fullShare := by unfold Dat.share; rw [if_pos (by decide)]
    have hs3 : dat.share 3 = fullShare := by unfold Dat.share; rw [if_pos (by decide)]
    unfold Pipeline.arrBufs Dat.arrays
    rw [show bigSep (Finset.univ.image (Pipeline.arrRef (cfgs 1).spec)) (fun b : Ref sig .tc => ((((c.tc : Thread nD τ).loc b) ↦{fullShare} V' b) : sProp 𝕄))
          = iprop((((c.tc : Thread nD τ).loc main_arg3) ↦{fullShare} V' main_arg3) ∗ (((c.tc : Thread nD τ).loc main_v10_0) ↦{fullShare} V' main_v10_0) ∗ (((c.tc : Thread nD τ).loc main_v10_1) ↦{fullShare} V' main_v10_1))
        from Idealize.SL.BI.bigSep_eq_bigSepL_of_eq [main_arg3, main_v10_0, main_v10_1] (by decide) (by decide) _, bigSep_W1]
    rw [hs0, hs1, hs2, hs3, (arr_whole1 0).set_eq_univ, (arr_whole1 2).set_eq_univ, (arr_whole1 3).set_eq_univ]
    iintro ⟨Hl, Hr, H2, H3⟩
    isplitl [Hl Hr]
    · iapply (pointsTo_share (PosShare.mem_left_op_right fullShare)).2
      isplitl [Hl]; · iexact Hl
      iexact Hr
    isplitl [H2]; · iexact H2
    iexact H3
  · unfold Pipeline.unscopedRest
    exact bigSep_congr fun b hb => by rw [hrest b (Finset.mem_sdiff.mp hb).2]

end Cert.KernelIdeal.Hand

end
-- ==== Proof.KIRun.lean ====
/-
  THE RUN of the whole program: @main as seven segments — four stretches of host operations and the three kernel
  regions between them — from the launch to the return, with every unscoped buffer's contents named at every
  segment boundary.

  The contents are a fold from the launch memory: a host stretch applies its operations; a kernel region leaves its
  input arrays as they were and each accumulator's one-word array at what the region's last point wrote back. The
  run's post says that every weakly fair execution terminates, faulting nowhere, with every unscoped buffer at the
  last boundary's contents; the argument arrays, which no stretch and no region writes, read back through the fold
  to their launch contents.
-/
import proofs.«104143_j84421877170330_1_alg».proof.Proof.KIVals
import proofs.«104143_j84421877170330_1_alg».proof.Proof.KIShare
import proofs.«104143_j84421877170330_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T3 m ρ) c
  | ⟨2, _⟩ => fun c => dat2 (T5 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := StableHlo.held (c : Thread nD τ) (Pipeline.ucRefs τ sig) (W7 m ρ c)

/-! ## The regions as segments -/

set_option backward.isDefEq.respectTransparency.types false in
/-- REGION 0 over the thread state: entered from every unscoped buffer at `W1`, left at `W2`. Its arrays are split
    out of the unscoped buffers — the doubly-read array in two half shares — and put back at the exit contents; the
    generator register goes into the region's invariant and comes out; nothing is owed; the kernel has no semaphore of
    its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := arrays_in0 c (pdats m ρ 0 c) rfl rfl (T1 m ρ c) ((pdats m ρ 0 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_out0 c (pdats m ρ 0 c) rfl rfl (T1 m ρ c) (T2 m ρ c) ((pdats m ρ 0 c).arrAt · cfg0.N)
      (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split
    out of the unscoped buffers — the doubly-read array in two half shares — and put back at the exit contents; the
    generator register goes into the region's invariant and comes out; nothing is owed; the kernel has no semaphore of
    its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (T3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := arrays_in1 c (pdats m ρ 1 c) rfl rfl (T3 m ρ c) ((pdats m ρ 1 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays_out1 c (pdats m ρ 1 c) rfl rfl (T3 m ρ c) (T4 m ρ c) ((pdats m ρ 1 c).arrAt · cfg1.N)
      (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`; its three arrays are
    distinct buffers, each held whole. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (T5 m ρ c) (T6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch as a segment whose post is the last thread state beside the core owing nothing. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      show iprop(StableHlo.held (c : Thread nD τ) (Pipeline.ucRefs τ sig) (W7 m ρ c) ∗ SI s') ⊢ _
      unfold StableHlo.held
      iintro ⟨Hh, HSI⟩
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.KIArgs.lean ====
/-
  What each segment of the program leaves alone. A host stretch changes only the buffers its operations write; a kernel
  region changes only its accumulators' one-word arrays. So a buffer that no stretch writes and that is no accumulator
  array holds at every later boundary what it held before; in particular each of the four argument buffers reaches the
  return holding its launch contents.
-/
import proofs.«104143_j84421877170330_1_alg».proof.Proof.KIVals
import proofs.«104143_j84421877170330_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## A buffer a segment does not change -/

/-- The first host stretch leaves a buffer it does not write as launched. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- Region 0 changes its two accumulator arrays only. -/
theorem W2_of (c : Dev nD) (r : Ref sig .tc) (h0 : r ≠ main_v7_0) (h1 : r ≠ main_v7_1) :
    W2 m ρ c (Proc.devRef .tc r) = W1 m ρ c (Proc.devRef .tc r) := by
  unfold W2; rw [Function.update_of_ne (ne_of_ref h1), Function.update_of_ne (ne_of_ref h0)]
/-- The second host stretch leaves a buffer it does not write as it was. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- Region 1 changes its two accumulator arrays only. -/
theorem W4_of (c : Dev nD) (r : Ref sig .tc) (h0 : r ≠ main_v10_0) (h1 : r ≠ main_v10_1) :
    W4 m ρ c (Proc.devRef .tc r) = W3 m ρ c (Proc.devRef .tc r) := by
  unfold W4; rw [Function.update_of_ne (ne_of_ref h1), Function.update_of_ne (ne_of_ref h0)]
/-- The third host stretch leaves a buffer it does not write as it was. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- Region 2 changes its accumulator array only. -/
theorem W6_of (c : Dev nD) (r : Ref sig .tc) (h : r ≠ main_v13) :
    W6 m ρ c (Proc.devRef .tc r) = W5 m ρ c (Proc.devRef .tc r) := by
  unfold W6; rw [Function.update_of_ne (ne_of_ref h)]
/-- The last host stretch leaves a buffer it does not write as it was. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ## The arguments at the return -/

/-- Argument 0's buffer reaches the return as launched: no host stretch writes it and no region's accumulator array is it. -/
theorem W7_main_arg0 (c : Dev nD) : W7 m ρ c (Proc.devRef .tc main_arg0) = m ((c.tc : Thread nD τ).loc main_arg0) :=
  (W7_of m ρ c main_arg0 (by decide)).trans <| (W6_of m ρ c main_arg0 (by decide)).trans <|
    (W5_of m ρ c main_arg0 (by decide)).trans <| (W4_of m ρ c main_arg0 (by decide) (by decide)).trans <|
    (W3_of m ρ c main_arg0 (by decide)).trans <| (W2_of m ρ c main_arg0 (by decide) (by decide)).trans <|
    (W1_of m ρ c main_arg0 (by decide)).trans rfl

/-- Argument 1's buffer reaches the return as launched: no host stretch writes it and no region's accumulator array is it. -/
theorem W7_main_arg1 (c : Dev nD) : W7 m ρ c (Proc.devRef .tc main_arg1) = m ((c.tc : Thread nD τ).loc main_arg1) :=
  (W7_of m ρ c main_arg1 (by decide)).trans <| (W6_of m ρ c main_arg1 (by decide)).trans <|
    (W5_of m ρ c main_arg1 (by decide)).trans <| (W4_of m ρ c main_arg1 (by decide) (by decide)).trans <|
    (W3_of m ρ c main_arg1 (by decide)).trans <| (W2_of m ρ c main_arg1 (by decide) (by decide)).trans <|
    (W1_of m ρ c main_arg1 (by decide)).trans rfl

/-- Argument 2's buffer reaches the return as launched: no host stretch writes it and no region's accumulator array is it. -/
theorem W7_main_arg2 (c : Dev nD) : W7 m ρ c (Proc.devRef .tc main_arg2) = m ((c.tc : Thread nD τ).loc main_arg2) :=
  (W7_of m ρ c main_arg2 (by decide)).trans <| (W6_of m ρ c main_arg2 (by decide)).trans <|
    (W5_of m ρ c main_arg2 (by decide)).trans <| (W4_of m ρ c main_arg2 (by decide) (by decide)).trans <|
    (W3_of m ρ c main_arg2 (by decide)).trans <| (W2_of m ρ c main_arg2 (by decide) (by decide)).trans <|
    (W1_of m ρ c main_arg2 (by decide)).trans rfl

/-- Argument 3's buffer reaches the return as launched: no host stretch writes it and no region's accumulator array is it. -/
theorem W7_main_arg3 (c : Dev nD) : W7 m ρ c (Proc.devRef .tc main_arg3) = m ((c.tc : Thread nD τ).loc main_arg3) :=
  (W7_of m ρ c main_arg3 (by decide)).trans <| (W6_of m ρ c main_arg3 (by decide)).trans <|
    (W5_of m ρ c main_arg3 (by decide)).trans <| (W4_of m ρ c main_arg3 (by decide) (by decide)).trans <|
    (W3_of m ρ c main_arg3 (by decide)).trans <| (W2_of m ρ c main_arg3 (by decide) (by decide)).trans <|
    (W1_of m ρ c main_arg3 (by decide)).trans rfl

end Cert.KernelIdeal.Hand

end
-- ==== Proof.Spec.lean ====
/-
  The mathematics both programs compute, stated once over plain matrices of extended reals.

  For point sets `x : Fin n → Fin 64 → EReal` and `y : Fin m → Fin 64 → EReal` (a row per point) the Gaussian
  weight of rows `i`, `j` is `exp (−d²(i,j) / 128)` with the clamped squared distance
  `d²(i,j) = max (‖xᵢ‖² + ‖yⱼ‖² − 2·⟨xᵢ, yⱼ⟩) 0`; `total x y` is the sum of all weights, `diag x` the sum of the
  weights of a point with itself, and the statistic is
  `max ((total x x − diag x)/c₁ + (total y y − diag y)/c₁ − 2·total x y / c₂) 0`.
  One program spells the exponent `(0 − d²)·(1/128)` and the last quotient `(2·s)/c₂`; the other spells them
  `(−d²)/128` and `2·(s/c₂)`. On the extended reals these agree (`kernRef_eq`, `mmdR_eq`): `0 − a = −a`, a quotient
  by a nonzero real is the product with its reciprocal, and multiplication is associative. Every sum here is a
  finite sum in a commutative monoid, so no order or grouping of the summands matters.
-/
import Idealize.ShloMosaic.PureOps.Ideal
import Idealize.ShloMosaic.Lib.ValueIdx

noncomputable section

namespace Cert.Spec

open Idealize.ShloMosaic
open scoped BigOperators

/-- A float literal as the extended real its word denotes. -/
abbrev lit (b : BitVec 32) : EReal := Ideal.ofBits .f32 b

/-- A rank-2 array read as a matrix: row `i`, column `k`. -/
abbrev mat {n d : ℕ} (v : (⟨2, ![n, d]⟩ : Shape).Idx → EReal) : Fin n → Fin d → EReal :=
  fun i k => v (ValueIdx.ix2 i k)

variable {n m : ℕ}

/-- The squared norm of row `i`. -/
def sqn (x : Fin n → Fin 64 → EReal) (i : Fin n) : EReal := ∑ k : Fin 64, x i k * x i k

/-- The inner product of row `i` of `x` and row `j` of `y`. -/
def dotp (x : Fin n → Fin 64 → EReal) (y : Fin m → Fin 64 → EReal) (i : Fin n) (j : Fin m) : EReal :=
  ∑ k : Fin 64, x i k * y j k

/-- The clamped squared distance of row `i` of `x` and row `j` of `y`. -/
def dist2 (x : Fin n → Fin 64 → EReal) (y : Fin m → Fin 64 → EReal) (i : Fin n) (j : Fin m) : EReal :=
  max ((sqn x i + sqn y j) - lit 0x40000000#32 * dotp x y i j) (lit 0x00000000#32)

/-- The Gaussian weight, exponent spelt `(0 − d²)·(1/128)`. -/
def kern (x : Fin n → Fin 64 → EReal) (y : Fin m → Fin 64 → EReal) (i : Fin n) (j : Fin m) : EReal :=
  Ideal.exp ((lit 0x00000000#32 - dist2 x y i j) * lit 0x3C000000#32)

/-- The Gaussian weight, exponent spelt `(−d²)/128`. -/
def kernRef (x : Fin n → Fin 64 → EReal) (y : Fin m → Fin 64 → EReal) (i : Fin n) (j : Fin m) : EReal :=
  Ideal.exp (Ideal.div (-(dist2 x y i j)) (lit 0x43000000#32))

/-- The sum of all weights. -/
def total (x : Fin n → Fin 64 → EReal) (y : Fin m → Fin 64 → EReal) : EReal := ∑ i : Fin n, ∑ j : Fin m, kern x y i j

/-- The sum of the weights of each point with itself. -/
def diag (x : Fin n → Fin 64 → EReal) : EReal := ∑ i : Fin n, kern x x i i

/-- The statistic from the five sums, last quotient spelt `(2·s)/c₂`. -/
def mmdK (sxx txx syy tyy sxy : EReal) : EReal :=
  max ((Ideal.div (sxx - txx) (lit 0x4C7FF800#32) + Ideal.div (syy - tyy) (lit 0x4C7FF800#32))
        - Ideal.div (lit 0x40000000#32 * sxy) (lit 0x4C800000#32)) (lit 0x00000000#32)

/-- The statistic from the five sums, last quotient spelt `2·(s/c₂)`. -/
def mmdR (sxx txx syy tyy sxy : EReal) : EReal :=
  max ((Ideal.div (sxx - txx) (lit 0x4C7FF800#32) + Ideal.div (syy - tyy) (lit 0x4C7FF800#32))
        - lit 0x40000000#32 * Ideal.div sxy (lit 0x4C800000#32)) (lit 0x00000000#32)

/-- The statistic of two point sets. -/
def mmd (x : Fin n → Fin 64 → EReal) (y : Fin m → Fin 64 → EReal) : EReal :=
  mmdK (total x x) (diag x) (total y y) (diag y) (total x y)

end Cert.Spec

end
-- ==== Proof.SpecLaws.lean ====
/-
  Laws of the specification's operations on the extended reals.

  * The two spellings of the Gaussian weight agree (`kernRef_eq`): `0 − a = −a`, the word `0x43000000` denotes 128 and
    `0x3C000000` denotes 1/128, and a quotient by a nonzero real is the product with its reciprocal.
  * The two spellings of the statistic agree (`mmdR_eq`): `0x4C800000` denotes 2²⁶, the quotient is again a product
    with a reciprocal, and multiplication is associative.
  * A sum over 8192 rows is the sum over 8 blocks of 1024 rows (`sum_blocks`), so the sum of all weights of two
    8192-point sets is the sum over the 8 × 8 pairs of blocks of the blocks' sums (`total_blocks`) and the sum of the
    self-weights the sum over the 8 blocks (`diag_blocks`): the weight of rows `i`, `j` only reads those two rows.
  * A sum over 64 grid points, listed row-major, is the double sum over block row and block column (`sum_grid`), and
    the sum of the terms on the diagonal of the grid is a single sum (`sum_grid_diag`).
  Only the commutative-monoid structure of `+` and of `*` on the extended reals is used; no distributivity.
-/
import proofs.«104143_j84421877170330_1_alg».proof.Proof.Spec
import Mathlib.Algebra.BigOperators.Fin
import Mathlib.Algebra.BigOperators.Group.Finset.Basic
import Mathlib.Logic.Equiv.Fin.Basic

noncomputable section

namespace Cert.Spec

open Idealize.ShloMosaic
open scoped BigOperators

/-! ### The literals -/

theorem lit_zero : lit 0x00000000#32 = 0 := by simp [lit, Ideal.ofBits, Ideal.ieee]

theorem lit_128 : lit 0x43000000#32 = ((128 : ℝ) : EReal) := by
  simp [lit, Ideal.ofBits, Ideal.ieee, -EReal.coe_mul]; norm_num

theorem lit_inv128 : lit 0x3C000000#32 = ((1 / 128 : ℝ) : EReal) := by
  simp [lit, Ideal.ofBits, Ideal.ieee, -EReal.coe_mul]; norm_num

theorem lit_two_pow_26 : lit 0x4C800000#32 = ((67108864 : ℝ) : EReal) := by
  simp [lit, Ideal.ofBits, Ideal.ieee, -EReal.coe_mul]; norm_num

/-! ### The two spellings agree -/

theorem kernRef_eq {n m : ℕ} (x : Fin n → Fin 64 → EReal) (y : Fin m → Fin 64 → EReal) (i : Fin n) (j : Fin m) :
    kernRef x y i j = kern x y i j := by
  unfold kernRef kern
  rw [lit_128, lit_inv128, lit_zero, Ideal.div_coe (by norm_num), sub_eq_add_neg, zero_add]

theorem mmdR_eq (a b c d e : EReal) : mmdR a b c d e = mmdK a b c d e := by
  unfold mmdR mmdK
  rw [lit_two_pow_26, Ideal.div_coe (by norm_num) e, Ideal.div_coe (by norm_num) (_ * e), mul_assoc]

/-! ### Sums over 8192 rows, block by block -/

/-- A sum over 8192 indices is the sum over 8 blocks of the sums over the 1024 indices of each block. -/
theorem sum_blocks {M : Type*} [AddCommMonoid M] (f : Fin 8192 → M) :
    ∑ i : Fin 8192, f i = ∑ g : Fin 8, ∑ r : Fin 1024, f ⟨1024 * g.val + r.val, by omega⟩ := by
  have h := (Equiv.sum_comp (finProdFinEquiv (m := 8) (n := 1024)) f).symm
  rw [Fintype.sum_prod_type] at h
  refine h.trans ?_
  refine Finset.sum_congr rfl fun g _ => Finset.sum_congr rfl fun r _ => ?_
  refine congrArg f (Fin.ext ?_)
  simp [finProdFinEquiv]; omega

/-- rows 1024·g … 1024·g+1023 -/
def blk (x : Fin 8192 → Fin 64 → EReal) (g : Fin 8) : Fin 1024 → Fin 64 → EReal :=
  fun r k => x ⟨1024 * g.val + r.val, by omega⟩ k

/-- The weight of two rows only reads those rows: on rows of blocks it is the blocks' weight. -/
theorem kern_blk (x y : Fin 8192 → Fin 64 → EReal) (gi gj : Fin 8) (r c : Fin 1024) :
    kern x y ⟨1024 * gi.val + r.val, by omega⟩ ⟨1024 * gj.val + c.val, by omega⟩ = kern (blk x gi) (blk y gj) r c := rfl

theorem total_blocks (x y : Fin 8192 → Fin 64 → EReal) :
    total x y = ∑ gi : Fin 8, ∑ gj : Fin 8, total (blk x gi) (blk y gj) := by
  unfold total
  refine (sum_blocks _).trans (Finset.sum_congr rfl fun gi _ => ?_)
  refine (Finset.sum_congr rfl fun r _ => (sum_blocks _).trans
    (Finset.sum_congr rfl fun gj _ => Finset.sum_congr rfl fun c _ => kern_blk x y gi gj r c)).trans ?_
  exact Finset.sum_comm

theorem diag_blocks (x : Fin 8192 → Fin 64 → EReal) : diag x = ∑ g : Fin 8, diag (blk x g) := by
  unfold diag
  exact (sum_blocks _).trans (Finset.sum_congr rfl fun g _ => Finset.sum_congr rfl fun r _ => kern_blk x x g g r r)

/-! ### Sums over the 8 × 8 grid -/

/-- the 64 grid points, row-major: point t is block row t/8, block column t%8 -/
theorem sum_grid (f : Fin 8 → Fin 8 → EReal) :
    (∑ t : Fin 64, f ⟨t.val / 8, by omega⟩ ⟨t.val % 8, by omega⟩) = ∑ gi : Fin 8, ∑ gj : Fin 8, f gi gj := by
  have h := (Equiv.sum_comp (finProdFinEquiv (m := 8) (n := 8)) fun t : Fin 64 =>
    f ⟨t.val / 8, by omega⟩ ⟨t.val % 8, by omega⟩).symm
  rw [Fintype.sum_prod_type] at h
  refine h.trans ?_
  refine Finset.sum_congr rfl fun gi _ => Finset.sum_congr rfl fun gj _ => ?_
  have h1 : (gj.val + 8 * gi.val) / 8 = gi.val := by omega
  have h2 : (gj.val + 8 * gi.val) % 8 = gj.val := by omega
  simp [finProdFinEquiv, h1, h2]

theorem sum_grid_diag (f : Fin 8 → EReal) :
    (∑ t : Fin 64, if t.val / 8 = t.val % 8 then f ⟨t.val / 8, by omega⟩ else 0) = ∑ g : Fin 8, f g := by
  have h := sum_grid fun gi gj => if gi.val = gj.val then f gi else 0
  refine h.trans ?_
  refine Finset.sum_congr rfl fun gi _ => ?_
  simp [Fin.val_inj, eq_comm]

end Cert.Spec

end
-- ==== Proof.KIValueBase.lean ====
/-
  The 8 × 8 grid of block pairs, listed row-major by a point number below 64: point `t` is block row `t / 8` and block
  column `t % 8`; the points with equal coordinates are the multiples of 9. A sum over the point numbers below 64 is
  the double sum over block row and block column (`sum_range_grid`), and the sum of the terms at the multiples of 9 is
  the single sum over the diagonal (`sum_range_grid_diag`).
-/
import proofs.«104143_j84421877170330_1_alg».proof.Proof.SpecLaws
import Mathlib.Algebra.BigOperators.Fin

noncomputable section

namespace Cert.KernelIdeal.HandValue

open scoped BigOperators

theorem hz : (![0, 0] : Fin 2 → Nat) = fun _ => 0 := funext fun a => by fin_cases a <;> rfl

/-- The block row of grid point `t` (its first coordinate) and its block column (the second). -/
abbrev gi (t : ℕ) : Fin 8 := ⟨t / 8 % 8, Nat.mod_lt _ (by decide)⟩
abbrev gj (t : ℕ) : Fin 8 := ⟨t % 8, Nat.mod_lt _ (by decide)⟩

/-- On the diagonal of the grid the two coordinates agree. -/
theorem diag_iff : ∀ t < 64, (t % 9 = 0 ↔ t / 8 = t % 8) := by decide

theorem gj_eq_gi {t : ℕ} (ht : t < 64) (h9 : t % 9 = 0) : gj t = gi t :=
  Fin.ext (by show t % 8 = t / 8 % 8; have := (diag_iff t ht).mp h9; omega)

theorem sum_range_grid (f : Fin 8 → Fin 8 → EReal) :
    ∑ t ∈ Finset.range 64, f (gi t) (gj t) = ∑ a : Fin 8, ∑ b : Fin 8, f a b := by
  rw [← Cert.Spec.sum_grid f, ← Fin.sum_univ_eq_sum_range (fun t => f (gi t) (gj t)) 64]
  refine Finset.sum_congr rfl fun t _ => ?_
  have e : gi t.val = ⟨t.val / 8, by have := t.isLt; omega⟩ :=
    Fin.ext (by show t.val / 8 % 8 = t.val / 8; have := t.isLt; omega)
  rw [e]

theorem sum_range_grid_diag (f : Fin 8 → EReal) :
    ∑ t ∈ Finset.range 64, (if t % 9 = 0 then f (gi t) else 0) = ∑ g : Fin 8, f g := by
  rw [← Cert.Spec.sum_grid_diag f, ← Fin.sum_univ_eq_sum_range (fun t => if t % 9 = 0 then f (gi t) else 0) 64]
  refine Finset.sum_congr rfl fun t _ => ?_
  have ht := t.isLt
  have hiff : t.val % 9 = 0 ↔ t.val / 8 = t.val % 8 := diag_iff t.val ht
  have e : gi t.val = ⟨t.val / 8, by omega⟩ := Fin.ext (by show t.val / 8 % 8 = t.val / 8; omega)
  by_cases h : t.val % 9 = 0
  · rw [if_pos h, if_pos (hiff.mp h), e]
  · rw [if_neg h, if_neg fun h' => h (hiff.mpr h')]

end Cert.KernelIdeal.HandValue

end
-- ==== Proof.PayloadLayout.lean ====
/-
  Reading the kernels' vector operations at an index, at the ideal instance (a float an extended real).

  * A sum along one axis of a matrix is the finite sum over that axis's coordinates (`rowsum_apply`, `colsum_apply`).
  * The casts `[n] → [n, 1]`, `[n, 1] → [1, n]`, `[1] → [1, 1]` keep the row-major position, and a column broadcast
    along the rows reads the column's entry of the same row (`shapeCast_a_a1_apply` … `broadcastTo_a1_ab_apply`).
  * The product of a `1024 × 64` block with a `64 × 1024` block into the zero accumulator is, at `(r, c)`, the sum
    over the 64 contracted coordinates of the products (`matmul_zero_apply`): the contraction has one axis, whose
    coordinates are `Fin 64`.
  * Summing a `1024 × 1024` matrix along its rows and then down the resulting column is the double sum of its
    entries (`sumAll_apply`).
  * The comparison "row number = column number" sets its bit exactly on the diagonal (two numbers below 1024 are equal
    iff their 32-bit words are), so selecting a matrix on it against the zero splat leaves the diagonal entries, and the
    double sum of the result is the trace (`diagMask_apply`, `diagSelect_apply`, `sum_diagSelect`).
-/
import proofs.«104143_j84421877170330_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

variable {α : Type}

/-! ### Reductions over one axis of a matrix, read at an index -/

/-- The sum along the rows of an `n × m` matrix, at row `r`: the sum over the columns. -/
theorem rowsum_apply {n m : ℕ} {φ : FTy} (src : FVec Ideal ⟨2, ![n, m]⟩ φ) (acc : BitVec φ.bits)
    (h : Shape.Reduces ⟨2, ![n, m]⟩ [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) :=
  (Ideal.multiReduction_add_single src acc h hφ hacc (ix1 r)).trans
    (Finset.sum_congr rfl fun k _ => congrArg src (funext fun c => match c with
      | ⟨0, _⟩ => Fin.ext rfl
      | ⟨1, _⟩ => Fin.ext rfl))

/-- The sum down the columns of an `n × m` matrix, at column `c`: the sum over the rows. -/
theorem colsum_apply {n m : ℕ} {φ : FTy} (src : FVec Ideal ⟨2, ![n, m]⟩ φ) (acc : BitVec φ.bits)
    (h : Shape.Reduces ⟨2, ![n, m]⟩ [0] ⟨1, ![m]⟩) (hφ : FKind.Formats φ) (hacc : acc = FKind.add.neutral φ hφ) (c : Fin m) :
    multiReduction .add [0] ⟨1, ![m]⟩ src acc h hφ hacc (ix1 c) = ∑ r : Fin n, src (ix2 r c) :=
  (Ideal.multiReduction_add_single src acc h hφ hacc (ix1 c)).trans
    (Finset.sum_congr rfl fun k _ => congrArg src (funext fun a => match a with
      | ⟨0, _⟩ => Fin.ext rfl
      | ⟨1, _⟩ => Fin.ext rfl))

/-! ### The keepdims casts and broadcasts, read at an index -/

/-- A vector `[n]` cast to a column `[n, 1]` reads, at `(r, u)`, the vector at `r`. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[n, 1]` cast to a row `[1, n]` reads, at `(u, c)`, the column at `(c, u')`. -/
theorem shapeCast_a1_1a_apply {n : ℕ} (x : (⟨2, ![n, 1]⟩ : Shape).Idx → α) (h : (⟨2, ![n, 1]⟩ : Shape).ShapeCasts ⟨2, ![1, n]⟩)
    (u u' : Fin 1) (c : Fin n) : shapeCast ⟨2, ![1, n]⟩ x h (ix2 u c) = x (ix2 c u') :=
  shapeCast_apply x h _ _ (by
    have hu : u.val = 0 := by omega
    have hu' : u'.val = 0 := by omega
    rw [Shape.rowMajor_val_two, Shape.rowMajor_val_two]
    show c.val * 1 + u'.val = u.val * n + c.val
    rw [hu, hu', Nat.mul_one, Nat.add_zero, Nat.zero_mul, Nat.zero_add])

/-- A one-element vector cast to a one-element matrix reads its one element. -/
theorem shapeCast_1_11_apply (x : (⟨1, ![1]⟩ : Shape).Idx → α) (h : (⟨1, ![1]⟩ : Shape).ShapeCasts ⟨2, ![1, 1]⟩)
    (u v w : Fin 1) : shapeCast ⟨2, ![1, 1]⟩ x h (ix2 u v) = x (ix1 w) :=
  shapeCast_apply x h _ _ (by
    have hu : u.val = 0 := by omega
    have hv : v.val = 0 := by omega
    have hw : w.val = 0 := by omega
    rw [Shape.rowMajor_val_two, Shape.rowMajor_val_one]
    show w.val = u.val * 1 + v.val
    rw [hu, hv, hw])

/-- A column `[n, 1]` broadcast to `[n, m]` reads, at `(r, c)`, the column at row `r`. -/
theorem broadcastTo_a1_ab_apply {n m : ℕ} (v : (⟨2, ![n, 1]⟩ : Shape).Idx → α) (h : (⟨2, ![n, 1]⟩ : Shape).Broadcasts ⟨2, ![n, m]⟩)
    (r : Fin n) (c : Fin m) : broadcastTo ⟨2, ![n, m]⟩ v h (ix2 r c) = v (ix2 r (0 : Fin 1)) := by
  refine broadcastTo_apply v h (ix2 r c) (ix2 r (0 : Fin 1)) fun ax => ?_
  match ax with
  | ⟨0, _⟩ =>
    show r.val = if n = 1 then 0 else r.val
    split
    · have := r.isLt; omega
    · rfl
  | ⟨1, _⟩ => rfl

/-! ### The product of a block with a transposed block -/

/-- The dimension numbers of the kernels' one product: rows × contraction times contraction × columns. -/
abbrev D := dot_S1024x64_S64x1024_S1024x1024_1_0_0_1_n_n

theorem lhs_0 (j : S1024x1024.Idx) (k : D.contr.Idx) : (D.lhsIdx j k 0 : ℕ) = j 0 := by
  simp [DotDims.lhsIdx, D, dot_S1024x64_S64x1024_S1024x1024_1_0_0_1_n_n]; rfl
theorem lhs_1 (j : S1024x1024.Idx) (k : D.contr.Idx) : (D.lhsIdx j k 1 : ℕ) = k ⟨0, by decide⟩ := by
  simp [DotDims.lhsIdx, D, dot_S1024x64_S64x1024_S1024x1024_1_0_0_1_n_n]; rfl
theorem rhs_0 (j : S1024x1024.Idx) (k : D.contr.Idx) : (D.rhsIdx j k 0 : ℕ) = k ⟨0, by decide⟩ := by
  simp [DotDims.rhsIdx, D, dot_S1024x64_S64x1024_S1024x1024_1_0_0_1_n_n]; rfl
theorem rhs_1 (j : S1024x1024.Idx) (k : D.contr.Idx) : (D.rhsIdx j k 1 : ℕ) = j 1 := by
  simp [DotDims.rhsIdx, D, dot_S1024x64_S64x1024_S1024x1024_1_0_0_1_n_n]; rfl

/-- The contraction's indices are `Fin 64`. -/
def contrE : D.contr.Idx ≃ Fin 64 := contrEquiv1 D 64 (by decide) (by decide)

theorem contrE_symm_val (k : Fin 64) : ((contrE.symm k) ⟨0, by decide⟩ : ℕ) = k.val :=
  contrEquiv1_symm_val D 64 (by decide) (by decide) k

/-- The product into the zero accumulator, at `(r, c)`: the sum over the 64 contracted coordinates. -/
theorem matmul_zero_apply {φ₁ φ₂ : FTy} (lhs : FVec Ideal S1024x64 φ₁) (rhs : FVec Ideal S64x1024 φ₂) (r c : Fin 1024) :
    matmul D none lhs rhs (constant S1024x1024 .f32 0x00000000#32) (ix2 r c) = ∑ k : Fin 64, lhs (ix2 r k) * rhs (ix2 k c) := by
  refine (Ideal.matmul_constant_zero_apply D none lhs rhs (ix2 r c)).trans ?_
  refine (Equiv.sum_comp contrE.symm _).symm.trans ?_
  refine Finset.sum_congr rfl fun k _ => ?_
  have hl : D.lhsIdx (ix2 r c) (contrE.symm k) = ix2 r k := funext fun a => match a with
    | ⟨0, _⟩ => Fin.ext (lhs_0 _ _)
    | ⟨1, _⟩ => Fin.ext ((lhs_1 _ _).trans (contrE_symm_val k))
  have hr : D.rhsIdx (ix2 r c) (contrE.symm k) = ix2 k c := funext fun a => match a with
    | ⟨0, _⟩ => Fin.ext ((rhs_0 _ _).trans (contrE_symm_val k))
    | ⟨1, _⟩ => Fin.ext (rhs_1 _ _)
  rw [hl, hr]

/-! ### Summing a 1024 × 1024 matrix into a 1 × 1 block -/

/-- The sum of every entry as the kernels spell it: along the rows, kept as a column; down that column; kept as a
    1 × 1 block. -/
theorem sumAll_apply (w : FVec Ideal S1024x1024 .f32) (h1 : S1024x1024.Reduces [1] S1024) (hφ : FKind.Formats .f32)
    (hacc : (0x00000000#32 : BitVec 32) = FKind.add.neutral .f32 hφ) (h2 : S1024.ShapeCasts S1024x1)
    (h3 : S1024x1.Reduces [0] S1) (hφ' : FKind.Formats .f32) (hacc' : (0x00000000#32 : BitVec 32) = FKind.add.neutral .f32 hφ')
    (h4 : S1.ShapeCasts S1x1) (j : S1x1.Idx) :
    shapeCast S1x1 (multiReduction .add [0] S1
        (shapeCast S1024x1 (multiReduction .add [1] S1024 w 0x00000000#32 h1 hφ hacc) h2) 0x00000000#32 h3 hφ' hacc') h4 j
      = ∑ r : Fin 1024, ∑ c : Fin 1024, w (ix2 r c) := by
  obtain ⟨u, v, rfl⟩ : ∃ u v : Fin 1, j = ix2 u v := ⟨j 0, j 1, eq_ix2 j⟩
  refine (shapeCast_1_11_apply _ _ u v 0).trans ((colsum_apply _ _ _ _ _ 0).trans (Finset.sum_congr rfl fun r _ => ?_))
  exact (shapeCast_a_a1_apply _ _ r 0).trans (rowsum_apply _ _ _ _ _ r)

/-! ### The mask of the diagonal -/

theorem ofNat_eq_iff (r c : Fin 1024) : BitVec.ofNat 32 r.val = BitVec.ofNat 32 c.val ↔ r = c := by
  constructor
  · intro h
    have h' := congrArg BitVec.toNat h
    simp only [BitVec.toNat_ofNat] at h'
    have hr := r.isLt
    have hc := c.isLt
    rw [Nat.mod_eq_of_lt (by omega), Nat.mod_eq_of_lt (by omega)] at h'
    exact Fin.ext h'
  · rintro rfl; rfl

/-- Row number equals column number: the bit is set exactly on the diagonal. -/
theorem diagMask_apply (h0 : S1024x1.Iotas .tc 32 [0]) (h1 : S1x1024.Iotas .tc 32 [1])
    (hb0 : S1024x1.Broadcasts S1024x1024) (hb1 : S1x1024.Broadcasts S1024x1024) (r c : Fin 1024) :
    cmpi .eq (broadcastTo S1024x1024 (iota .tc S1024x1 32 [0] h0) hb0)
        (broadcastTo S1024x1024 (iota .tc S1x1024 32 [1] h1) hb1) (ix2 r c) = if r = c then 1#1 else 0#1 := by
  show IntOp.cmpi .eq (broadcastTo S1024x1024 (iota .tc S1024x1 32 [0] h0) hb0 (ix2 r c))
        (broadcastTo S1024x1024 (iota .tc S1x1024 32 [1] h1) hb1 (ix2 r c)) = _
  rw [broadcastTo_a1_ab_apply, broadcastTo_1b_ab_apply, iota_single_apply, iota_single_apply]
  show BitVec.ofBool (BitVec.ofNat 32 r.val == BitVec.ofNat 32 c.val) = _
  by_cases h : r = c
  · subst h; simp
  · have hne : ¬ BitVec.ofNat 32 r.val = BitVec.ofNat 32 c.val := fun e => h ((ofNat_eq_iff r c).mp e)
    have hb : (BitVec.ofNat 32 r.val == BitVec.ofNat 32 c.val) = false := beq_false_of_ne hne
    rw [if_neg h, hb]; rfl

/-- Selecting a matrix on the diagonal's mask against the zero splat: the entry on the diagonal, zero off it. -/
theorem diagSelect_apply (w : FVec Ideal S1024x1024 .f32) (h0 : S1024x1.Iotas .tc 32 [0]) (h1 : S1x1024.Iotas .tc 32 [1])
    (hb0 : S1024x1.Broadcasts S1024x1024) (hb1 : S1x1024.Broadcasts S1024x1024) (r c : Fin 1024) :
    select (cmpi .eq (broadcastTo S1024x1024 (iota .tc S1024x1 32 [0] h0) hb0)
        (broadcastTo S1024x1024 (iota .tc S1x1024 32 [1] h1) hb1)) w
        (broadcast S1024x1024 (Scalar.ofBits (F := Ideal) .f32 0x00000000#32)) (ix2 r c)
      = if r = c then w (ix2 r c) else 0 := by
  show Scalar.select (cmpi .eq (broadcastTo S1024x1024 (iota .tc S1024x1 32 [0] h0) hb0)
        (broadcastTo S1024x1024 (iota .tc S1x1024 32 [1] h1) hb1) (ix2 r c)) (w (ix2 r c)) (Ideal.ofBits .f32 0x00000000#32) = _
  rw [diagMask_apply, Ideal.ofBits_zero_f32]
  by_cases h : r = c
  · rw [if_pos h, if_pos h]; exact select_one _ _
  · rw [if_neg h, if_neg h]; exact select_zero _ _

/-- So the sum of every entry of the masked matrix is the trace. -/
theorem sum_diagSelect (w : FVec Ideal S1024x1024 .f32) (h0 : S1024x1.Iotas .tc 32 [0]) (h1 : S1x1024.Iotas .tc 32 [1])
    (hb0 : S1024x1.Broadcasts S1024x1024) (hb1 : S1x1024.Broadcasts S1024x1024) :
    (∑ r : Fin 1024, ∑ c : Fin 1024, select (cmpi .eq (broadcastTo S1024x1024 (iota .tc S1024x1 32 [0] h0) hb0)
        (broadcastTo S1024x1024 (iota .tc S1x1024 32 [1] h1) hb1)) w
        (broadcast S1024x1024 (Scalar.ofBits (F := Ideal) .f32 0x00000000#32)) (ix2 r c))
      = ∑ r : Fin 1024, w (ix2 r r) :=
  Finset.sum_congr rfl fun r _ =>
    (Finset.sum_congr rfl fun c _ => diagSelect_apply w h0 h1 hb0 hb1 r c).trans
      ((Finset.sum_ite_eq Finset.univ r fun c => w (ix2 r c)).trans (if_pos (Finset.mem_univ r)))

end Cert.KernelIdeal.PayValue

end
-- ==== Proof.PayloadValue.lean ====
/-
  The arithmetic of the three kernel bodies at the ideal instance, payload by payload, against the specification.

  For loaded blocks `xb`, `yb` (1024 rows of 64) the weight matrix the bodies compute reads, at `(r, c)`, the Gaussian
  weight of row `r` of `xb` and row `c` of `yb`: the squared norms are the row sums of the squares, kept as a column
  (resp. turned into a row) and broadcast; the product with the transposed block is the inner product of the rows (the
  narrowing of the operands is the identity on extended reals); the rest is elementwise and agrees with the
  specification's spelling term by term. Summed over all entries this is `total`; masked to the diagonal and summed it is
  the sum of the self-weights. A cast to the same shape is the identity, the zero word is `0`. The three kernels spell the
  same body with or without the casts of the loaded blocks; the first and second also take the trace.
-/
import proofs.«104143_j84421877170330_1_alg».proof.Proof.Spec
import proofs.«104143_j84421877170330_1_alg».proof.Proof.PayloadLayout

noncomputable section

namespace Cert.KernelIdeal.PayValue

open Cert.KernelIdeal Cert.KernelIdeal.Gen Idealize.ShloMosaic Idealize.ShloMosaic.ValueIdx
open scoped BigOperators

/-! ### The three ingredients of the squared distance, read at `(r, c)` -/

/-- The squared norms of the rows of the first block, kept as a column and broadcast along the rows. -/
theorem sqnCol_apply (x : FVec Ideal S1024x64 .f32) (h1 : S1024x64.Reduces [1] S1024) (hφ : FKind.Formats .f32)
    (hacc : (0x00000000#32 : BitVec 32) = FKind.add.neutral .f32 hφ) (h2 : S1024.ShapeCasts S1024x1)
    (h3 : S1024x1.Broadcasts S1024x1024) (r c : Fin 1024) :
    broadcastTo S1024x1024 (shapeCast S1024x1 (multiReduction .add [1] S1024 (mulf x x) 0x00000000#32 h1 hφ hacc) h2) h3 (ix2 r c)
      = Cert.Spec.sqn (Cert.Spec.mat x) r :=
  (broadcastTo_a1_ab_apply _ _ r c).trans ((shapeCast_a_a1_apply _ _ r 0).trans ((rowsum_apply _ _ _ _ _ r).trans rfl))

/-- The squared norms of the rows of the second block, turned into a row and broadcast down the columns. -/
theorem sqnRow_apply (y : FVec Ideal S1024x64 .f32) (h1 : S1024x64.Reduces [1] S1024) (hφ : FKind.Formats .f32)
    (hacc : (0x00000000#32 : BitVec 32) = FKind.add.neutral .f32 hφ) (h2 : S1024.ShapeCasts S1024x1)
    (h2' : S1024x1.ShapeCasts S1x1024) (h3 : S1x1024.Broadcasts S1024x1024) (r c : Fin 1024) :
    broadcastTo S1024x1024 (shapeCast S1x1024 (shapeCast S1024x1 (multiReduction .add [1] S1024 (mulf y y) 0x00000000#32 h1 hφ hacc) h2) h2') h3 (ix2 r c)
      = Cert.Spec.sqn (Cert.Spec.mat y) c :=
  (broadcastTo_1b_ab_apply _ _ r c).trans ((shapeCast_a1_1a_apply _ _ 0 0 c).trans
    ((shapeCast_a_a1_apply _ _ c 0).trans ((rowsum_apply _ _ _ _ _ c).trans rfl)))

/-- The product of the first block with the transposed second block: the inner products of the rows. -/
theorem dot_apply (x y : FVec Ideal S1024x64 .f32) (hb : FTy.bits .bf16 < FTy.bits .f32)
    (ht : S1024x64.Transposes [1, 0] S64x1024) (r c : Fin 1024) :
    matmul D none (truncf .bf16 x hb) (transpose S64x1024 [1, 0] (truncf .bf16 y hb) ht) (constant S1024x1024 .f32 0x00000000#32) (ix2 r c)
      = Cert.Spec.dotp (Cert.Spec.mat x) (Cert.Spec.mat y) r c :=
  (matmul_zero_apply _ _ r c).trans (Finset.sum_congr rfl fun k _ => by
    rw [transpose_ix2_apply]; rfl)

/-! ### The weight matrix of two blocks -/

theorem k1_pay4_apply (xb yb : Vec Ideal S1024x64 .f32) (r c : Fin 1024) :
    k1_pay4 (F := Ideal) xb yb (ix2 r c) = Cert.Spec.kern (Cert.Spec.mat xb) (Cert.Spec.mat yb) r c := by
  unfold Cert.Spec.kern Cert.Spec.dist2
  rw [← sqnCol_apply xb reduces_S1024x64_S1024 (.inl rfl) rfl shapeCasts_S1024_S1024x1 broadcasts_S1024x1_S1024x1024 r c,
    ← sqnRow_apply yb reduces_S1024x64_S1024 (.inl rfl) rfl shapeCasts_S1024_S1024x1 shapeCasts_S1024x1_S1x1024 broadcasts_S1x1024_S1024x1024 r c,
    ← dot_apply xb yb bitsLt_bf16_f32 transposes_S1024x64_p1_0_S64x1024 r c]
  rfl

/-! ### The payloads of the first kernel (the sum and the trace of a diagonal block) -/

theorem k0_pay5_apply (xb yb : Vec Ideal S1024x64 .f32) (r c : Fin 1024) :
    k0_pay5 (F := Ideal) xb yb (ix2 r c) = Cert.Spec.kern (Cert.Spec.mat xb) (Cert.Spec.mat yb) r c := by
  have h : k0_pay5 (F := Ideal) xb yb
      = k1_pay4 (F := Ideal) (shapeCast S1024x64 xb shapeCasts_S1024x64_S1024x64) (shapeCast S1024x64 yb shapeCasts_S1024x64_S1024x64) := rfl
  rw [h, shapeCast_self, shapeCast_self]
  exact k1_pay4_apply xb yb r c

theorem k0_pay6_eq (xb yb : Vec Ideal S1024x64 .f32) :
    k0_pay6 (F := Ideal) xb yb = fun _ => Cert.Spec.total (Cert.Spec.mat xb) (Cert.Spec.mat yb) := by
  funext j
  refine (sumAll_apply (k0_pay5 (F := Ideal) xb yb) reduces_S1024x1024_S1024 (.inl rfl) rfl shapeCasts_S1024_S1024x1
    reduces_S1024x1_S1 (.inl rfl) rfl shapeCasts_S1_S1x1 j).trans ?_
  exact Finset.sum_congr rfl fun r _ => Finset.sum_congr rfl fun c _ => k0_pay5_apply xb yb r c

theorem k0_pay2_eq (xb yb : Vec Ideal S1024x64 .f32) (acc : Vec Ideal S1x1 .f32) :
    k0_pay2 (F := Ideal) (k0_pay5 xb yb) acc
      = fun j => acc j + ∑ r : Fin 1024, Cert.Spec.kern (Cert.Spec.mat xb) (Cert.Spec.mat yb) r r := by
  funext j
  show shapeCast S1x1 acc shapeCasts_S1x1_S1x1 j + _ = _
  rw [shapeCast_self]
  refine congrArg (acc j + ·) ?_
  refine (sumAll_apply _ reduces_S1024x1024_S1024 (.inl rfl) rfl shapeCasts_S1024_S1024x1
    reduces_S1024x1_S1 (.inl rfl) rfl shapeCasts_S1_S1x1 j).trans ?_
  refine (sum_diagSelect _ iota_S1024x1_d0_w32 iota_S1x1024_d1_w32 broadcasts_S1024x1_S1024x1024 broadcasts_S1x1024_S1024x1024).trans ?_
  exact Finset.sum_congr rfl fun r _ => k0_pay5_apply xb yb r r

theorem k0_pay1_eq (v36 : FVec Ideal S1x1 .f32) (v38 : FVec Ideal S1x1 .f32) :
    k0_pay1 (F := Ideal) v36 v38 = fun j => v38 j + v36 j := rfl

theorem k0_pay3_eq : k0_pay3 (F := Ideal) = fun _ => 0 := funext fun _ => Ideal.ofBits_zero_f32

theorem k0_pay4_eq : k0_pay4 (F := Ideal) = fun _ => 0 := funext fun _ => Ideal.ofBits_zero_f32

theorem k0_pay7_eq (v : Vec Ideal S1x1 .f32) : k0_pay7 (F := Ideal) v = v := shapeCast_self v _

/-! ### The payloads of the second kernel (the same, spelt without the casts of the loaded blocks) -/

theorem k1_pay5_eq (xb yb : Vec Ideal S1024x64 .f32) (acc : Vec Ideal S1x1 .f32) :
    k1_pay5 (F := Ideal) xb yb acc = fun j => acc j + Cert.Spec.total (Cert.Spec.mat xb) (Cert.Spec.mat yb) := by
  funext j
  show shapeCast S1x1 acc shapeCasts_S1x1_S1x1 j + _ = _
  rw [shapeCast_self]
  refine congrArg (acc j + ·) ?_
  refine (sumAll_apply (k1_pay4 (F := Ideal) xb yb) reduces_S1024x1024_S1024 (.inl rfl) rfl shapeCasts_S1024_S1024x1
    reduces_S1024x1_S1 (.inl rfl) rfl shapeCasts_S1_S1x1 j).trans ?_
  exact Finset.sum_congr rfl fun r _ => Finset.sum_congr rfl fun c _ => k1_pay4_apply xb yb r c

theorem k1_pay1_eq (xb yb : Vec Ideal S1024x64 .f32) (acc : Vec Ideal S1x1 .f32) :
    k1_pay1 (F := Ideal) (k1_pay4 xb yb) acc
      = fun j => acc j + ∑ r : Fin 1024, Cert.Spec.kern (Cert.Spec.mat xb) (Cert.Spec.mat yb) r r := by
  funext j
  show shapeCast S1x1 acc shapeCasts_S1x1_S1x1 j + _ = _
  rw [shapeCast_self]
  refine congrArg (acc j + ·) ?_
  refine (sumAll_apply _ reduces_S1024x1024_S1024 (.inl rfl) rfl shapeCasts_S1024_S1024x1
    reduces_S1024x1_S1 (.inl rfl) rfl shapeCasts_S1_S1x1 j).trans ?_
  refine (sum_diagSelect _ iota_S1024x1_d0_w32 iota_S1x1024_d1_w32 broadcasts_S1024x1_S1024x1024 broadcasts_S1x1024_S1024x1024).trans ?_
  exact Finset.sum_congr rfl fun r _ => k1_pay4_apply xb yb r r

theorem k1_pay2_eq : k1_pay2 (F := Ideal) = fun _ => 0 := funext fun _ => Ideal.ofBits_zero_f32

theorem k1_pay3_eq : k1_pay3 (F := Ideal) = fun _ => 0 := funext fun _ => Ideal.ofBits_zero_f32

/-! ### The payloads of the third kernel (the sum alone) -/

theorem k2_pay1_eq : k2_pay1 (F := Ideal) = fun _ => 0 := funext fun _ => Ideal.ofBits_zero_f32

theorem k2_pay2_eq (xb yb : Vec Ideal S1024x64 .f32) (acc : Vec Ideal S1x1 .f32) :
    k2_pay2 (F := Ideal) xb yb acc = fun j => acc j + Cert.Spec.total (Cert.Spec.mat xb) (Cert.Spec.mat yb) := by
  funext j
  show shapeCast S1x1 acc shapeCasts_S1x1_S1x1 j + _ = _
  rw [shapeCast_self]
  refine congrArg (acc j + ·) ?_
  refine (sumAll_apply (k1_pay4 (F := Ideal) (shapeCast S1024x64 xb shapeCasts_S1024x64_S1024x64) yb)
    reduces_S1024x1024_S1024 (.inl rfl) rfl shapeCasts_S1024_S1024x1
    reduces_S1024x1_S1 (.inl rfl) rfl shapeCasts_S1_S1x1 j).trans ?_
  rw [shapeCast_self]
  exact Finset.sum_congr rfl fun r _ => Finset.sum_congr rfl fun c _ => k1_pay4_apply xb yb r c

end Cert.KernelIdeal.PayValue

end
-- ==== Proof.KIValue0.lean ====
/-
  The first kernel region (weights among the standardised points), read as values at the ideal instance.

  Each case of the body leaves in the two one-word accumulators the body's arithmetic of what it found: the first gets
  the block pair's sum of weights added at every point, the second the trace of the block pair's weight matrix at the
  points on the grid's diagonal and is carried unchanged elsewhere; at the first point both start from the zero word.
  Both input windows read the one point set: at grid point `t` window 0 holds the rows of block row `t / 8`, window 1
  those of block row `t % 8`. On the diagonal (the multiples of 9) the two blocks are the same, so the trace is that
  block's sum of self-weights. So after point `n` the pair holds the sums, over the points up to `n`, of the block
  pairs' sums and of the diagonal blocks' self-weight sums; after the last point these are the sum of all weights and
  the sum of all self-weights of the point set. Each accumulator's block is its whole one-word array, written back once,
  after the last point.
-/
import proofs.«104143_j84421877170330_1_alg».proof.Proof.KI0Frame
import proofs.«104143_j84421877170330_1_alg».proof.Proof.KIValueBase
import proofs.«104143_j84421877170330_1_alg».proof.Proof.PayloadValue
import proofs.«104143_j84421877170330_1_alg».proof.Proof.SpecLaws
import Idealize.ShloMosaic.Lib.Pipeline.Value
import Idealize.ShloMosaic.Lib.Tactic

noncomputable section

namespace Cert.KernelIdeal.HandValue

open Idealize.ShloMosaic Idealize.ShloMosaic.TcCoe Idealize.SL.Sem Idealize.ShloMosaic.Tactic
open Idealize.ShloMosaic.Pipeline (Dat)
open Cert.KernelIdeal Cert.KernelIdeal.Gen Cert.KernelIdeal.Hand Cert.KernelIdeal.PayValue
open scoped BigOperators

/-! ### What each case of the body leaves in the two accumulators, as the body's arithmetic -/

section Pieces
variable {F : FTy → Type} [FloatOps F]

theorem out0_A2 (c : Dev nD) (i : grid0.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (a5 : Memref sig .tc .vmem S1x1 .f32) (h5 : a5.IsWhole)
    (hc0 : cond0_0 i) (hc1 : cond0_1 i) (x0 x1 : Vec F S1024x64 .f32) :
    out0_A_2 c i a2 h2 a3 h3 a4 h4 a5 h5 hc0 hc1 x0 x1 = k0_pay1 (k0_pay6 x0 x1) (k0_pay7 k0_pay3) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S1024x64) hz]

theorem out0_A3 (c : Dev nD) (i : grid0.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (a5 : Memref sig .tc .vmem S1x1 .f32) (h5 : a5.IsWhole)
    (hc0 : cond0_0 i) (hc1 : cond0_1 i) (x0 x1 : Vec F S1024x64 .f32) :
    out0_A_3 c i a2 h2 a3 h3 a4 h4 a5 h5 hc0 hc1 x0 x1 = k0_pay2 (k0_pay5 x0 x1) k0_pay4 := by
  unfold out0_A_3
  rw [View.read_writes_eq_canon _ _ _ (cover0_A_3 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S1024x64) hz]

theorem out0_B2 (c : Dev nD) (i : grid0.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (a5 : Memref sig .tc .vmem S1x1 .f32) (h5 : a5.IsWhole)
    (hc0 : ¬cond0_0 i) (hc1 : cond0_1 i) (x0 x1 : Vec F S1024x64 .f32) (xo2 xo3 : Vec F S1x1 .f32) :
    out0_B_2 c i a2 h2 a3 h3 a4 h4 a5 h5 hc0 hc1 x0 x1 xo2 xo3 = k0_pay1 (k0_pay6 x0 x1) (k0_pay7 xo2) := by
  unfold out0_B_2
  rw [View.read_writes_eq_canon _ _ _ (cover0_B_2 c i a2 h2 a3 h3 a4 h4 a5 h5 hc0 hc1 x0 x1 xo2 xo3)]
  unfold kernelRun0_B
  dsimp only
  sl_unfold_words
  rw [View.canon_unit_zero hz]
  simp only [View.readAt_eq_ld, h2.read_unread, h3.read_unread, h4.read_unread, View.ld_unit_zero (S := S1024x64) hz,
    View.ld_unit_zero (S := S1x1) hz]

theorem out0_B3 (c : Dev nD) (i : grid0.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (a5 : Memref sig .tc .vmem S1x1 .f32) (h5 : a5.IsWhole)
    (hc0 : ¬cond0_0 i) (hc1 : cond0_1 i) (x0 x1 : Vec F S1024x64 .f32) (xo2 xo3 : Vec F S1x1 .f32) :
    out0_B_3 c i a2 h2 a3 h3 a4 h4 a5 h5 hc0 hc1 x0 x1 xo2 xo3 = k0_pay2 (k0_pay5 x0 x1) xo3 := by
  unfold out0_B_3
  rw [View.read_writes_eq_canon _ _ _ (cover0_B_3 c i a2 h2 a3 h3 a4 h4 a5 h5 hc0 hc1 x0 x1 xo2 xo3)]
  unfold kernelRun0_B
  dsimp only
  sl_unfold_words
  rw [View.canon_unit_zero hz]
  simp only [View.readAt_eq_ld, h2.read_unread, h3.read_unread, h5.read_unread, View.ld_unit_zero (S := S1024x64) hz,
    View.ld_unit_zero (S := S1x1) hz]

theorem out0_C2 (c : Dev nD) (i : grid0.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (a5 : Memref sig .tc .vmem S1x1 .f32) (h5 : a5.IsWhole)
    (hc0 : ¬cond0_0 i) (hc1 : ¬cond0_1 i) (x0 x1 : Vec F S1024x64 .f32) (xo2 x3 : Vec F S1x1 .f32) :
    out0_C_2 c i a2 h2 a3 h3 a4 h4 a5 h5 hc0 hc1 x0 x1 xo2 x3 = k0_pay1 (k0_pay6 x0 x1) (k0_pay7 xo2) := by
  unfold out0_C_2
  rw [View.read_writes_eq_canon _ _ _ (cover0_C_2 c i a2 h2 a3 h3 a4 h4 a5 h5 hc0 hc1 x0 x1 xo2 x3)]
  unfold kernelRun0_C
  dsimp only
  sl_unfold_words
  rw [View.canon_unit_zero hz]
  simp only [View.readAt_eq_ld, h2.read_unread, h3.read_unread, h4.read_unread, View.ld_unit_zero (S := S1024x64) hz,
    View.ld_unit_zero (S := S1x1) hz]

end Pieces

/-! ### The blocks the two input windows hold at a point: both read the one point set -/

variable (V : (c : Dev nD) → (b : Ref sig .tc) → Buf (Elt Ideal) ((c : Thread nD τ).loc b))

/-- The point set as the region finds it. -/
abbrev X0 (c : Dev nD) : Fin 8192 → Fin 64 → EReal := Cert.Spec.mat (V c main_v6 : S8192x64.Idx → EReal)

theorem idx0_0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx0_1 : ∀ t : Fin cfg0.N, win0_1.index t 0 = t.val % 8 ∧ win0_1.index t 1 = 0 :=
  (by decide +kernel : ∀ t : Fin grid0.N, win0_1.index t 0 = t.val % 8 ∧ win0_1.index t 1 = 0)

/-- Window 0 holds the rows of block row `t / 8`. -/
theorem iblk0_0_eq (c : Dev nD) (t : Fin cfg0.N) :
    Cert.Spec.mat (iblk0 V c 0 t : Vec Ideal S1024x64 .f32) = Cert.Spec.blk (X0 V c) (gi t.val) := by
  have hN : t.val < 64 := lt_of_lt_of_eq t.isLt (show cfg0.N = 64 from N_0)
  have hi := idx0_0 t
  funext r k
  unfold iblk0
  show ((cfg0.win 0).blk t).view.read (Elt Ideal) (V c (Pipeline.arrRef spec0 0)) (ValueIdx.ix2 r k) = V c main_v6 _
  rw [View.read_apply]
  show V c main_v6 _ = V c main_v6 _
  refine congrArg _ (funext fun a => Fin.ext ?_)
  match a with
  | ⟨0, _⟩ =>
    show win0_0.index t 0 * 1024 + 1 * r.val = 1024 * (t.val / 8 % 8) + r.val
    rw [hi.1]; omega
  | ⟨1, _⟩ =>
    show win0_0.index t 1 * 64 + 1 * k.val = k.val
    rw [hi.2]; omega

/-- Window 1 holds the rows of block row `t % 8`. -/
theorem iblk0_1_eq (c : Dev nD) (t : Fin cfg0.N) :
    Cert.Spec.mat (iblk0 V c 1 t : Vec Ideal S1024x64 .f32) = Cert.Spec.blk (X0 V c) (gj t.val) := by
  have hi := idx0_1 t
  funext r k
  unfold iblk0
  show ((cfg0.win 1).blk t).view.read (Elt Ideal) (V c (Pipeline.arrRef spec0 1)) (ValueIdx.ix2 r k) = V c main_v6 _
  rw [View.read_apply]
  show V c main_v6 _ = V c main_v6 _
  refine congrArg _ (funext fun a => Fin.ext ?_)
  match a with
  | ⟨0, _⟩ =>
    show win0_1.index t 0 * 1024 + 1 * r.val = 1024 * (t.val % 8) + r.val
    rw [hi.1]; omega
  | ⟨1, _⟩ =>
    show win0_1.index t 1 * 64 + 1 * k.val = k.val
    rw [hi.2]; omega

/-! ### The two accumulators after each point -/

/-- The block pair's sum of weights at grid point `t`, and its diagonal block's sum of self-weights (zero off the grid's
    diagonal). -/
def sumTerm0 (c : Dev nD) (t : ℕ) : EReal :=
  Cert.Spec.total (Cert.Spec.blk (X0 V c) (gi t)) (Cert.Spec.blk (X0 V c) (gj t))
def diagTerm0 (c : Dev nD) (t : ℕ) : EReal :=
  if t % 9 = 0 then Cert.Spec.diag (Cert.Spec.blk (X0 V c) (gi t)) else 0

/-- On the grid's diagonal both windows hold the same block, so the trace of the weight matrix is that block's sum
    of self-weights. -/
theorem trace_eq_diagTerm0 (c : Dev nD) {t : ℕ} (ht : t < 64) (h9 : t % 9 = 0) :
    (∑ r : Fin 1024, Cert.Spec.kern (Cert.Spec.blk (X0 V c) (gi t)) (Cert.Spec.blk (X0 V c) (gj t)) r r) = diagTerm0 V c t := by
  unfold diagTerm0
  rw [if_pos h9, gj_eq_gi ht h9]
  rfl

theorem diagTerm0_off (c : Dev nD) {t : ℕ} (h9 : ¬t % 9 = 0) : diagTerm0 V c t = 0 := if_neg h9

theorem outsAt0_eq (c : Dev nD) : ∀ (n : ℕ) (hn : n < cfg0.N),
    outsAt0 V c n hn
      = (fun _ => ∑ t ∈ Finset.range (n + 1), sumTerm0 V c t, fun _ => ∑ t ∈ Finset.range (n + 1), diagTerm0 V c t)
  | 0, hn => by
    rw [outsAt0_A V c ⟨0, hn⟩ rfl rfl, out0_A2, out0_A3, k0_pay1_eq, k0_pay6_eq, k0_pay7_eq, k0_pay3_eq, k0_pay2_eq,
      k0_pay4_eq, iblk0_0_eq, iblk0_1_eq]
    refine Prod.ext (funext fun j => ?_) (funext fun j => ?_)
    · show (0 : EReal) + sumTerm0 V c 0 = ∑ t ∈ Finset.range (0 + 1), sumTerm0 V c t
      rw [Finset.sum_range_one, zero_add]
    · show (0 : EReal) + _ = ∑ t ∈ Finset.range (0 + 1), diagTerm0 V c t
      rw [Finset.sum_range_one, zero_add]
      exact trace_eq_diagTerm0 V c (t := 0) (by decide) rfl
  | n + 1, hn => by
    have hN : cfg0.N = 64 := N_0
    have hlt : n + 1 < 64 := lt_of_lt_of_eq hn hN
    have hB : ¬(⟨n + 1, hn⟩ : Fin cfg0.N).val % 64 = 0 := by dsimp only; omega
    have ih := outsAt0_eq c n (Nat.lt_of_succ_lt hn)
    have ih1 : ∀ j, (outsAt0 V c n (Nat.lt_of_succ_lt hn)).1 j = ∑ t ∈ Finset.range (n + 1), sumTerm0 V c t :=
      fun j => congrFun (congrArg Prod.fst ih) j
    have ih2 : ∀ j, (outsAt0 V c n (Nat.lt_of_succ_lt hn)).2 j = ∑ t ∈ Finset.range (n + 1), diagTerm0 V c t :=
      fun j => congrFun (congrArg Prod.snd ih) j
    by_cases h1 : (n + 1) % 9 = 0
    · rw [outsAt0_B V c ⟨n + 1, hn⟩ hB h1, out0_B2, out0_B3, k0_pay1_eq, k0_pay6_eq, k0_pay7_eq, k0_pay2_eq,
        iblk0_0_eq, iblk0_1_eq]
      refine Prod.ext (funext fun j => ?_) (funext fun j => ?_)
      · show (outsAt0 V c n _).1 j + sumTerm0 V c (n + 1) = ∑ t ∈ Finset.range (n + 1 + 1), sumTerm0 V c t
        rw [ih1, Finset.sum_range_succ _ (n + 1)]
      · show (outsAt0 V c n _).2 j + _ = ∑ t ∈ Finset.range (n + 1 + 1), diagTerm0 V c t
        rw [ih2, Finset.sum_range_succ _ (n + 1)]
        exact congrArg (fun z => (∑ t ∈ Finset.range (n + 1), diagTerm0 V c t) + z) (trace_eq_diagTerm0 V c hlt h1)
    · rw [outsAt0_C V c ⟨n + 1, hn⟩ hB h1, out0_C2, k0_pay1_eq, k0_pay6_eq, k0_pay7_eq, iblk0_0_eq, iblk0_1_eq]
      refine Prod.ext (funext fun j => ?_) (funext fun j => ?_)
      · show (outsAt0 V c n _).1 j + sumTerm0 V c (n + 1) = ∑ t ∈ Finset.range (n + 1 + 1), sumTerm0 V c t
        rw [ih1, Finset.sum_range_succ _ (n + 1)]
      · show (outsAt0 V c n _).2 j = ∑ t ∈ Finset.range (n + 1 + 1), diagTerm0 V c t
        rw [ih2, Finset.sum_range_succ _ (n + 1), diagTerm0_off V c h1, add_zero]

/-- Over the whole grid the block pairs' sums add up to the sum of all weights, and the diagonal blocks' sums of
    self-weights to the sum of all self-weights. -/
theorem sum_sumTerm0 (c : Dev nD) : ∑ t ∈ Finset.range 64, sumTerm0 V c t = Cert.Spec.total (X0 V c) (X0 V c) := by
  rw [Cert.Spec.total_blocks]
  exact sum_range_grid fun a b => Cert.Spec.total (Cert.Spec.blk (X0 V c) a) (Cert.Spec.blk (X0 V c) b)

theorem sum_diagTerm0 (c : Dev nD) : ∑ t ∈ Finset.range 64, diagTerm0 V c t = Cert.Spec.diag (X0 V c) := by
  rw [Cert.Spec.diag_blocks]
  exact sum_range_grid_diag fun g => Cert.Spec.diag (Cert.Spec.blk (X0 V c) g)

/-- The last grid point. -/
abbrev t0_last : Fin cfg0.N := ⟨63, by rw [show cfg0.N = 64 from N_0]; decide⟩

theorem outsAt0_last (c : Dev nD) : outsAt0 V c t0_last.val t0_last.isLt
    = (fun _ => Cert.Spec.total (X0 V c) (X0 V c), fun _ => Cert.Spec.diag (X0 V c)) :=
  (outsAt0_eq V c 63 t0_last.isLt).trans
    (Prod.ext (funext fun _ => sum_sumTerm0 V c) (funext fun _ => sum_diagTerm0 V c))

/-! ### The two output arrays after the region -/

theorem flushed0_2_eq (c : Dev nD) (t : Fin cfg0.N) (hf : (cfg0.win 2).flush t = true) :
    (dat0 V c).flushed 2 t
      = ((cfg0.win 2).blk t).view.read (Elt Ideal) (fun _ => Cert.Spec.total (X0 V c) (X0 V c)) := by
  have hN : cfg0.N = 64 := N_0
  have h63 : t.val = 63 := by have := (flush0_2 t).mp hf; have := t.isLt; omega
  obtain rfl : t = t0_last := Fin.ext h63
  show (cfg0.win 2).cut (grid0.coords t0_last) ((dat0 V c).after 2 t0_last) = _
  rw [after0_2, outsAt0_last]
  funext y
  rw [View.read_apply]
  rfl

theorem flushed0_3_eq (c : Dev nD) (t : Fin cfg0.N) (hf : (cfg0.win 3).flush t = true) :
    (dat0 V c).flushed 3 t
      = ((cfg0.win 3).blk t).view.read (Elt Ideal) (fun _ => Cert.Spec.diag (X0 V c)) := by
  have hN : cfg0.N = 64 := N_0
  have h63 : t.val = 63 := by have := (flush0_3 t).mp hf; have := t.isLt; omega
  obtain rfl : t = t0_last := Fin.ext h63
  show (cfg0.win 3).cut (grid0.coords t0_last) ((dat0 V c).after 3 t0_last) = _
  rw [after0_3, outsAt0_last]
  funext y
  rw [View.read_apply]
  rfl

theorem arr0_final_sum (c : Dev nD) :
    (dat0 (F := Ideal) V c).arrAt 2 cfg0.N = fun _ => Cert.Spec.total (X0 V c) (X0 V c) :=
  (dat0 V c).arrAt_eq_of_cover 2 (fun _ => Cert.Spec.total (X0 V c) (X0 V c)) (flushed0_2_eq V c) fun i =>
    ⟨t0_last, (flush0_2 t0_last).mpr rfl, by
      show i ∈ ((View.whole main_v7_0).slice (win0_2.rect t0_last)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_last 0 * win0_2.size 0 ≤ (i 0 : Nat)
          ∧ (i 0 : Nat) < win0_2.index t0_last 0 * win0_2.size 0 + win0_2.xsize (grid0.coords t0_last) 0
        rw [show win0_2.index t0_last 0 * win0_2.size 0 = 0 from by decide +kernel,
          show win0_2.xsize (grid0.coords t0_last) 0 = 1 from by decide +kernel]; omega
      | ⟨1, _⟩ =>
        show win0_2.index t0_last 1 * win0_2.size 1 ≤ (i 1 : Nat)
          ∧ (i 1 : Nat) < win0_2.index t0_last 1 * win0_2.size 1 + win0_2.xsize (grid0.coords t0_last) 1
        rw [show win0_2.index t0_last 1 * win0_2.size 1 = 0 from by decide +kernel,
          show win0_2.xsize (grid0.coords t0_last) 1 = 1 from by decide +kernel]; omega⟩

theorem arr0_final_diag (c : Dev nD) :
    (dat0 (F := Ideal) V c).arrAt 3 cfg0.N = fun _ => Cert.Spec.diag (X0 V c) :=
  (dat0 V c).arrAt_eq_of_cover 3 (fun _ => Cert.Spec.diag (X0 V c)) (flushed0_3_eq V c) fun i =>
    ⟨t0_last, (flush0_3 t0_last).mpr rfl, by
      show i ∈ ((View.whole main_v7_1).slice (win0_3.rect t0_last)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_last 0 * win0_3.size 0 ≤ (i 0 : Nat)
          ∧ (i 0 : Nat) < win0_3.index t0_last 0 * win0_3.size 0 + win0_3.xsize (grid0.coords t0_last) 0
        rw [show win0_3.index t0_last 0 * win0_3.size 0 = 0 from by decide +kernel,
          show win0_3.xsize (grid0.coords t0_last) 0 = 1 from by decide +kernel]; omega
      | ⟨1, _⟩ =>
        show win0_3.index t0_last 1 * win0_3.size 1 ≤ (i 1 : Nat)
          ∧ (i 1 : Nat) < win0_3.index t0_last 1 * win0_3.size 1 + win0_3.xsize (grid0.coords t0_last) 1
        rw [show win0_3.index t0_last 1 * win0_3.size 1 = 0 from by decide +kernel,
          show win0_3.xsize (grid0.coords t0_last) 1 = 1 from by decide +kernel]; omega⟩

end Cert.KernelIdeal.HandValue

end
-- ==== Proof.KIValue1.lean ====
/-
  The second kernel region (weights among the prior's points), read as values at the ideal instance.

  Each case of the body leaves in the two one-word accumulators the body's arithmetic of what it found: the first gets
  the block pair's sum of weights added at every point, the second the trace of the block pair's weight matrix at the
  points on the grid's diagonal and is carried unchanged elsewhere; at the first point both start from the zero word.
  Both input windows read the one point set: at grid point `t` window 0 holds the rows of block row `t / 8`, window 1
  those of block row `t % 8`. On the diagonal (the multiples of 9) the two blocks are the same, so the trace is that
  block's sum of self-weights. So after point `n` the pair holds the sums, over the points up to `n`, of the block
  pairs' sums and of the diagonal blocks' self-weight sums; after the last point these are the sum of all weights and
  the sum of all self-weights of the point set. Each accumulator's block is its whole one-word array, written back once,
  after the last point.
-/
import proofs.«104143_j84421877170330_1_alg».proof.Proof.KI1Frame
import proofs.«104143_j84421877170330_1_alg».proof.Proof.KIValueBase
import proofs.«104143_j84421877170330_1_alg».proof.Proof.PayloadValue
import proofs.«104143_j84421877170330_1_alg».proof.Proof.SpecLaws
import Idealize.ShloMosaic.Lib.Pipeline.Value
import Idealize.ShloMosaic.Lib.Tactic

noncomputable section

namespace Cert.KernelIdeal.HandValue

open Idealize.ShloMosaic Idealize.ShloMosaic.TcCoe Idealize.SL.Sem Idealize.ShloMosaic.Tactic
open Idealize.ShloMosaic.Pipeline (Dat)
open Cert.KernelIdeal Cert.KernelIdeal.Gen Cert.KernelIdeal.Hand Cert.KernelIdeal.PayValue
open scoped BigOperators

/-! ### What each case of the body leaves in the two accumulators, as the body's arithmetic -/

section Pieces
variable {F : FTy → Type} [FloatOps F]

theorem out1_A2 (c : Dev nD) (i : grid1.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (a5 : Memref sig .tc .vmem S1x1 .f32) (h5 : a5.IsWhole)
    (hc0 : cond1_0 i) (hc1 : cond1_1 i) (x0 x1 : Vec F S1024x64 .f32) :
    out1_A_2 c i a2 h2 a3 h3 a4 h4 a5 h5 hc0 hc1 x0 x1 = k1_pay5 x0 x1 k1_pay2 := by
  unfold out1_A_2
  rw [View.read_writes_eq_canon _ _ _ (cover1_A_2 c i a2 h2 a3 h3 a4 h4 a5 h5 hc0 hc1 x0 x1)]
  unfold kernelRun1_A
  dsimp only
  sl_unfold_words
  rw [View.canon_cons_unit_zero (S := S1x1) hz, View.readCov_unit_zero (S := S1x1) _ hz]
  simp only [View.readAt_eq_ld, h2.read_unread, h3.read_unread, View.ld_unit_zero (S := S1024x64) hz]

theorem out1_A3 (c : Dev nD) (i : grid1.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (a5 : Memref sig .tc .vmem S1x1 .f32) (h5 : a5.IsWhole)
    (hc0 : cond1_0 i) (hc1 : cond1_1 i) (x0 x1 : Vec F S1024x64 .f32) :
    out1_A_3 c i a2 h2 a3 h3 a4 h4 a5 h5 hc0 hc1 x0 x1 = k1_pay1 (k1_pay4 x0 x1) k1_pay3 := by
  unfold out1_A_3
  rw [View.read_writes_eq_canon _ _ _ (cover1_A_3 c i a2 h2 a3 h3 a4 h4 a5 h5 hc0 hc1 x0 x1)]
  unfold kernelRun1_A
  dsimp only
  sl_unfold_words
  rw [View.canon_cons_unit_zero (S := S1x1) hz, View.readCov_unit_zero (S := S1x1) _ hz]
  simp only [View.readAt_eq_ld, h2.read_unread, h3.read_unread, View.ld_unit_zero (S := S1024x64) hz]

theorem out1_B2 (c : Dev nD) (i : grid1.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (a5 : Memref sig .tc .vmem S1x1 .f32) (h5 : a5.IsWhole)
    (hc0 : ¬cond1_0 i) (hc1 : cond1_1 i) (x0 x1 : Vec F S1024x64 .f32) (xo2 xo3 : Vec F S1x1 .f32) :
    out1_B_2 c i a2 h2 a3 h3 a4 h4 a5 h5 hc0 hc1 x0 x1 xo2 xo3 = k1_pay5 x0 x1 xo2 := by
  unfold out1_B_2
  rw [View.read_writes_eq_canon _ _ _ (cover1_B_2 c i a2 h2 a3 h3 a4 h4 a5 h5 hc0 hc1 x0 x1 xo2 xo3)]
  unfold kernelRun1_B
  dsimp only
  sl_unfold_words
  rw [View.canon_unit_zero hz]
  simp only [View.readAt_eq_ld, h2.read_unread, h3.read_unread, h4.read_unread, View.ld_unit_zero (S := S1024x64) hz,
    View.ld_unit_zero (S := S1x1) hz]

theorem out1_B3 (c : Dev nD) (i : grid1.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (a5 : Memref sig .tc .vmem S1x1 .f32) (h5 : a5.IsWhole)
    (hc0 : ¬cond1_0 i) (hc1 : cond1_1 i) (x0 x1 : Vec F S1024x64 .f32) (xo2 xo3 : Vec F S1x1 .f32) :
    out1_B_3 c i a2 h2 a3 h3 a4 h4 a5 h5 hc0 hc1 x0 x1 xo2 xo3 = k1_pay1 (k1_pay4 x0 x1) xo3 := by
  unfold out1_B_3
  rw [View.read_writes_eq_canon _ _ _ (cover1_B_3 c i a2 h2 a3 h3 a4 h4 a5 h5 hc0 hc1 x0 x1 xo2 xo3)]
  unfold kernelRun1_B
  dsimp only
  sl_unfold_words
  rw [View.canon_unit_zero hz]
  simp only [View.readAt_eq_ld, h2.read_unread, h3.read_unread, h5.read_unread, View.ld_unit_zero (S := S1024x64) hz,
    View.ld_unit_zero (S := S1x1) hz]

theorem out1_C2 (c : Dev nD) (i : grid1.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (a5 : Memref sig .tc .vmem S1x1 .f32) (h5 : a5.IsWhole)
    (hc0 : ¬cond1_0 i) (hc1 : ¬cond1_1 i) (x0 x1 : Vec F S1024x64 .f32) (xo2 x3 : Vec F S1x1 .f32) :
    out1_C_2 c i a2 h2 a3 h3 a4 h4 a5 h5 hc0 hc1 x0 x1 xo2 x3 = k1_pay5 x0 x1 xo2 := by
  unfold out1_C_2
  rw [View.read_writes_eq_canon _ _ _ (cover1_C_2 c i a2 h2 a3 h3 a4 h4 a5 h5 hc0 hc1 x0 x1 xo2 x3)]
  unfold kernelRun1_C
  dsimp only
  sl_unfold_words
  rw [View.canon_unit_zero hz]
  simp only [View.readAt_eq_ld, h2.read_unread, h3.read_unread, h4.read_unread, View.ld_unit_zero (S := S1024x64) hz,
    View.ld_unit_zero (S := S1x1) hz]

end Pieces

/-! ### The blocks the two input windows hold at a point: both read the one point set -/

variable (V : (c : Dev nD) → (b : Ref sig .tc) → Buf (Elt Ideal) ((c : Thread nD τ).loc b))

/-- The point set as the region finds it. -/
abbrev Y1 (c : Dev nD) : Fin 8192 → Fin 64 → EReal := Cert.Spec.mat (V c main_arg3 : S8192x64.Idx → EReal)

theorem idx1_0 : ∀ t : Fin cfg1.N, win1_0.index t 0 = t.val / 8 ∧ win1_0.index t 1 = 0 :=
  (by decide +kernel : ∀ t : Fin grid1.N, win1_0.index t 0 = t.val / 8 ∧ win1_0.index t 1 = 0)
theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)

/-- Window 0 holds the rows of block row `t / 8`. -/
theorem iblk1_0_eq (c : Dev nD) (t : Fin cfg1.N) :
    Cert.Spec.mat (iblk1 V c 0 t : Vec Ideal S1024x64 .f32) = Cert.Spec.blk (Y1 V c) (gi t.val) := by
  have hN : t.val < 64 := lt_of_lt_of_eq t.isLt (show cfg1.N = 64 from N_1)
  have hi := idx1_0 t
  funext r k
  unfold iblk1
  show ((cfg1.win 0).blk t).view.read (Elt Ideal) (V c (Pipeline.arrRef spec1 0)) (ValueIdx.ix2 r k) = V c main_arg3 _
  rw [View.read_apply]
  show V c main_arg3 _ = V c main_arg3 _
  refine congrArg _ (funext fun a => Fin.ext ?_)
  match a with
  | ⟨0, _⟩ =>
    show win1_0.index t 0 * 1024 + 1 * r.val = 1024 * (t.val / 8 % 8) + r.val
    rw [hi.1]; omega
  | ⟨1, _⟩ =>
    show win1_0.index t 1 * 64 + 1 * k.val = k.val
    rw [hi.2]; omega

/-- Window 1 holds the rows of block row `t % 8`. -/
theorem iblk1_1_eq (c : Dev nD) (t : Fin cfg1.N) :
    Cert.Spec.mat (iblk1 V c 1 t : Vec Ideal S1024x64 .f32) = Cert.Spec.blk (Y1 V c) (gj t.val) := by
  have hi := idx1_1 t
  funext r k
  unfold iblk1
  show ((cfg1.win 1).blk t).view.read (Elt Ideal) (V c (Pipeline.arrRef spec1 1)) (ValueIdx.ix2 r k) = V c main_arg3 _
  rw [View.read_apply]
  show V c main_arg3 _ = V c main_arg3 _
  refine congrArg _ (funext fun a => Fin.ext ?_)
  match a with
  | ⟨0, _⟩ =>
    show win1_1.index t 0 * 1024 + 1 * r.val = 1024 * (t.val % 8) + r.val
    rw [hi.1]; omega
  | ⟨1, _⟩ =>
    show win1_1.index t 1 * 64 + 1 * k.val = k.val
    rw [hi.2]; omega

/-! ### The two accumulators after each point -/

/-- The block pair's sum of weights at grid point `t`, and its diagonal block's sum of self-weights (zero off the grid's
    diagonal). -/
def sumTerm1 (c : Dev nD) (t : ℕ) : EReal :=
  Cert.Spec.total (Cert.Spec.blk (Y1 V c) (gi t)) (Cert.Spec.blk (Y1 V c) (gj t))
def diagTerm1 (c : Dev nD) (t : ℕ) : EReal :=
  if t % 9 = 0 then Cert.Spec.diag (Cert.Spec.blk (Y1 V c) (gi t)) else 0

/-- On the grid's diagonal both windows hold the same block, so the trace of the weight matrix is that block's sum
    of self-weights. -/
theorem trace_eq_diagTerm1 (c : Dev nD) {t : ℕ} (ht : t < 64) (h9 : t % 9 = 0) :
    (∑ r : Fin 1024, Cert.Spec.kern (Cert.Spec.blk (Y1 V c) (gi t)) (Cert.Spec.blk (Y1 V c) (gj t)) r r) = diagTerm1 V c t := by
  unfold diagTerm1
  rw [if_pos h9, gj_eq_gi ht h9]
  rfl

theorem diagTerm1_off (c : Dev nD) {t : ℕ} (h9 : ¬t % 9 = 0) : diagTerm1 V c t = 0 := if_neg h9

theorem outsAt1_eq (c : Dev nD) : ∀ (n : ℕ) (hn : n < cfg1.N),
    outsAt1 V c n hn
      = (fun _ => ∑ t ∈ Finset.range (n + 1), sumTerm1 V c t, fun _ => ∑ t ∈ Finset.range (n + 1), diagTerm1 V c t)
  | 0, hn => by
    rw [outsAt1_A V c ⟨0, hn⟩ rfl rfl, out1_A2, out1_A3, k1_pay5_eq, k1_pay2_eq, k1_pay1_eq,
      k1_pay3_eq, iblk1_0_eq, iblk1_1_eq]
    refine Prod.ext (funext fun j => ?_) (funext fun j => ?_)
    · show (0 : EReal) + sumTerm1 V c 0 = ∑ t ∈ Finset.range (0 + 1), sumTerm1 V c t
      rw [Finset.sum_range_one, zero_add]
    · show (0 : EReal) + _ = ∑ t ∈ Finset.range (0 + 1), diagTerm1 V c t
      rw [Finset.sum_range_one, zero_add]
      exact trace_eq_diagTerm1 V c (t := 0) (by decide) rfl
  | n + 1, hn => by
    have hN : cfg1.N = 64 := N_1
    have hlt : n + 1 < 64 := lt_of_lt_of_eq hn hN
    have hB : ¬(⟨n + 1, hn⟩ : Fin cfg1.N).val % 64 = 0 := by dsimp only; omega
    have ih := outsAt1_eq c n (Nat.lt_of_succ_lt hn)
    have ih1 : ∀ j, (outsAt1 V c n (Nat.lt_of_succ_lt hn)).1 j = ∑ t ∈ Finset.range (n + 1), sumTerm1 V c t :=
      fun j => congrFun (congrArg Prod.fst ih) j
    have ih2 : ∀ j, (outsAt1 V c n (Nat.lt_of_succ_lt hn)).2 j = ∑ t ∈ Finset.range (n + 1), diagTerm1 V c t :=
      fun j => congrFun (congrArg Prod.snd ih) j
    by_cases h1 : (n + 1) % 9 = 0
    · rw [outsAt1_B V c ⟨n + 1, hn⟩ hB h1, out1_B2, out1_B3, k1_pay5_eq, k1_pay1_eq,
        iblk1_0_eq, iblk1_1_eq]
      refine Prod.ext (funext fun j => ?_) (funext fun j => ?_)
      · show (outsAt1 V c n _).1 j + sumTerm1 V c (n + 1) = ∑ t ∈ Finset.range (n + 1 + 1), sumTerm1 V c t
        rw [ih1, Finset.sum_range_succ _ (n + 1)]
      · show (outsAt1 V c n _).2 j + _ = ∑ t ∈ Finset.range (n + 1 + 1), diagTerm1 V c t
        rw [ih2, Finset.sum_range_succ _ (n + 1)]
        exact congrArg (fun z => (∑ t ∈ Finset.range (n + 1), diagTerm1 V c t) + z) (trace_eq_diagTerm1 V c hlt h1)
    · rw [outsAt1_C V c ⟨n + 1, hn⟩ hB h1, out1_C2, k1_pay5_eq, iblk1_0_eq, iblk1_1_eq]
      refine Prod.ext (funext fun j => ?_) (funext fun j => ?_)
      · show (outsAt1 V c n _).1 j + sumTerm1 V c (n + 1) = ∑ t ∈ Finset.range (n + 1 + 1), sumTerm1 V c t
        rw [ih1, Finset.sum_range_succ _ (n + 1)]
      · show (outsAt1 V c n _).2 j = ∑ t ∈ Finset.range (n + 1 + 1), diagTerm1 V c t
        rw [ih2, Finset.sum_range_succ _ (n + 1), diagTerm1_off V c h1, add_zero]

/-- Over the whole grid the block pairs' sums add up to the sum of all weights, and the diagonal blocks' sums of
    self-weights to the sum of all self-weights. -/
theorem sum_sumTerm1 (c : Dev nD) : ∑ t ∈ Finset.range 64, sumTerm1 V c t = Cert.Spec.total (Y1 V c) (Y1 V c) := by
  rw [Cert.Spec.total_blocks]
  exact sum_range_grid fun a b => Cert.Spec.total (Cert.Spec.blk (Y1 V c) a) (Cert.Spec.blk (Y1 V c) b)

theorem sum_diagTerm1 (c : Dev nD) : ∑ t ∈ Finset.range 64, diagTerm1 V c t = Cert.Spec.diag (Y1 V c) := by
  rw [Cert.Spec.diag_blocks]
  exact sum_range_grid_diag fun g => Cert.Spec.diag (Cert.Spec.blk (Y1 V c) g)

/-- The last grid point. -/
abbrev t1_last : Fin cfg1.N := ⟨63, by rw [show cfg1.N = 64 from N_1]; decide⟩

theorem outsAt1_last (c : Dev nD) : outsAt1 V c t1_last.val t1_last.isLt
    = (fun _ => Cert.Spec.total (Y1 V c) (Y1 V c), fun _ => Cert.Spec.diag (Y1 V c)) :=
  (outsAt1_eq V c 63 t1_last.isLt).trans
    (Prod.ext (funext fun _ => sum_sumTerm1 V c) (funext fun _ => sum_diagTerm1 V c))

/-! ### The two output arrays after the region -/

theorem flushed1_2_eq (c : Dev nD) (t : Fin cfg1.N) (hf : (cfg1.win 2).flush t = true) :
    (dat1 V c).flushed 2 t
      = ((cfg1.win 2).blk t).view.read (Elt Ideal) (fun _ => Cert.Spec.total (Y1 V c) (Y1 V c)) := by
  have hN : cfg1.N = 64 := N_1
  have h63 : t.val = 63 := by have := (flush1_2 t).mp hf; have := t.isLt; omega
  obtain rfl : t = t1_last := Fin.ext h63
  show (cfg1.win 2).cut (grid1.coords t1_last) ((dat1 V c).after 2 t1_last) = _
  rw [after1_2, outsAt1_last]
  funext y
  rw [View.read_apply]
  rfl

theorem flushed1_3_eq (c : Dev nD) (t : Fin cfg1.N) (hf : (cfg1.win 3).flush t = true) :
    (dat1 V c).flushed 3 t
      = ((cfg1.win 3).blk t).view.read (Elt Ideal) (fun _ => Cert.Spec.diag (Y1 V c)) := by
  have hN : cfg1.N = 64 := N_1
  have h63 : t.val = 63 := by have := (flush1_3 t).mp hf; have := t.isLt; omega
  obtain rfl : t = t1_last := Fin.ext h63
  show (cfg1.win 3).cut (grid1.coords t1_last) ((dat1 V c).after 3 t1_last) = _
  rw [after1_3, outsAt1_last]
  funext y
  rw [View.read_apply]
  rfl

theorem arr1_final_sum (c : Dev nD) :
    (dat1 (F := Ideal) V c).arrAt 2 cfg1.N = fun _ => Cert.Spec.total (Y1 V c) (Y1 V c) :=
  (dat1 V c).arrAt_eq_of_cover 2 (fun _ => Cert.Spec.total (Y1 V c) (Y1 V c)) (flushed1_2_eq V c) fun i =>
    ⟨t1_last, (flush1_2 t1_last).mpr rfl, by
      show i ∈ ((View.whole main_v10_0).slice (win1_2.rect t1_last)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index t1_last 0 * win1_2.size 0 ≤ (i 0 : Nat)
          ∧ (i 0 : Nat) < win1_2.index t1_last 0 * win1_2.size 0 + win1_2.xsize (grid1.coords t1_last) 0
        rw [show win1_2.index t1_last 0 * win1_2.size 0 = 0 from by decide +kernel,
          show win1_2.xsize (grid1.coords t1_last) 0 = 1 from by decide +kernel]; omega
      | ⟨1, _⟩ =>
        show win1_2.index t1_last 1 * win1_2.size 1 ≤ (i 1 : Nat)
          ∧ (i 1 : Nat) < win1_2.index t1_last 1 * win1_2.size 1 + win1_2.xsize (grid1.coords t1_last) 1
        rw [show win1_2.index t1_last 1 * win1_2.size 1 = 0 from by decide +kernel,
          show win1_2.xsize (grid1.coords t1_last) 1 = 1 from by decide +kernel]; omega⟩

theorem arr1_final_diag (c : Dev nD) :
    (dat1 (F := Ideal) V c).arrAt 3 cfg1.N = fun _ => Cert.Spec.diag (Y1 V c) :=
  (dat1 V c).arrAt_eq_of_cover 3 (fun _ => Cert.Spec.diag (Y1 V c)) (flushed1_3_eq V c) fun i =>
    ⟨t1_last, (flush1_3 t1_last).mpr rfl, by
      show i ∈ ((View.whole main_v10_1).slice (win1_3.rect t1_last)).set
      rw [View.set_slice_whole, Rect.mem_set_unit]
      intro a
      have h0 : (i 0 : Nat) < 1 := (i 0).isLt
      have h1 : (i 1 : Nat) < 1 := (i 1).isLt
      match a with
      | ⟨0, _⟩ =>
        show win1_3.index t1_last 0 * win1_3.size 0 ≤ (i 0 : Nat)
          ∧ (i 0 : Nat) < win1_3.index t1_last 0 * win1_3.size 0 + win1_3.xsize (grid1.coords t1_last) 0
        rw [show win1_3.index t1_last 0 * win1_3.size 0 = 0 from by decide +kernel,
          show win1_3.xsize (grid1.coords t1_last) 0 = 1 from by decide +kernel]; omega
      | ⟨1, _⟩ =>
        show win1_3.index t1_last 1 * win1_3.size 1 ≤ (i 1 : Nat)
          ∧ (i 1 : Nat) < win1_3.index t1_last 1 * win1_3.size 1 + win1_3.xsize (grid1.coords t1_last) 1
        rw [show win1_3.index t1_last 1 * win1_3.size 1 = 0 from by decide +kernel,
          show win1_3.xsize (grid1.coords t1_last) 1 = 1 from by decide +kernel]; omega⟩

end Cert.KernelIdeal.HandValue

end
-- ==== Proof.KIValue2.lean ====
/-
  The third kernel region (the cross sum of weights), read as values at the ideal instance.

  Each case of the body leaves in the one-word accumulator the body's arithmetic of what it found: at the first point
  the zero word plus the block sum, at a later point the running value plus the block sum. Window 0 holds, at grid point
  `t`, the 1024 rows of block row `t / 8` of the first point set and window 1 those of block row `t % 8` of the
  second (a block's element sits in the array at block index × 1024 + its row). So after point `n` the accumulator holds
  the sum over the points up to `n` of the block pairs' sums of weights; after the last point that is the sum over all
  8 × 8 block pairs, which is the sum of all weights of the two point sets. The accumulator's block is the whole
  one-word array and is written back once, after the last point.
-/
import proofs.«104143_j84421877170330_1_alg».proof.Proof.KI2Frame
import proofs.«104143_j84421877170330_1_alg».proof.Proof.KIValueBase
import proofs.«104143_j84421877170330_1_alg».proof.Proof.PayloadValue
import proofs.«104143_j84421877170330_1_alg».proof.Proof.SpecLaws
import Idealize.ShloMosaic.Lib.Pipeline.Value
import Idealize.ShloMosaic.Lib.Tactic

noncomputable section

namespace Cert.KernelIdeal.HandValue

open Idealize.ShloMosaic Idealize.ShloMosaic.TcCoe Idealize.SL.Sem Idealize.ShloMosaic.Tactic
open Idealize.ShloMosaic.Pipeline (Dat)
open Cert.KernelIdeal Cert.KernelIdeal.Gen Cert.KernelIdeal.Hand Cert.KernelIdeal.PayValue
open scoped BigOperators

/-! ### What each case of the body leaves in the accumulator, as the body's arithmetic -/

section Pieces
variable {F : FTy → Type} [FloatOps F]

theorem out2_B (c : Dev nD) (i : grid2.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (hc0 : ¬cond2_0 i) (x0 x1 : Vec F S1024x64 .f32) (xo2 : Vec F S1x1 .f32) :
    out2_B_2 c i a2 h2 a3 h3 a4 h4 hc0 x0 x1 xo2 = k2_pay2 x0 x1 xo2 := by
  unfold out2_B_2
  rw [View.read_writes_eq_canon _ _ _ (cover2_B_2 c i a2 h2 a3 h3 a4 h4 hc0 x0 x1 xo2)]
  unfold kernelRun2_B
  dsimp only
  sl_unfold_words
  rw [View.canon_unit_zero hz]
  simp only [View.readAt_eq_ld, h2.read_unread, h3.read_unread, h4.read_unread, View.ld_unit_zero (S := S1024x64) hz,
    View.ld_unit_zero (S := S1x1) hz]

theorem out2_A (c : Dev nD) (i : grid2.Coords) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (hc0 : cond2_0 i) (x0 x1 : Vec F S1024x64 .f32) :
    out2_A_2 c i a2 h2 a3 h3 a4 h4 hc0 x0 x1 = k2_pay2 x0 x1 k2_pay1 := by
  unfold out2_A_2
  rw [View.read_writes_eq_canon _ _ _ (cover2_A_2 c i a2 h2 a3 h3 a4 h4 hc0 x0 x1)]
  unfold kernelRun2_A
  dsimp only
  sl_unfold_words
  rw [View.canon_cons_unit_zero (S := S1x1) hz, View.readCov_unit_zero (S := S1x1) _ hz]
  simp only [View.readAt_eq_ld, h2.read_unread, h3.read_unread, View.ld_unit_zero (S := S1024x64) hz]

end Pieces

/-! ### The blocks the two input windows hold at a point -/

variable (V : (c : Dev nD) → (b : Ref sig .tc) → Buf (Elt Ideal) ((c : Thread nD τ).loc b))

/-- The first point set as the region finds it, and the second. -/
abbrev X2 (c : Dev nD) : Fin 8192 → Fin 64 → EReal := Cert.Spec.mat (V c main_v6 : S8192x64.Idx → EReal)
abbrev Y2 (c : Dev nD) : Fin 8192 → Fin 64 → EReal := Cert.Spec.mat (V c main_arg3 : S8192x64.Idx → EReal)

theorem idx2_0 : ∀ t : Fin cfg2.N, win2_0.index t 0 = t.val / 8 ∧ win2_0.index t 1 = 0 :=
  (by decide +kernel : ∀ t : Fin grid2.N, win2_0.index t 0 = t.val / 8 ∧ win2_0.index t 1 = 0)
theorem idx2_1 : ∀ t : Fin cfg2.N, win2_1.index t 0 = t.val % 8 ∧ win2_1.index t 1 = 0 :=
  (by decide +kernel : ∀ t : Fin grid2.N, win2_1.index t 0 = t.val % 8 ∧ win2_1.index t 1 = 0)

/-- Window 0 holds the rows of block row `t / 8` of the first point set. -/
theorem iblk2_0_eq (c : Dev nD) (t : Fin cfg2.N) :
    Cert.Spec.mat (iblk2 V c 0 t : Vec Ideal S1024x64 .f32) = Cert.Spec.blk (X2 V c) (gi t.val) := by
  have hN : t.val < 64 := lt_of_lt_of_eq t.isLt (show cfg2.N = 64 from N_2)
  have hi := idx2_0 t
  funext r k
  unfold iblk2
  show ((cfg2.win 0).blk t).view.read (Elt Ideal) (V c (Pipeline.arrRef spec2 0)) (ValueIdx.ix2 r k) = V c main_v6 _
  rw [View.read_apply]
  show V c main_v6 _ = V c main_v6 _
  refine congrArg _ (funext fun a => Fin.ext ?_)
  match a with
  | ⟨0, _⟩ =>
    show win2_0.index t 0 * 1024 + 1 * r.val = 1024 * (t.val / 8 % 8) + r.val
    rw [hi.1]; omega
  | ⟨1, _⟩ =>
    show win2_0.index t 1 * 64 + 1 * k.val = k.val
    rw [hi.2]; omega

/-- Window 1 holds the rows of block row `t % 8` of the second point set. -/
theorem iblk2_1_eq (c : Dev nD) (t : Fin cfg2.N) :
    Cert.Spec.mat (iblk2 V c 1 t : Vec Ideal S1024x64 .f32) = Cert.Spec.blk (Y2 V c) (gj t.val) := by
  have hi := idx2_1 t
  funext r k
  unfold iblk2
  show ((cfg2.win 1).blk t).view.read (Elt Ideal) (V c (Pipeline.arrRef spec2 1)) (ValueIdx.ix2 r k) = V c main_arg3 _
  rw [View.read_apply]
  show V c main_arg3 _ = V c main_arg3 _
  refine congrArg _ (funext fun a => Fin.ext ?_)
  match a with
  | ⟨0, _⟩ =>
    show win2_1.index t 0 * 1024 + 1 * r.val = 1024 * (t.val % 8) + r.val
    rw [hi.1]; omega
  | ⟨1, _⟩ =>
    show win2_1.index t 1 * 64 + 1 * k.val = k.val
    rw [hi.2]; omega

/-! ### The accumulator after each point: the sum of the block sums so far -/

/-- The block sum of grid point `t`. -/
abbrev term2 (c : Dev nD) (t : ℕ) : EReal :=
  Cert.Spec.total (Cert.Spec.blk (X2 V c) (gi t)) (Cert.Spec.blk (Y2 V c) (gj t))

theorem outsAt2_eq (c : Dev nD) : ∀ (n : ℕ) (hn : n < cfg2.N),
    outsAt2 V c n hn = fun _ => ∑ t ∈ Finset.range (n + 1), term2 V c t
  | 0, hn => by
    rw [outsAt2_A V c ⟨0, hn⟩ rfl, out2_A, k2_pay2_eq, k2_pay1_eq, iblk2_0_eq, iblk2_1_eq]
    funext j
    rw [Finset.sum_range_one, zero_add]
  | n + 1, hn => by
    have hN : cfg2.N = 64 := N_2
    have hB : ¬(⟨n + 1, hn⟩ : Fin cfg2.N).val % 64 = 0 := by dsimp only; omega
    rw [outsAt2_B V c ⟨n + 1, hn⟩ hB, out2_B, k2_pay2_eq, iblk2_0_eq, iblk2_1_eq]
    funext j
    show outsAt2 V c n _ j + _ = _
    rw [outsAt2_eq c n, Finset.sum_range_succ _ (n + 1)]

/-- Over the whole grid the block sums add up to the sum of all weights. -/
theorem sum_term2 (c : Dev nD) : ∑ t ∈ Finset.range 64, term2 V c t = Cert.Spec.total (X2 V c) (Y2 V c) := by
  rw [Cert.Spec.total_blocks]
  exact sum_range_grid fun a b => Cert.Spec.total (Cert.Spec.blk (X2 V c) a) (Cert.Spec.blk (Y2 V c) b)

/-- The last grid point. -/
abbrev t2_last : Fin cfg2.N := ⟨63, by rw [show cfg2.N = 64 from N_2]; decide⟩

theorem outsAt2_last (c : Dev nD) : outsAt2 V c t2_last.val t2_last.isLt = fun _ => Cert.Spec.total (X2 V c) (Y2 V c) :=
  (outsAt2_eq V c 63 t2_last.isLt).trans (funext fun _ => sum_term2 V c)

/-! ### The output array after the region -/

/-- The one write-back, after the last point, writes the accumulator: its block is the whole one-word array. -/
theorem flushed2_eq (c : Dev nD) (t : Fin cfg2.N) (hf : (cfg2.win 2).flush t = true) :
    (dat2 V c).flushed 2 t
      = ((cfg2.win 2).blk t).view.read (Elt Ideal) (fun _ => Cert.Spec.total (X2 V c) (Y2 V c)) := by
  have hN : cfg2.N = 64 := N_2
  have h63 : t.val = 63 := by have := (flush2_2 t).mp hf; have := t.isLt; omega
  obtain rfl : t = t2_last := Fin.ext h63
  show (cfg2.win 2).cut (grid2.coords t2_last) ((dat2 V c).after 2 t2_last) = _
  rw [after2_2, outsAt2_last]
  funext y
  rw [View.read_apply]
  rfl

theorem arr2_final (c : Dev nD) :
    (dat2 (F := Ideal) V c).arrAt 2 cfg2.N = fun _ => Cert.Spec.total (X2 V c) (Y2 V c) :=
  (dat2 V c).arrAt_eq_of_cover 2 (fun _ => Cert.Spec.total (X2 V c) (Y2 V c)) (flushed2_eq V c) fun i =>
    ⟨t2_last, (flush2_2 t2_last).mpr rfl, by
      show i ∈ ((View.whole main_v13).slice (win2_2.rect t2_last)).set
      rw [View.set_slice_whole, Rect.mem_set_unit]
      intro a
      have h0 : (i 0 : Nat) < 1 := (i 0).isLt
      have h1 : (i 1 : Nat) < 1 := (i 1).isLt
      match a with
      | ⟨0, _⟩ =>
        show win2_2.index t2_last 0 * win2_2.size 0 ≤ (i 0 : Nat)
          ∧ (i 0 : Nat) < win2_2.index t2_last 0 * win2_2.size 0 + win2_2.xsize (grid2.coords t2_last) 0
        rw [show win2_2.index t2_last 0 * win2_2.size 0 = 0 from by decide +kernel,
          show win2_2.xsize (grid2.coords t2_last) 0 = 1 from by decide +kernel]; omega
      | ⟨1, _⟩ =>
        show win2_2.index t2_last 1 * win2_2.size 1 ≤ (i 1 : Nat)
          ∧ (i 1 : Nat) < win2_2.index t2_last 1 * win2_2.size 1 + win2_2.xsize (grid2.coords t2_last) 1
        rw [show win2_2.index t2_last 1 * win2_2.size 1 = 0 from by decide +kernel,
          show win2_2.xsize (grid2.coords t2_last) 1 = 1 from by decide +kernel]; omega⟩

end Cert.KernelIdeal.HandValue

end
-- ==== Proof.RefRunOps.lean ====
/-
  The reference program's run, read back.

  @main is a straight line of host operations: the sixty of its first window, then the sixty-four of its second once
  the two calls of the outlined trace (eleven operations each, the select of the function it calls in turn among them) are
  written out at their call sites over the calls' own buffers. Run in order from any memory, every buffer ends at the fold of the operations' results
  (`run_seq`); read at the result buffer, the fold is the composed pure term `res` of the four argument buffers, and at an argument
  buffer, which no operation writes, it is what was there.

  `res` is stated through named stages, each the operations' functions composed as the program spells them:
  `std` (the reshape, the broadcasts of mean and deviation, the subtraction and the quotient), `rowSq` (the
  product with itself and the sum along a row), `gram` (the matrix of Gaussian weights of two point sets), `total` (the sum of
  all entries), `diagSum` (the outlined trace: the sum of the entries kept where row and column numbers agree) and `stat`
  (the closing scalar chain).
-/
import proofs.«104143_j84421877170330_1_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the value -/

/-- The standardised points: the reshape to a row per point, mean and deviation broadcast along the rows, the
    difference and the quotient (the program's first seven operations). -/
def std (a0 : FVec F S16x512x64 .f32) (a1 a2 : FVec F S64 .f32) : FVec F S8192x64 .f32 :=
  Host.divf
    (subf (shapeCast S8192x64 a0 shapeCasts_S16x512x64_S8192x64)
      (broadcastInDim S8192x64 ![0, 1] bcast_S1x64_S8192x64_0_1 (broadcastInDim S1x64 ![1] bcast_S64_S1x64_1 a1)))
    (broadcastInDim S8192x64 ![0, 1] bcast_S1x64_S8192x64_0_1 (broadcastInDim S1x64 ![1] bcast_S64_S1x64_1 a2))

/-- The squared norm of each row: the product with itself, summed along the row from zero. -/
def rowSq (x : FVec F S8192x64 .f32) : FVec F S8192 .f32 :=
  Host.reduceAdd (mulf x x) (constant S_ .f32 0x00000000#32) reducesTo_S8192x64_S8192_d1 h_S_

/-- The Gaussian weights of two point sets: squared norms down the rows plus squared norms along the columns, minus
    twice the products of rows, clamped at zero, negated, divided by 128, exponentiated. -/
def gram (x y : FVec F S8192x64 .f32) : FVec F S8192x8192 .f32 :=
  Host.exp
    (Host.divf
      (Host.negf
        (maximumf
          (subf
            (addf
              (broadcastInDim S8192x8192 ![0, 1] bcast_S8192x1_S8192x8192_0_1
                (broadcastInDim S8192x1 ![0] bcast_S8192_S8192x1_0 (rowSq x)))
              (broadcastInDim S8192x8192 ![0, 1] bcast_S1x8192_S8192x8192_0_1
                (broadcastInDim S1x8192 ![1] bcast_S8192_S1x8192_1 (rowSq y))))
            (mulf (broadcastInDim S8192x8192 ![] bcast_S_S8192x8192 (constant S_ .f32 0x40000000#32))
              (Host.dotGeneral dot_S8192x64_S64x8192_S8192x8192_1_0_0_1_n_n none x
                (transpose S64x8192 [1, 0] y transposes_S8192x64_S64x8192_1_0))))
          (broadcastInDim S8192x8192 ![] bcast_S_S8192x8192 (constant S_ .f32 0x00000000#32))))
      (broadcastInDim S8192x8192 ![] bcast_S_S8192x8192 (constant S_ .f32 0x43000000#32)))

/-- The sum of all entries of a weight matrix, from zero. -/
def total (k : FVec F S8192x8192 .f32) : FVec F S_ .f32 :=
  Host.reduceAdd k (constant S_ .f32 0x00000000#32) reducesTo_S8192x8192_S_d0_1 h_S_

/-- The outlined trace: the entries kept where the row number (plus zero) equals the column number, zero elsewhere,
    summed from zero. -/
def diagSum (k : FVec F S8192x8192 .f32) : FVec F S_ .f32 :=
  Host.reduceAdd
    (select
      (cmpi .eq
        (addi (iotaInDim S8192x8192 32 0) (broadcastInDim S8192x8192 ![] bcast_S_S8192x8192 (constantI S_ 32 0#32)))
        (iotaInDim S8192x8192 32 1))
      k (broadcastInDim S8192x8192 ![] bcast_S_S8192x8192 (constant S_ .f32 0x00000000#32)))
    (constant S_ .f32 0x00000000#32) reducesTo_S8192x8192_S_d0_1 h_S_

/-- The closing scalar chain over the three weight matrices. -/
def stat (kxx kyy kxy : FVec F S8192x8192 .f32) : FVec F S_ .f32 :=
  maximumf
    (subf
      (addf (Host.divf (subf (total kxx) (diagSum kxx)) (constant S_ .f32 0x4C7FF800#32))
        (Host.divf (subf (total kyy) (diagSum kyy)) (constant S_ .f32 0x4C7FF800#32)))
      (mulf (constant S_ .f32 0x40000000#32) (Host.divf (total kxy) (constant S_ .f32 0x4C800000#32))))
    (constant S_ .f32 0x00000000#32)

/-- What the program computes from the four arguments' contents. -/
def val (a0 : FVec F S16x512x64 .f32) (a1 a2 : FVec F S64 .f32) (a3 : FVec F S8192x64 .f32) : FVec F S_ .f32 :=
  stat (gram (std a0 a1 a2) (std a0 a1 a2)) (gram a3 a3) (gram (std a0 a1 a2) a3)

/-! ## The program as a list of operations -/

/-- The first window's sixty operations, in order. -/
abbrev ops0 : List (HloOp τ sig (Elt F)) :=
  [ StableHlo.reshape main_arg0 main_v0 rfl shapeCasts_S16x512x64_S8192x64,
    StableHlo.unary main_arg1 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S8192x64 ![0, 1] bcast_S1x64_S8192x64_0_1 : (⟨S1x64, .f32⟩ : BufTy).Contents (Elt F) → (⟨S8192x64, .f32⟩ : BufTy).Contents (Elt F)),
    StableHlo.binary main_v0 main_v2 main_v3 (subf : (⟨S8192x64, .f32⟩ : BufTy).Contents (Elt F) → (⟨S8192x64, .f32⟩ : BufTy).Contents (Elt F) → (⟨S8192x64, .f32⟩ : BufTy).Contents (Elt F)),
    StableHlo.unary main_arg2 main_v4 (broadcastInDim S1x64 ![1] bcast_S64_S1x64_1 : (⟨S64, .f32⟩ : BufTy).Contents (Elt F) → (⟨S1x64, .f32⟩ : BufTy).Contents (Elt F)),
    StableHlo.unary main_v4 main_v5 (broadcastInDim S8192x64 ![0, 1] bcast_S1x64_S8192x64_0_1 : (⟨S1x64, .f32⟩ : BufTy).Contents (Elt F) → (⟨S8192x64, .f32⟩ : BufTy).Contents (Elt F)),
    StableHlo.binary main_v3 main_v5 main_v6 (Host.divf : (⟨S8192x64, .f32⟩ : BufTy).Contents (Elt F) → (⟨S8192x64, .f32⟩ : BufTy).Contents (Elt F) → (⟨S8192x64, .f32⟩ : BufTy).Contents (Elt F)),
    StableHlo.binary main_v6 main_v6 main_v7 (mulf : (⟨S8192x64, .f32⟩ : BufTy).Contents (Elt F) → (⟨S8192x64, .f32⟩ : BufTy).Contents (Elt F) → (⟨S8192x64, .f32⟩ : BufTy).Contents (Elt F)),
    StableHlo.nullary main_cst (constant S_ .f32 0x00000000#32),
    StableHlo.binary main_v7 main_cst main_v8 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.binary main_v6 main_v6 main_v9 (mulf : (⟨S8192x64, .f32⟩ : BufTy).Contents (Elt F) → (⟨S8192x64, .f32⟩ : BufTy).Contents (Elt F) → (⟨S8192x64, .f32⟩ : BufTy).Contents (Elt F)),
    StableHlo.nullary main_cst_0 (constant S_ .f32 0x00000000#32),
    StableHlo.binary main_v9 main_cst_0 main_v10 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v8 main_v11 (broadcastInDim S8192x1 ![0] bcast_S8192_S8192x1_0 : (⟨S8192, .f32⟩ : BufTy).Contents (Elt F) → (⟨S8192x1, .f32⟩ : BufTy).Contents (Elt F)),
    StableHlo.unary main_v10 main_v12 (broadcastInDim S1x8192 ![1] bcast_S8192_S1x8192_1 : (⟨S8192, .f32⟩ : BufTy).Contents (Elt F) → (⟨S1x8192, .f32⟩ : BufTy).Contents (Elt F)),
    StableHlo.unary main_v11 main_v13 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v12 main_v14 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v13 main_v14 main_v15 (addf : (⟨S8192x8192, .f32⟩ : BufTy).Contents (Elt F) → (⟨S8192x8192, .f32⟩ : BufTy).Contents (Elt F) → (⟨S8192x8192, .f32⟩ : BufTy).Contents (Elt F)),
    StableHlo.unary main_v6 main_v16 ((transpose S64x8192 [1, 0] · transposes_S8192x64_S64x8192_1_0) : (⟨S8192x64, .f32⟩ : BufTy).Contents (Elt F) → (⟨S64x8192, .f32⟩ : BufTy).Contents (Elt F)),
    StableHlo.binary main_v6 main_v16 main_v17 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst_1 (constant S_ .f32 0x40000000#32),
    StableHlo.unary main_cst_1 main_v18 (broadcastInDim S8192x8192 ![] bcast_S_S8192x8192 : (⟨S_, .f32⟩ : BufTy).Contents (Elt F) → (⟨S8192x8192, .f32⟩ : BufTy).Contents (Elt F)),
    StableHlo.binary main_v18 main_v17 main_v19 (mulf : (⟨S8192x8192, .f32⟩ : BufTy).Contents (Elt F) → (⟨S8192x8192, .f32⟩ : BufTy).Contents (Elt F) → (⟨S8192x8192, .f32⟩ : BufTy).Contents (Elt F)),
    StableHlo.binary main_v15 main_v19 main_v20 (subf : (⟨S8192x8192, .f32⟩ : BufTy).Contents (Elt F) → (⟨S8192x8192, .f32⟩ : BufTy).Contents (Elt F) → (⟨S8192x8192, .f32⟩ : BufTy).Contents (Elt F)),
    StableHlo.nullary main_cst_2 (constant S_ .f32 0x00000000#32),
    StableHlo.unary main_cst_2 main_v21 (broadcastInDim S8192x8192 ![] bcast_S_S8192x8192 : (⟨S_, .f32⟩ : BufTy).Contents (Elt F) → (⟨S8192x8192, .f32⟩ : BufTy).Contents (Elt F)),
    StableHlo.binary main_v20 main_v21 main_v22 (maximumf : (⟨S8192x8192, .f32⟩ : BufTy).Contents (Elt F) → (⟨S8192x8192, .f32⟩ : BufTy).Contents (Elt F) → (⟨S8192x8192, .f32⟩ : BufTy).Contents (Elt F)),
    StableHlo.unary main_v22 main_v23 (Host.negf : (⟨S8192x8192, .f32⟩ : BufTy).Contents (Elt F) → (⟨S8192x8192, .f32⟩ : BufTy).Contents (Elt F)),
    StableHlo.nullary main_cst_3 (constant S_ .f32 0x43000000#32),
    StableHlo.unary main_cst_3 main_v24 (broadcastInDim S8192x8192 ![] bcast_S_S8192x8192 : (⟨S_, .f32⟩ : BufTy).Contents (Elt F) → (⟨S8192x8192, .f32⟩ : BufTy).Contents (Elt F)),
    StableHlo.binary main_v23 main_v24 main_v25 (Host.divf : (⟨S8192x8192, .f32⟩ : BufTy).Contents (Elt F) → (⟨S8192x8192, .f32⟩ : BufTy).Contents (Elt F) → (⟨S8192x8192, .f32⟩ : BufTy).Contents (Elt F)),
    StableHlo.unary main_v25 main_v26 (Host.exp : (⟨S8192x8192, .f32⟩ : BufTy).Contents (Elt F) → (⟨S8192x8192, .f32⟩ : BufTy).Contents (Elt F)),
    StableHlo.binary main_arg3 main_arg3 main_v27 (mulf : (⟨S8192x64, .f32⟩ : BufTy).Contents (Elt F) → (⟨S8192x64, .f32⟩ : BufTy).Contents (Elt F) → (⟨S8192x64, .f32⟩ : BufTy).Contents (Elt F)),
    StableHlo.nullary main_cst_4 (constant S_ .f32 0x00000000#32),
    StableHlo.binary main_v27 main_cst_4 main_v28 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.binary main_arg3 main_arg3 main_v29 (mulf : (⟨S8192x64, .f32⟩ : BufTy).Contents (Elt F) → (⟨S8192x64, .f32⟩ : BufTy).Contents (Elt F) → (⟨S8192x64, .f32⟩ : BufTy).Contents (Elt F)),
    StableHlo.nullary main_cst_5 (constant S_ .f32 0x00000000#32),
    StableHlo.binary main_v29 main_cst_5 main_v30 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v28 main_v31 (broadcastInDim S8192x1 ![0] bcast_S8192_S8192x1_0 : (⟨S8192, .f32⟩ : BufTy).Contents (Elt F) → (⟨S8192x1, .f32⟩ : BufTy).Contents (Elt F)),
    StableHlo.unary main_v30 main_v32 (broadcastInDim S1x8192 ![1] bcast_S8192_S1x8192_1 : (⟨S8192, .f32⟩ : BufTy).Contents (Elt F) → (⟨S1x8192, .f32⟩ : BufTy).Contents (Elt F)),
    StableHlo.unary main_v31 main_v33 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v32 main_v34 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v33 main_v34 main_v35 (addf : (⟨S8192x8192, .f32⟩ : BufTy).Contents (Elt F) → (⟨S8192x8192, .f32⟩ : BufTy).Contents (Elt F) → (⟨S8192x8192, .f32⟩ : BufTy).Contents (Elt F)),
    StableHlo.unary main_arg3 main_v36 ((transpose S64x8192 [1, 0] · transposes_S8192x64_S64x8192_1_0) : (⟨S8192x64, .f32⟩ : BufTy).Contents (Elt F) → (⟨S64x8192, .f32⟩ : BufTy).Contents (Elt F)),
    StableHlo.binary main_arg3 main_v36 main_v37 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst_6 (constant S_ .f32 0x40000000#32),
    StableHlo.unary main_cst_6 main_v38 (broadcastInDim S8192x8192 ![] bcast_S_S8192x8192 : (⟨S_, .f32⟩ : BufTy).Contents (Elt F) → (⟨S8192x8192, .f32⟩ : BufTy).Contents (Elt F)),
    StableHlo.binary main_v38 main_v37 main_v39 (mulf : (⟨S8192x8192, .f32⟩ : BufTy).Contents (Elt F) → (⟨S8192x8192, .f32⟩ : BufTy).Contents (Elt F) → (⟨S8192x8192, .f32⟩ : BufTy).Contents (Elt F)),
    StableHlo.binary main_v35 main_v39 main_v40 (subf : (⟨S8192x8192, .f32⟩ : BufTy).Contents (Elt F) → (⟨S8192x8192, .f32⟩ : BufTy).Contents (Elt F) → (⟨S8192x8192, .f32⟩ : BufTy).Contents (Elt F)),
    StableHlo.nullary main_cst_7 (constant S_ .f32 0x00000000#32),
    StableHlo.unary main_cst_7 main_v41 (broadcastInDim S8192x8192 ![] bcast_S_S8192x8192 : (⟨S_, .f32⟩ : BufTy).Contents (Elt F) → (⟨S8192x8192, .f32⟩ : BufTy).Contents (Elt F)),
    StableHlo.binary main_v40 main_v41 main_v42 (maximumf : (⟨S8192x8192, .f32⟩ : BufTy).Contents (Elt F) → (⟨S8192x8192, .f32⟩ : BufTy).Contents (Elt F) → (⟨S8192x8192, .f32⟩ : BufTy).Contents (Elt F)),
    StableHlo.unary main_v42 main_v43 (Host.negf : (⟨S8192x8192, .f32⟩ : BufTy).Contents (Elt F) → (⟨S8192x8192, .f32⟩ : BufTy).Contents (Elt F)),
    StableHlo.nullary main_cst_8 (constant S_ .f32 0x43000000#32),
    StableHlo.unary main_cst_8 main_v44 (broadcastInDim S8192x8192 ![] bcast_S_S8192x8192 : (⟨S_, .f32⟩ : BufTy).Contents (Elt F) → (⟨S8192x8192, .f32⟩ : BufTy).Contents (Elt F)),
    StableHlo.binary main_v43 main_v44 main_v45 (Host.divf : (⟨S8192x8192, .f32⟩ : BufTy).Contents (Elt F) → (⟨S8192x8192, .f32⟩ : BufTy).Contents (Elt F) → (⟨S8192x8192, .f32⟩ : BufTy).Contents (Elt F)),
    StableHlo.unary main_v45 main_v46 (Host.exp : (⟨S8192x8192, .f32⟩ : BufTy).Contents (Elt F) → (⟨S8192x8192, .f32⟩ : BufTy).Contents (Elt F)),
    StableHlo.binary main_v6 main_v6 main_v47 (mulf : (⟨S8192x64, .f32⟩ : BufTy).Contents (Elt F) → (⟨S8192x64, .f32⟩ : BufTy).Contents (Elt F) → (⟨S8192x64, .f32⟩ : BufTy).Contents (Elt F)),
    StableHlo.nullary main_cst_9 (constant S_ .f32 0x00000000#32),
    StableHlo.binary main_v47 main_cst_9 main_v48 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)) ]

/-- The second window's operations, in order, each call of the outlined trace written out over that call's
    buffers: the two index grids, the integer zero and its broadcast, their sum, the comparison, the float zero and
    its broadcast, the select (the called function's one operation), the zero the sum starts from, the sum. -/
abbrev ops1 : List (HloOp τ sig (Elt F)) :=
  [ StableHlo.binary main_arg3 main_arg3 main_v49 (mulf : (⟨S8192x64, .f32⟩ : BufTy).Contents (Elt F) → (⟨S8192x64, .f32⟩ : BufTy).Contents (Elt F) → (⟨S8192x64, .f32⟩ : BufTy).Contents (Elt F)),
    StableHlo.nullary main_cst_10 (constant S_ .f32 0x00000000#32),
    StableHlo.binary main_v49 main_cst_10 main_v50 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v48 main_v51 (broadcastInDim S8192x1 ![0] bcast_S8192_S8192x1_0 : (⟨S8192, .f32⟩ : BufTy).Contents (Elt F) → (⟨S8192x1, .f32⟩ : BufTy).Contents (Elt F)),
    StableHlo.unary main_v50 main_v52 (broadcastInDim S1x8192 ![1] bcast_S8192_S1x8192_1 : (⟨S8192, .f32⟩ : BufTy).Contents (Elt F) → (⟨S1x8192, .f32⟩ : BufTy).Contents (Elt F)),
    StableHlo.unary main_v51 main_v53 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v52 main_v54 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v53 main_v54 main_v55 (addf : (⟨S8192x8192, .f32⟩ : BufTy).Contents (Elt F) → (⟨S8192x8192, .f32⟩ : BufTy).Contents (Elt F) → (⟨S8192x8192, .f32⟩ : BufTy).Contents (Elt F)),
    StableHlo.unary main_arg3 main_v56 ((transpose S64x8192 [1, 0] · transposes_S8192x64_S64x8192_1_0) : (⟨S8192x64, .f32⟩ : BufTy).Contents (Elt F) → (⟨S64x8192, .f32⟩ : BufTy).Contents (Elt F)),
    StableHlo.binary main_v6 main_v56 main_v57 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst_11 (constant S_ .f32 0x40000000#32),
    StableHlo.unary main_cst_11 main_v58 (broadcastInDim S8192x8192 ![] bcast_S_S8192x8192 : (⟨S_, .f32⟩ : BufTy).Contents (Elt F) → (⟨S8192x8192, .f32⟩ : BufTy).Contents (Elt F)),
    StableHlo.binary main_v58 main_v57 main_v59 (mulf : (⟨S8192x8192, .f32⟩ : BufTy).Contents (Elt F) → (⟨S8192x8192, .f32⟩ : BufTy).Contents (Elt F) → (⟨S8192x8192, .f32⟩ : BufTy).Contents (Elt F)),
    StableHlo.binary main_v55 main_v59 main_v60 (subf : (⟨S8192x8192, .f32⟩ : BufTy).Contents (Elt F) → (⟨S8192x8192, .f32⟩ : BufTy).Contents (Elt F) → (⟨S8192x8192, .f32⟩ : BufTy).Contents (Elt F)),
    StableHlo.nullary main_cst_12 (constant S_ .f32 0x00000000#32),
    StableHlo.unary main_cst_12 main_v61 (broadcastInDim S8192x8192 ![] bcast_S_S8192x8192 : (⟨S_, .f32⟩ : BufTy).Contents (Elt F) → (⟨S8192x8192, .f32⟩ : BufTy).Contents (Elt F)),
    StableHlo.binary main_v60 main_v61 main_v62 (maximumf : (⟨S8192x8192, .f32⟩ : BufTy).Contents (Elt F) → (⟨S8192x8192, .f32⟩ : BufTy).Contents (Elt F) → (⟨S8192x8192, .f32⟩ : BufTy).Contents (Elt F)),
    StableHlo.unary main_v62 main_v63 (Host.negf : (⟨S8192x8192, .f32⟩ : BufTy).Contents (Elt F) → (⟨S8192x8192, .f32⟩ : BufTy).Contents (Elt F)),
    StableHlo.nullary main_cst_13 (constant S_ .f32 0x43000000#32),
    StableHlo.unary main_cst_13 main_v64 (broadcastInDim S8192x8192 ![] bcast_S_S8192x8192 : (⟨S_, .f32⟩ : BufTy).Contents (Elt F) → (⟨S8192x8192, .f32⟩ : BufTy).Contents (Elt F)),
    StableHlo.binary main_v63 main_v64 main_v65 (Host.divf : (⟨S8192x8192, .f32⟩ : BufTy).Contents (Elt F) → (⟨S8192x8192, .f32⟩ : BufTy).Contents (Elt F) → (⟨S8192x8192, .f32⟩ : BufTy).Contents (Elt F)),
    StableHlo.unary main_v65 main_v66 (Host.exp : (⟨S8192x8192, .f32⟩ : BufTy).Contents (Elt F) → (⟨S8192x8192, .f32⟩ : BufTy).Contents (Elt F)),
    StableHlo.nullary main_cst_14 (constant S_ .f32 0x00000000#32),
    StableHlo.binary main_v26 main_cst_14 main_v67 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.TRef.nullary main_call0.v0 (iotaInDim S8192x8192 32 0),
    StableHlo.TRef.nullary main_call0.v1 (iotaInDim S8192x8192 32 1),
    StableHlo.TRef.nullary main_call0.c (constantI S_ 32 0#32),
    StableHlo.TRef.unary main_call0.c main_call0.v2 (broadcastInDim S8192x8192 ![] bcast_S_S8192x8192),
    StableHlo.TRef.binary main_call0.v0 main_call0.v2 main_call0.v3 addi,
    StableHlo.TRef.binary main_call0.v3 main_call0.v1 main_call0.v4 (cmpi .eq),
    StableHlo.TRef.nullary main_call0.cst (constant S_ .f32 0x00000000#32),
    StableHlo.TRef.unary main_call0.cst main_call0.v5 (broadcastInDim S8192x8192 ![] bcast_S_S8192x8192),
    StableHlo.TRef.ternary main_call0.v4 (.of main_v26 : StableHlo.TRef sig ⟨S8192x8192, .f32⟩) main_call0.v5 main_call0.call0.v0 select,
    StableHlo.TRef.nullary main_call0.cst_0 (constant S_ .f32 0x00000000#32),
    StableHlo.TRef.binary main_call0.call0.v0 main_call0.cst_0 main_call0.v7 (fun x v => Host.reduceAdd x v reducesTo_S8192x8192_S_d0_1 h_S_),
    StableHlo.binary main_v67 main_v68 main_v69 (subf : (⟨S_, .f32⟩ : BufTy).Contents (Elt F) → (⟨S_, .f32⟩ : BufTy).Contents (Elt F) → (⟨S_, .f32⟩ : BufTy).Contents (Elt F)),
    StableHlo.nullary main_cst_15 (constant S_ .f32 0x4C7FF800#32),
    StableHlo.binary main_v69 main_cst_15 main_v70 (Host.divf : (⟨S_, .f32⟩ : BufTy).Contents (Elt F) → (⟨S_, .f32⟩ : BufTy).Contents (Elt F) → (⟨S_, .f32⟩ : BufTy).Contents (Elt F)),
    StableHlo.nullary main_cst_16 (constant S_ .f32 0x00000000#32),
    StableHlo.binary main_v46 main_cst_16 main_v71 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.TRef.nullary main_call1.v0 (iotaInDim S8192x8192 32 0),
    StableHlo.TRef.nullary main_call1.v1 (iotaInDim S8192x8192 32 1),
    StableHlo.TRef.nullary main_call1.c (constantI S_ 32 0#32),
    StableHlo.TRef.unary main_call1.c main_call1.v2 (broadcastInDim S8192x8192 ![] bcast_S_S8192x8192),
    StableHlo.TRef.binary main_call1.v0 main_call1.v2 main_call1.v3 addi,
    StableHlo.TRef.binary main_call1.v3 main_call1.v1 main_call1.v4 (cmpi .eq),
    StableHlo.TRef.nullary main_call1.cst (constant S_ .f32 0x00000000#32),
    StableHlo.TRef.unary main_call1.cst main_call1.v5 (broadcastInDim S8192x8192 ![] bcast_S_S8192x8192),
    StableHlo.TRef.ternary main_call1.v4 (.of main_v46 : StableHlo.TRef sig ⟨S8192x8192, .f32⟩) main_call1.v5 main_call1.call0.v0 select,
    StableHlo.TRef.nullary main_call1.cst_0 (constant S_ .f32 0x00000000#32),
    StableHlo.TRef.binary main_call1.call0.v0 main_call1.cst_0 main_call1.v7 (fun x v => Host.reduceAdd x v reducesTo_S8192x8192_S_d0_1 h_S_),
    StableHlo.binary main_v71 main_v72 main_v73 (subf : (⟨S_, .f32⟩ : BufTy).Contents (Elt F) → (⟨S_, .f32⟩ : BufTy).Contents (Elt F) → (⟨S_, .f32⟩ : BufTy).Contents (Elt F)),
    StableHlo.nullary main_cst_17 (constant S_ .f32 0x4C7FF800#32),
    StableHlo.binary main_v73 main_cst_17 main_v74 (Host.divf : (⟨S_, .f32⟩ : BufTy).Contents (Elt F) → (⟨S_, .f32⟩ : BufTy).Contents (Elt F) → (⟨S_, .f32⟩ : BufTy).Contents (Elt F)),
    StableHlo.binary main_v70 main_v74 main_v75 (addf : (⟨S_, .f32⟩ : BufTy).Contents (Elt F) → (⟨S_, .f32⟩ : BufTy).Contents (Elt F) → (⟨S_, .f32⟩ : BufTy).Contents (Elt F)),
    StableHlo.nullary main_cst_18 (constant S_ .f32 0x00000000#32),
    StableHlo.binary main_v66 main_cst_18 main_v76 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.nullary main_cst_19 (constant S_ .f32 0x4C800000#32),
    StableHlo.binary main_v76 main_cst_19 main_v77 (Host.divf : (⟨S_, .f32⟩ : BufTy).Contents (Elt F) → (⟨S_, .f32⟩ : BufTy).Contents (Elt F) → (⟨S_, .f32⟩ : BufTy).Contents (Elt F)),
    StableHlo.nullary main_cst_20 (constant S_ .f32 0x40000000#32),
    StableHlo.binary main_cst_20 main_v77 main_v78 (mulf : (⟨S_, .f32⟩ : BufTy).Contents (Elt F) → (⟨S_, .f32⟩ : BufTy).Contents (Elt F) → (⟨S_, .f32⟩ : BufTy).Contents (Elt F)),
    StableHlo.binary main_v75 main_v78 main_v79 (subf : (⟨S_, .f32⟩ : BufTy).Contents (Elt F) → (⟨S_, .f32⟩ : BufTy).Contents (Elt F) → (⟨S_, .f32⟩ : BufTy).Contents (Elt F)),
    StableHlo.nullary main_cst_21 (constant S_ .f32 0x00000000#32),
    StableHlo.binary main_v79 main_cst_21 main_v80 (maximumf : (⟨S_, .f32⟩ : BufTy).Contents (Elt F) → (⟨S_, .f32⟩ : BufTy).Contents (Elt F) → (⟨S_, .f32⟩ : BufTy).Contents (Elt F)) ]

/-- @main's operations, in order. -/
abbrev ops : List (HloOp τ sig (Elt F)) := ops0 ++ ops1

theorem main_part0_eq (c : Dev nD) : main_part0 (F := F) c = seq ops0 := rfl

set_option maxRecDepth 4096 in
set_option maxHeartbeats 4000000 in
/-- The second window is that straight line: the two functions' definitions unfolded at their calls, both sides are
    one chain of steps once sequencing is reassociated. -/
theorem main_part1_eq (c : Dev nD) : main_part1 (F := F) c = seq ops1 := by
  simp only [main_part1, fn_trace.body, fn_where.body, seq, bind_assoc, pure_bind]

theorem main_eq (c : Dev nD) : main (F := F) c = seq ops := by
  rw [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨reshape_bufs_sub .., unary_bufs_sub .., unary_bufs_sub .., binary_bufs_sub .., unary_bufs_sub .., unary_bufs_sub ..,
    binary_bufs_sub .., binary_bufs_sub .., nullary_bufs_sub .., binary_bufs_sub .., binary_bufs_sub .., nullary_bufs_sub ..,
    binary_bufs_sub .., unary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., unary_bufs_sub .., binary_bufs_sub .., nullary_bufs_sub .., binary_bufs_sub .., binary_bufs_sub ..,
    nullary_bufs_sub .., binary_bufs_sub .., unary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., unary_bufs_sub .., binary_bufs_sub .., nullary_bufs_sub .., binary_bufs_sub ..⟩

theorem ops1_sub : (ops1 : List (HloOp τ sig (Elt F))).Forall fun op => op.bufs ⊆ tcRefs τ sig :=
  ⟨binary_bufs_sub .., nullary_bufs_sub .., binary_bufs_sub .., unary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., unary_bufs_sub .., nullary_bufs_sub .., binary_bufs_sub ..,
    nullary_bufs_sub .., nullary_bufs_sub .., nullary_bufs_sub .., unary_bufs_sub .., binary_bufs_sub .., binary_bufs_sub ..,
    nullary_bufs_sub .., unary_bufs_sub .., ternary_bufs_sub .., nullary_bufs_sub .., binary_bufs_sub .., binary_bufs_sub ..,
    nullary_bufs_sub .., binary_bufs_sub .., nullary_bufs_sub .., binary_bufs_sub .., nullary_bufs_sub .., nullary_bufs_sub ..,
    nullary_bufs_sub .., unary_bufs_sub .., binary_bufs_sub .., binary_bufs_sub .., nullary_bufs_sub .., unary_bufs_sub ..,
    ternary_bufs_sub .., nullary_bufs_sub .., binary_bufs_sub .., binary_bufs_sub .., nullary_bufs_sub .., binary_bufs_sub ..,
    binary_bufs_sub .., nullary_bufs_sub .., binary_bufs_sub .., nullary_bufs_sub .., binary_bufs_sub .., nullary_bufs_sub ..,
    binary_bufs_sub .., binary_bufs_sub .., nullary_bufs_sub .., binary_bufs_sub ..⟩

theorem ops_sub : (ops : List (HloOp τ sig (Elt F))).Forall fun op => op.bufs ⊆ tcRefs τ sig :=
  List.forall_append.mpr ⟨ops0_sub, ops1_sub⟩

/-- The fold of two lines run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- No operation of either window allocates: each determines its results. -/
theorem ops_fresh : ∀ op ∈ (ops : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

/-- On every device, for any float values, from any memory with zero counters: every weakly fair execution of @main
    terminates, and every buffer ends at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefRun.lean ====
/-
  The reference program's run read at its result and at its arguments.

  Every buffer ends at the fold of the operations' results over the launch contents (the operation list and that
  statement are the imported module's). Read at the result buffer, the fold is `val` of the four arguments' launch
  contents — each operation's result at its own buffer is its function of its operands' contents, and at any other buffer
  what was there, so the fold at one buffer unwinds to the composed term, which is `val` with its stages unfolded; read
  at an argument buffer, which no operation writes, it is the launch contents.
-/
import proofs.«104143_j84421877170330_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- The fold at the result buffer is `val` of the contents at the four argument buffers. -/
theorem out_eq (V : Valuation τ sig (Elt F)) :
    after ops V (Proc.devRef .tc main_v80)
      = val (V (Proc.devRef .tc main_arg0)) (V (Proc.devRef .tc main_arg1)) (V (Proc.devRef .tc main_arg2)) (V (Proc.devRef .tc main_arg3)) := by
  rw [ops, after_app]
  after_results_simp
  rfl

set_option maxHeartbeats 4000000 in
/-- No operation writes argument 0's buffer: it ends as it began. -/
theorem arg0_keep (V : Valuation τ sig (Elt F)) :
    after ops V (Proc.devRef .tc main_arg0) = V (Proc.devRef .tc main_arg0) := by
  rw [ops, after_app]
  after_results_simp

set_option maxHeartbeats 4000000 in
/-- No operation writes argument 1's buffer: it ends as it began. -/
theorem arg1_keep (V : Valuation τ sig (Elt F)) :
    after ops V (Proc.devRef .tc main_arg1) = V (Proc.devRef .tc main_arg1) := by
  rw [ops, after_app]
  after_results_simp

set_option maxHeartbeats 4000000 in
/-- No operation writes argument 2's buffer: it ends as it began. -/
theorem arg2_keep (V : Valuation τ sig (Elt F)) :
    after ops V (Proc.devRef .tc main_arg2) = V (Proc.devRef .tc main_arg2) := by
  rw [ops, after_app]
  after_results_simp

set_option maxHeartbeats 4000000 in
/-- No operation writes argument 3's buffer: it ends as it began. -/
theorem arg3_keep (V : Valuation τ sig (Elt F)) :
    after ops V (Proc.devRef .tc main_arg3) = V (Proc.devRef .tc main_arg3) := by
  rw [ops, after_app]
  after_results_simp

/-- What @main leaves in its result buffer on device `c`, from the launch memory `m`. -/
def res (m : (ℓ : Loc nD τ sig) → Buf (Elt F) ℓ) (c : Dev nD) : FVec F S_ .f32 :=
  val (m ((c.tc : Thread nD τ).loc main_arg0)) (m ((c.tc : Thread nD τ).loc main_arg1)) (m ((c.tc : Thread nD τ).loc main_arg2)) (m ((c.tc : Thread nD τ).loc main_arg3))

/-- On every device, for any float values, from any memory with zero counters: every weakly fair execution of @main
    terminates with the result at `res` and the arguments unchanged. -/
theorem run_gen (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v80).trans (out_eq _),
      (h c main_arg0).trans (arg0_keep _), (h c main_arg1).trans (arg1_keep _),
      (h c main_arg2).trans (arg2_keep _), (h c main_arg3).trans (arg3_keep _)⟩)
    (run_after m ρ)

/-- The same at the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v80) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_gen m ρ

end Cert.ReferenceIdeal.RefRun

end
-- ==== Proof.RefValue.lean ====
/-
  The reference program's value, index by index.

  The program's result is `stat (gram x̂ x̂) (gram y y) (gram x̂ y)` for the standardised points `x̂` and the prior
  points `y` (the run module's `val`). Read at an index, each stage is its textbook meaning on the extended reals:
  a row reduction of the product of a matrix with itself is the squared norm of the row; a vector broadcast down the rows
  or along the columns reads its own entry; the product with the transpose is the inner product of two rows; so an entry
  of `gram` is the Gaussian weight of the two rows (exponent spelt as the quotient of the negated clamped squared distance
  by 128); the reduction over both axes from zero is the double sum; the outlined trace keeps an entry where the row
  number equals the column number and puts zero elsewhere, so its sum is the sum of the diagonal; and the closing scalar
  chain is the statistic of the five sums (last quotient spelt twice the quotient). The two spellings agree with the
  shared specification's (`kernRef_eq`, `mmdR_eq`), which gives `mmd` of the two point sets. The standardised points
  stay one opaque term throughout.
-/
import proofs.«104143_j84421877170330_1_alg».proof.Proof.RefRun
import proofs.«104143_j84421877170330_1_alg».proof.Proof.Spec
import proofs.«104143_j84421877170330_1_alg».proof.Proof.SpecLaws
import Idealize.ShloMosaic.Lib.ValueIdx
import Idealize.ShloMosaic.Lib.IdealHost
import Idealize.ShloMosaic.Lib.StackMember
import Idealize.ShloMosaic.Lib.ValueLayout
import Idealize.ShloMosaic.Lib.Pipeline.Value

noncomputable section
namespace Cert.ReferenceIdeal.RefValue
open Cert.ReferenceIdeal Cert.ReferenceIdeal.Gen Cert.ReferenceIdeal.RefRun Idealize.ShloMosaic Idealize.ShloMosaic.ValueIdx
open Idealize.ShloMosaic.TcCoe Idealize.SL.Sem
open scoped BigOperators

/-! ## The operations read at an index -/

/-- The row reduction's shape fact in the form that names the inserted coordinate. -/
theorem hRed : S8192x64.Reduces [1] S8192 := by decide

/-- The squared norms: at row `i`, the sum over the 64 columns of the entry times itself. -/
theorem rowSq_apply (x : FVec Ideal S8192x64 .f32) (i : Fin 8192) :
    rowSq x (ix1 i) = Cert.Spec.sqn (Cert.Spec.mat x) i := by
  show Ideal.hostReduceAdd reducesTo_S8192x64_S8192_d1 (mulf x x) (Ideal.ofBits .f32 0x00000000#32) (ix1 i) = _
  rw [Ideal.hostReduceAdd_single _ hRed, Ideal.ofBits_zero_f32, zero_add]
  unfold Cert.Spec.sqn
  refine Finset.sum_congr rfl fun k _ => ?_
  have hl : hRed.lift (ix1 i) k = ix2 i k :=
    funext fun a => match a with | ⟨0, _⟩ => Fin.ext rfl | ⟨1, _⟩ => Fin.ext rfl
  rw [hl]
  rfl

/-- A vector laid down the rows (a column, then the column along every column): entry `(i, j)` is entry `i`. -/
theorem bcastRows_apply {α : Type} (v : S8192.Idx → α) (i j : Fin 8192) :
    broadcastInDim S8192x8192 ![0, 1] bcast_S8192x1_S8192x8192_0_1 (broadcastInDim S8192x1 ![0] bcast_S8192_S8192x1_0 v) (ix2 i j)
      = v (ix1 i) := by
  rw [broadcastInDim_apply ![0, 1] bcast_S8192x1_S8192x8192_0_1 _ (ix2 i j) (ix2 i (0 : Fin 1))
    (fun a => match a with | ⟨0, _⟩ => rfl | ⟨1, _⟩ => rfl)]
  exact broadcastInDim_apply ![0] bcast_S8192_S8192x1_0 v (ix2 i (0 : Fin 1)) (ix1 i)
    (fun a => match a with | ⟨0, _⟩ => rfl)

/-- A vector laid along the columns (a row, then the row along every row): entry `(i, j)` is entry `j`. -/
theorem bcastCols_apply {α : Type} (v : S8192.Idx → α) (i j : Fin 8192) :
    broadcastInDim S8192x8192 ![0, 1] bcast_S1x8192_S8192x8192_0_1 (broadcastInDim S1x8192 ![1] bcast_S8192_S1x8192_1 v) (ix2 i j)
      = v (ix1 j) := by
  rw [broadcastInDim_apply ![0, 1] bcast_S1x8192_S8192x8192_0_1 _ (ix2 i j) (ix2 (0 : Fin 1) j)
    (fun a => match a with | ⟨0, _⟩ => rfl | ⟨1, _⟩ => rfl)]
  exact broadcastInDim_apply ![1] bcast_S8192_S1x8192_1 v (ix2 (0 : Fin 1) j) (ix1 j)
    (fun a => match a with | ⟨0, _⟩ => rfl)

/-- The product with the transpose: entry `(i, j)` is the inner product of row `i` of one and row `j` of the other. -/
theorem dot_apply (x y : FVec Ideal S8192x64 .f32) (i j : Fin 8192) :
    Host.dotGeneral dot_S8192x64_S64x8192_S8192x8192_1_0_0_1_n_n none x
        (transpose S64x8192 [1, 0] y transposes_S8192x64_S64x8192_1_0) (ix2 i j)
      = Cert.Spec.dotp (Cert.Spec.mat x) (Cert.Spec.mat y) i j := by
  refine (StackMember.dotGeneral_plain_apply none x
    (transpose S64x8192 [1, 0] y transposes_S8192x64_S64x8192_1_0) i j).trans ?_
  unfold Cert.Spec.dotp
  refine Finset.sum_congr rfl fun k _ => ?_
  rw [transpose_ix2_apply y transposes_S8192x64_S64x8192_1_0 k j]

/-- The Gaussian weights: entry `(i, j)` is the weight of row `i` of one set and row `j` of the other, exponent spelt
    as the quotient of the negated clamped distance by 128. -/
theorem gram_apply (x y : FVec Ideal S8192x64 .f32) (i j : Fin 8192) :
    gram x y (ix2 i j) = Cert.Spec.kernRef (Cert.Spec.mat x) (Cert.Spec.mat y) i j := by
  unfold gram Cert.Spec.kernRef Cert.Spec.dist2
  show Ideal.exp (Ideal.div (-(max ((_ + _) - (Ideal.ofBits .f32 0x40000000#32 * _)) (Ideal.ofBits .f32 0x00000000#32)))
    (Ideal.ofBits .f32 0x43000000#32)) = _
  rw [bcastRows_apply, bcastCols_apply, rowSq_apply, rowSq_apply, dot_apply]

/-- The sum of all entries of a matrix: the double sum over rows and columns. -/
theorem total_apply (k : FVec Ideal S8192x8192 .f32) (j : S_.Idx) :
    total k j = ∑ a : Fin 8192, ∑ b : Fin 8192, k (ix2 a b) := by
  show Ideal.hostReduceAdd reducesTo_S8192x8192_S_d0_1 k (Ideal.ofBits .f32 0x00000000#32) j = _
  rw [Ideal.hostReduceAdd_total _ (fun b => b.elim0), Ideal.ofBits_zero_f32, zero_add]
  exact sum_idx2 k

/-- Two coordinates below 8192 are equal when their 32-bit words are. -/
theorem ofNat_inj {a b : Fin 8192} (h : BitVec.ofNat 32 a.val = BitVec.ofNat 32 b.val) : a = b := by
  have h' := congrArg BitVec.toNat h
  simp only [BitVec.toNat_ofNat] at h'
  have ha := a.isLt; have hb := b.isLt
  exact Fin.ext (by omega)

/-- The outlined trace: the entries are kept where row and column numbers agree and are zero elsewhere, so the sum of
    all of them is the sum of the diagonal. -/
theorem diagSum_apply (k : FVec Ideal S8192x8192 .f32) (j : S_.Idx) :
    diagSum k j = ∑ a : Fin 8192, k (ix2 a a) := by
  show Ideal.hostReduceAdd reducesTo_S8192x8192_S_d0_1 _ (Ideal.ofBits .f32 0x00000000#32) j = _
  rw [Ideal.hostReduceAdd_total _ (fun b => b.elim0), Ideal.ofBits_zero_f32, zero_add, sum_idx2]
  refine Finset.sum_congr rfl fun a _ => ?_
  rw [Finset.sum_eq_single a]
  · show Scalar.select (IntOp.cmpi .eq (IntOp.addi (BitVec.ofNat 32 a.val) 0#32) (BitVec.ofNat 32 a.val)) (k (ix2 a a))
      (Ideal.ofBits .f32 0x00000000#32) = _
    have hc : IntOp.cmpi .eq (IntOp.addi (BitVec.ofNat 32 a.val) 0#32) (BitVec.ofNat 32 a.val) = 1#1 := by
      simp [IntOp.cmpi, IntOp.addi]
    rw [hc, select_one]
  · intro b _ hb
    show Scalar.select (IntOp.cmpi .eq (IntOp.addi (BitVec.ofNat 32 a.val) 0#32) (BitVec.ofNat 32 b.val)) (k (ix2 a b))
      (Ideal.ofBits .f32 0x00000000#32) = 0
    have hc : IntOp.cmpi .eq (IntOp.addi (BitVec.ofNat 32 a.val) 0#32) (BitVec.ofNat 32 b.val) = 0#1 := by
      have hne : ¬ BitVec.ofNat 32 a.val = BitVec.ofNat 32 b.val := fun h => hb (ofNat_inj h).symm
      have hbeq : (BitVec.ofNat 32 a.val == BitVec.ofNat 32 b.val) = false := beq_false_of_ne hne
      simp [IntOp.cmpi, IntOp.addi, hbeq]
    rw [hc, select_zero, Ideal.ofBits_zero_f32]
  · intro h; exact absurd (Finset.mem_univ a) h

/-- The closing scalar chain is the statistic of the five sums, last quotient spelt twice the quotient. -/
theorem stat_apply (kxx kyy kxy : FVec Ideal S8192x8192 .f32) (j : S_.Idx) :
    stat kxx kyy kxy j
      = Cert.Spec.mmdR (total kxx j) (diagSum kxx j) (total kyy j) (diagSum kyy j) (total kxy j) := rfl

/-! ## The value -/

/-- The standardised points: the program's first seven host operations (the reshape to a row per point, the two
    broadcasts each of mean and deviation, the subtraction and the quotient) as one pure term of the three argument
    buffers. -/
def xhat (a0 : FVec Ideal S16x512x64 .f32) (a1 a2 : FVec Ideal S64 .f32) : FVec Ideal S8192x64 .f32 :=
  Host.divf
    (subf (shapeCast S8192x64 a0 shapeCasts_S16x512x64_S8192x64)
      (broadcastInDim S8192x64 ![0, 1] bcast_S1x64_S8192x64_0_1 (broadcastInDim S1x64 ![1] bcast_S64_S1x64_1 a1)))
    (broadcastInDim S8192x64 ![0, 1] bcast_S1x64_S8192x64_0_1 (broadcastInDim S1x64 ![1] bcast_S64_S1x64_1 a2))

/-- It is the run module's first stage. -/
theorem xhat_eq_std (a0 : FVec Ideal S16x512x64 .f32) (a1 a2 : FVec Ideal S64 .f32) : xhat a0 a1 a2 = std a0 a1 a2 := rfl

/-- The statistic of three weight matrices of point sets `x` and `y` is `mmd` of the two sets. -/
theorem stat_gram (x y : FVec Ideal S8192x64 .f32) (j : S_.Idx) :
    stat (gram x x) (gram y y) (gram x y) j = Cert.Spec.mmd (Cert.Spec.mat x) (Cert.Spec.mat y) := by
  rw [stat_apply, total_apply, total_apply, total_apply, diagSum_apply, diagSum_apply, Cert.Spec.mmdR_eq]
  simp only [gram_apply, Cert.Spec.kernRef_eq]
  rfl

/-- The program's value from the four arguments' contents. -/
theorem val_eq (a0 : FVec Ideal S16x512x64 .f32) (a1 a2 : FVec Ideal S64 .f32) (a3 : FVec Ideal S8192x64 .f32) :
    val a0 a1 a2 a3 = fun _ => Cert.Spec.mmd (Cert.Spec.mat (xhat a0 a1 a2)) (Cert.Spec.mat a3) := by
  funext j
  rw [xhat_eq_std]
  unfold val
  generalize std a0 a1 a2 = x
  exact stat_gram x a3 j

/-- What the reference leaves in its result buffer: `mmd` of the standardised points and the prior points, at its one
    index. -/
theorem res_eq (m : (ℓ : Loc nD τ sig) → Buf (Elt Ideal) ℓ) (c : Dev nD) :
    res m c = fun _ => Cert.Spec.mmd
      (Cert.Spec.mat (xhat (m ((c.tc : Thread nD τ).loc main_arg0)) (m ((c.tc : Thread nD τ).loc main_arg1))
        (m ((c.tc : Thread nD τ).loc main_arg2))))
      (Cert.Spec.mat (n := 8192) (d := 64) (m ((c.tc : Thread nD τ).loc main_arg3))) :=
  val_eq _ _ _ _

end Cert.ReferenceIdeal.RefValue

end
-- ==== Proof.KIBridge.lean ====
/-
  The kernel program's value at the return, from the five sums its three regions leave.

  The first host stretch standardises the points (`xhatK`); no later segment writes their buffer, nor the prior
  points', which is an argument: every region finds the same two point sets. Each region leaves its sums in one-word
  arrays, which the stretch after it reshapes to scalars that nothing later writes. The last stretch's closing chain of
  differences, quotients, sum, product and maximum over the five scalars is the statistic of the five sums, which is
  `mmd` of the two point sets by its definition.
-/
import proofs.«104143_j84421877170330_1_alg».proof.Proof.KIArgs
import proofs.«104143_j84421877170330_1_alg».proof.Proof.Spec
import proofs.«104143_j84421877170330_1_alg».proof.Proof.KIValue0
import proofs.«104143_j84421877170330_1_alg».proof.Proof.KIValue1
import proofs.«104143_j84421877170330_1_alg».proof.Proof.KIValue2
import proofs.«104143_j84421877170330_1_alg».proof.Proof.RefValue

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable (m : (ℓ : Loc nD τ sig) → Buf (Elt Ideal) ℓ) (ρ : Dev nD → PrngReg)

/-! ## The standardised points -/

/-- The standardised points: the first host stretch's seven operations composed (the reshape to a row per point, the
    two broadcasts each of mean and deviation, the subtraction and the quotient). -/
def xhatK (a0 : FVec Ideal S16x512x64 .f32) (a1 a2 : FVec Ideal S64 .f32) : FVec Ideal S8192x64 .f32 :=
  Host.divf
    (subf (shapeCast S8192x64 a0 shapeCasts_S16x512x64_S8192x64)
      (broadcastInDim S8192x64 ![0, 1] bcast_S1x64_S8192x64_0_1 (broadcastInDim S1x64 ![1] bcast_S64_S1x64_1 a1)))
    (broadcastInDim S8192x64 ![0, 1] bcast_S1x64_S8192x64_0_1 (broadcastInDim S1x64 ![1] bcast_S64_S1x64_1 a2))

/-- After the first host stretch the standardised points' buffer holds them. -/
theorem W1_v6 (c : Dev nD) :
    W1 m ρ c (Proc.devRef .tc main_v6) = (xhatK (m ((c.tc : Thread nD τ).loc main_arg0)) (m ((c.tc : Thread nD τ).loc main_arg1)) (m ((c.tc : Thread nD τ).loc main_arg2))) := by
  show StableHlo.after hostOps0 (W0 m ρ c) (Proc.devRef .tc main_v6) = _
  open Idealize.ShloMosaic.StableHlo in after_results
  rfl

/-! ## Buffers no later segment changes -/

/-- The standardised points' buffer is not written again: region 1 and region 2 find it as region 0 did. -/
theorem W3_v6 (c : Dev nD) : W3 m ρ c (Proc.devRef .tc main_v6) = W1 m ρ c (Proc.devRef .tc main_v6) :=
  (W3_of m ρ c main_v6 (by decide)).trans <| (W2_of m ρ c main_v6 (by decide) (by decide)).trans <| rfl
theorem W5_v6 (c : Dev nD) : W5 m ρ c (Proc.devRef .tc main_v6) = W1 m ρ c (Proc.devRef .tc main_v6) :=
  (W5_of m ρ c main_v6 (by decide)).trans <| (W4_of m ρ c main_v6 (by decide) (by decide)).trans <| (W3_of m ρ c main_v6 (by decide)).trans <| (W2_of m ρ c main_v6 (by decide) (by decide)).trans <| rfl

/-- The prior points' buffer is an argument: every region finds it as launched. -/
theorem W1_arg3 (c : Dev nD) : W1 m ρ c (Proc.devRef .tc main_arg3) = m ((c.tc : Thread nD τ).loc main_arg3) :=
  (W1_of m ρ c main_arg3 (by decide)).trans <| rfl
theorem W3_arg3 (c : Dev nD) : W3 m ρ c (Proc.devRef .tc main_arg3) = m ((c.tc : Thread nD τ).loc main_arg3) :=
  (W3_of m ρ c main_arg3 (by decide)).trans <| (W2_of m ρ c main_arg3 (by decide) (by decide)).trans <| (W1_of m ρ c main_arg3 (by decide)).trans <| rfl
theorem W5_arg3 (c : Dev nD) : W5 m ρ c (Proc.devRef .tc main_arg3) = m ((c.tc : Thread nD τ).loc main_arg3) :=
  (W5_of m ρ c main_arg3 (by decide)).trans <| (W4_of m ρ c main_arg3 (by decide) (by decide)).trans <| (W3_of m ρ c main_arg3 (by decide)).trans <| (W2_of m ρ c main_arg3 (by decide) (by decide)).trans <| (W1_of m ρ c main_arg3 (by decide)).trans <| rfl

/-! ## The point sets as each region finds them -/

/-- The first point set as a region entered with contents `V` finds it, and the second. -/
abbrev XK (V : (c : Dev nD) → (b : Ref sig .tc) → Buf (Elt Ideal) ((c : Thread nD τ).loc b)) (c : Dev nD) : Fin 8192 → Fin 64 → EReal :=
  Cert.Spec.mat (V c main_v6 : S8192x64.Idx → EReal)
abbrev YK (V : (c : Dev nD) → (b : Ref sig .tc) → Buf (Elt Ideal) ((c : Thread nD τ).loc b)) (c : Dev nD) : Fin 8192 → Fin 64 → EReal :=
  Cert.Spec.mat (V c main_arg3 : S8192x64.Idx → EReal)

theorem XK_T1 (c : Dev nD) : XK (T1 m ρ) c = Cert.Spec.mat (xhatK (m ((c.tc : Thread nD τ).loc main_arg0)) (m ((c.tc : Thread nD τ).loc main_arg1)) (m ((c.tc : Thread nD τ).loc main_arg2))) :=
  congrArg (fun v : S8192x64.Idx → EReal => Cert.Spec.mat v) (W1_v6 m ρ c)
theorem XK_T5 (c : Dev nD) : XK (T5 m ρ) c = Cert.Spec.mat (xhatK (m ((c.tc : Thread nD τ).loc main_arg0)) (m ((c.tc : Thread nD τ).loc main_arg1)) (m ((c.tc : Thread nD τ).loc main_arg2))) :=
  congrArg (fun v : S8192x64.Idx → EReal => Cert.Spec.mat v) ((W5_v6 m ρ c).trans (W1_v6 m ρ c))
theorem YK_T3 (c : Dev nD) : YK (T3 m ρ) c = Cert.Spec.mat (n := 8192) (d := 64) (m ((c.tc : Thread nD τ).loc main_arg3)) :=
  congrArg (fun v : S8192x64.Idx → EReal => Cert.Spec.mat v) (W3_arg3 m ρ c)
theorem YK_T5 (c : Dev nD) : YK (T5 m ρ) c = Cert.Spec.mat (n := 8192) (d := 64) (m ((c.tc : Thread nD τ).loc main_arg3)) :=
  congrArg (fun v : S8192x64.Idx → EReal => Cert.Spec.mat v) (W5_arg3 m ρ c)

/-! ## The accumulators' arrays after their regions -/

theorem W2_v7_0 (c : Dev nD) : W2 m ρ c (Proc.devRef .tc main_v7_0) = (dat0 (T1 m ρ) c).arrAt 2 cfg0.N := by
  unfold W2; rw [Function.update_of_ne (ne_of_ref (by decide)), Function.update_self]
theorem W2_v7_1 (c : Dev nD) : W2 m ρ c (Proc.devRef .tc main_v7_1) = (dat0 (T1 m ρ) c).arrAt 3 cfg0.N := by
  unfold W2; rw [Function.update_self]
theorem W4_v10_0 (c : Dev nD) : W4 m ρ c (Proc.devRef .tc main_v10_0) = (dat1 (T3 m ρ) c).arrAt 2 cfg1.N := by
  unfold W4; rw [Function.update_of_ne (ne_of_ref (by decide)), Function.update_self]
theorem W4_v10_1 (c : Dev nD) : W4 m ρ c (Proc.devRef .tc main_v10_1) = (dat1 (T3 m ρ) c).arrAt 3 cfg1.N := by
  unfold W4; rw [Function.update_self]
theorem W6_v13 (c : Dev nD) : W6 m ρ c (Proc.devRef .tc main_v13) = (dat2 (T5 m ρ) c).arrAt 2 cfg2.N := by
  unfold W6; rw [Function.update_self]

/-! ## The accumulators as scalars: a one-word array that is constant, reshaped, is that constant

Each holds at the return what the stretch after its region reshaped it to: no later segment writes it. -/

theorem W6_v8 (c : Dev nD) (k : EReal) (h : (dat0 (F := Ideal) (T1 m ρ) c).arrAt 2 cfg0.N = fun _ => k) :
    W6 m ρ c (Proc.devRef .tc main_v8) = fun _ => k :=
  (W6_of m ρ c main_v8 (by decide)).trans <| (W5_of m ρ c main_v8 (by decide)).trans <| (W4_of m ρ c main_v8 (by decide) (by decide)).trans <| (by
    show StableHlo.after hostOps1 (W2 m ρ c) (Proc.devRef .tc main_v8) = _
    open Idealize.ShloMosaic.StableHlo in after_results
    rw [W2_v7_0, h]; rfl)
theorem W6_v9 (c : Dev nD) (k : EReal) (h : (dat0 (F := Ideal) (T1 m ρ) c).arrAt 3 cfg0.N = fun _ => k) :
    W6 m ρ c (Proc.devRef .tc main_v9) = fun _ => k :=
  (W6_of m ρ c main_v9 (by decide)).trans <| (W5_of m ρ c main_v9 (by decide)).trans <| (W4_of m ρ c main_v9 (by decide) (by decide)).trans <| (by
    show StableHlo.after hostOps1 (W2 m ρ c) (Proc.devRef .tc main_v9) = _
    open Idealize.ShloMosaic.StableHlo in after_results
    rw [W2_v7_1, h]; rfl)
theorem W6_v11 (c : Dev nD) (k : EReal) (h : (dat1 (F := Ideal) (T3 m ρ) c).arrAt 2 cfg1.N = fun _ => k) :
    W6 m ρ c (Proc.devRef .tc main_v11) = fun _ => k :=
  (W6_of m ρ c main_v11 (by decide)).trans <| (by
    show StableHlo.after hostOps2 (W4 m ρ c) (Proc.devRef .tc main_v11) = _
    open Idealize.ShloMosaic.StableHlo in after_results
    rw [W4_v10_0, h]; rfl)
theorem W6_v12 (c : Dev nD) (k : EReal) (h : (dat1 (F := Ideal) (T3 m ρ) c).arrAt 3 cfg1.N = fun _ => k) :
    W6 m ρ c (Proc.devRef .tc main_v12) = fun _ => k :=
  (W6_of m ρ c main_v12 (by decide)).trans <| (by
    show StableHlo.after hostOps2 (W4 m ρ c) (Proc.devRef .tc main_v12) = _
    open Idealize.ShloMosaic.StableHlo in after_results
    rw [W4_v10_1, h]; rfl)

/-! ## The value -/

/-- THE VALUE AT THE RETURN, from the five sums the regions leave: the last stretch reshapes the third region's sum
    and runs the closing scalar chain, which is the statistic of the five sums; the sums are those of the standardised
    points and the prior points, which every region finds in the same two buffers. -/
theorem W7_v23_of (c : Dev nD)
    (h0s : (dat0 (F := Ideal) (T1 m ρ) c).arrAt 2 cfg0.N = fun _ => Cert.Spec.total (XK (T1 m ρ) c) (XK (T1 m ρ) c))
    (h0d : (dat0 (F := Ideal) (T1 m ρ) c).arrAt 3 cfg0.N = fun _ => Cert.Spec.diag (XK (T1 m ρ) c))
    (h1s : (dat1 (F := Ideal) (T3 m ρ) c).arrAt 2 cfg1.N = fun _ => Cert.Spec.total (YK (T3 m ρ) c) (YK (T3 m ρ) c))
    (h1d : (dat1 (F := Ideal) (T3 m ρ) c).arrAt 3 cfg1.N = fun _ => Cert.Spec.diag (YK (T3 m ρ) c))
    (h2 : (dat2 (F := Ideal) (T5 m ρ) c).arrAt 2 cfg2.N = fun _ => Cert.Spec.total (XK (T5 m ρ) c) (YK (T5 m ρ) c)) :
    W7 m ρ c (Proc.devRef .tc main_v23)
      = fun _ => Cert.Spec.mmd (Cert.Spec.mat (xhatK (m ((c.tc : Thread nD τ).loc main_arg0)) (m ((c.tc : Thread nD τ).loc main_arg1)) (m ((c.tc : Thread nD τ).loc main_arg2))))
          (Cert.Spec.mat (n := 8192) (d := 64) (m ((c.tc : Thread nD τ).loc main_arg3))) := by
  show StableHlo.after hostOps3 (W6 m ρ c) (Proc.devRef .tc main_v23) = _
  open Idealize.ShloMosaic.StableHlo in after_results
  rw [W6_v8 m ρ c _ h0s, W6_v9 m ρ c _ h0d, W6_v11 m ρ c _ h1s, W6_v12 m ρ c _ h1d, W6_v13, h2,
    XK_T1, XK_T5, YK_T3, YK_T5]
  rfl

/-- THE VALUE AT THE RETURN: `mmd` of the standardised points and the prior points, at the result's one index. -/
theorem W7_v23 (c : Dev nD) :
    W7 m ρ c (Proc.devRef .tc main_v23)
      = fun _ => Cert.Spec.mmd (Cert.Spec.mat (xhatK (m ((c.tc : Thread nD τ).loc main_arg0)) (m ((c.tc : Thread nD τ).loc main_arg1)) (m ((c.tc : Thread nD τ).loc main_arg2))))
          (Cert.Spec.mat (n := 8192) (d := 64) (m ((c.tc : Thread nD τ).loc main_arg3))) :=
  W7_v23_of m ρ c (Cert.KernelIdeal.HandValue.arr0_final_sum (T1 m ρ) c) (Cert.KernelIdeal.HandValue.arr0_final_diag (T1 m ρ) c)
    (Cert.KernelIdeal.HandValue.arr1_final_sum (T3 m ρ) c) (Cert.KernelIdeal.HandValue.arr1_final_diag (T3 m ρ) c)
    (Cert.KernelIdeal.HandValue.arr2_final (T5 m ρ) c)

/-! ## The two programs standardise alike -/

/-- From memories that agree on the first three arguments, the reference's standardised points are the kernel
    program's: the same seven operations on the same contents. -/
theorem xhat_agree (m' : (ℓ : Loc Cert.ReferenceIdeal.nD Cert.ReferenceIdeal.τ Cert.ReferenceIdeal.sig) → Buf (Elt Ideal) ℓ)
    (c : Dev nD)
    (h0 : (m' ((c.tc : Thread Cert.ReferenceIdeal.nD Cert.ReferenceIdeal.τ).loc Cert.ReferenceIdeal.main_arg0)) = m ((c.tc : Thread nD τ).loc main_arg0))
    (h1 : (m' ((c.tc : Thread Cert.ReferenceIdeal.nD Cert.ReferenceIdeal.τ).loc Cert.ReferenceIdeal.main_arg1)) = m ((c.tc : Thread nD τ).loc main_arg1))
    (h2 : (m' ((c.tc : Thread Cert.ReferenceIdeal.nD Cert.ReferenceIdeal.τ).loc Cert.ReferenceIdeal.main_arg2)) = m ((c.tc : Thread nD τ).loc main_arg2)) :
    Cert.ReferenceIdeal.RefValue.xhat (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      = (xhatK (m ((c.tc : Thread nD τ).loc main_arg0)) (m ((c.tc : Thread nD τ).loc main_arg1)) (m ((c.tc : Thread nD τ).loc main_arg2))) := by
  rw [h0, h1, h2]
  rfl

end Cert.KernelIdeal.Bridge

end
-- ==== Proof.lean ====
/-
  The certificate: the kernel program (three pipelined kernel regions among host operations) and its reference
  compute, at the ideal instance, the same statistic of two point sets — the maximum mean discrepancy with a Gaussian
  weight of width 8 in 64 dimensions —, and each program runs to the end, faulting nowhere, with its arguments
  unchanged.

  The kernel side: the program is run segment by segment with every buffer's contents named at every boundary; each
  region's accumulators end at the sum of all weights of its two point sets and at the sum of the diagonal weights,
  block sums added up over the 8 × 8 grid; the host's last stretch combines the five sums. The reference side: the
  program's run read back operation by operation, the same five sums as whole-matrix reductions. Both are the
  specification's `mmd` of the standardised points and the prior's points; the standardisation is the same seven
  host operations in both programs. The idealisation rewrote no operation, so its ledger is empty.
-/
import proofs.«104143_j84421877170330_1_alg».proof.Defs
import proofs.«104143_j84421877170330_1_alg».proof.Proof.Gen.Kernel
import proofs.«104143_j84421877170330_1_alg».proof.Proof.Gen.KernelIdeal
import proofs.«104143_j84421877170330_1_alg».proof.Proof.Gen.ReferenceIdeal
import proofs.«104143_j84421877170330_1_alg».proof.Proof.Gen.Pre_finite_inputs
import proofs.«104143_j84421877170330_1_alg».proof.Proof.KRun
import proofs.«104143_j84421877170330_1_alg».proof.Proof.KArgs
import proofs.«104143_j84421877170330_1_alg».proof.Proof.KIRun
import proofs.«104143_j84421877170330_1_alg».proof.Proof.KIArgs
import proofs.«104143_j84421877170330_1_alg».proof.Proof.KIBridge
import proofs.«104143_j84421877170330_1_alg».proof.Proof.RefRun
import proofs.«104143_j84421877170330_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched: its run's last boundary holds each argument at
    its launch contents. -/
theorem frame_k : Cert.frame_Kernel := fun m ρ _ =>
  (θ_run Cert.Kernel.defs _ _).mono (fun _ h c =>
    ⟨(h c _ (Cert.Kernel.Hand.mem_uc Cert.Kernel.main_arg0 (by decide))).trans (Cert.Kernel.Hand.W7_main_arg0 m ρ c),
     (h c _ (Cert.Kernel.Hand.mem_uc Cert.Kernel.main_arg1 (by decide))).trans (Cert.Kernel.Hand.W7_main_arg1 m ρ c),
     (h c _ (Cert.Kernel.Hand.mem_uc Cert.Kernel.main_arg2 (by decide))).trans (Cert.Kernel.Hand.W7_main_arg2 m ρ c),
     (h c _ (Cert.Kernel.Hand.mem_uc Cert.Kernel.main_arg3 (by decide))).trans (Cert.Kernel.Hand.W7_main_arg3 m ρ c)⟩)
    (Cert.Kernel.Hand.run (F := Bits) m ρ)

/-- The same for the idealized program. -/
theorem frame_ki : Cert.frame_KernelIdeal := fun m ρ _ =>
  (θ_run Cert.KernelIdeal.defs _ _).mono (fun _ h c =>
    ⟨(h c _ (Cert.KernelIdeal.Hand.mem_uc Cert.KernelIdeal.main_arg0 (by decide))).trans (Cert.KernelIdeal.Hand.W7_main_arg0 m ρ c),
     (h c _ (Cert.KernelIdeal.Hand.mem_uc Cert.KernelIdeal.main_arg1 (by decide))).trans (Cert.KernelIdeal.Hand.W7_main_arg1 m ρ c),
     (h c _ (Cert.KernelIdeal.Hand.mem_uc Cert.KernelIdeal.main_arg2 (by decide))).trans (Cert.KernelIdeal.Hand.W7_main_arg2 m ρ c),
     (h c _ (Cert.KernelIdeal.Hand.mem_uc Cert.KernelIdeal.main_arg3 (by decide))).trans (Cert.KernelIdeal.Hand.W7_main_arg3 m ρ c)⟩)
    (Cert.KernelIdeal.Hand.run (F := Ideal) m ρ)

/-- The reference runs and leaves its arguments as launched: its run read back, the result dropped. -/
theorem frame_ri : Cert.frame_ReferenceIdeal := fun m ρ _ =>
  (θ_run Cert.ReferenceIdeal.defs _ _).mono (fun _ h c => (h c).2) (Cert.ReferenceIdeal.RefRun.run m ρ)

/-- The idealisation rewrote nothing. -/
theorem preserves : Cert.preserves_Kernel_KernelIdeal := trivial

/-- At the ideal instance both programs end with the same statistic: the kernel program's last boundary holds it at
    its result buffer (the five sums the regions leave, combined by the last host stretch), the reference's run read
    back is the same function of the same standardised points, and the standardisation is the same seven host
    operations of arguments that agree. -/
theorem algebraic : Cert.algebraic_KernelIdeal_ReferenceIdeal := by
  intro m ρ m' ρ' _ hagree
  refine ⟨fun c => fun _ => Cert.Spec.mmd
      (Cert.Spec.mat (Cert.KernelIdeal.Bridge.xhatK
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))))
      (Cert.Spec.mat (n := 8192) (d := 64) (m ((c.tc : Thread Cert.KernelIdeal.nD Cert.KernelIdeal.τ).loc Cert.KernelIdeal.main_arg3))), ?_, ?_⟩
  · exact (θ_run Cert.KernelIdeal.defs _ _).mono (fun _ h c =>
      ⟨(h c _ (Cert.KernelIdeal.Hand.mem_uc Cert.KernelIdeal.main_v23 (by decide))).trans (Cert.KernelIdeal.Bridge.W7_v23 m ρ c),
       (h c _ (Cert.KernelIdeal.Hand.mem_uc Cert.KernelIdeal.main_arg0 (by decide))).trans (Cert.KernelIdeal.Hand.W7_main_arg0 m ρ c),
       (h c _ (Cert.KernelIdeal.Hand.mem_uc Cert.KernelIdeal.main_arg1 (by decide))).trans (Cert.KernelIdeal.Hand.W7_main_arg1 m ρ c),
       (h c _ (Cert.KernelIdeal.Hand.mem_uc Cert.KernelIdeal.main_arg2 (by decide))).trans (Cert.KernelIdeal.Hand.W7_main_arg2 m ρ c),
       (h c _ (Cert.KernelIdeal.Hand.mem_uc Cert.KernelIdeal.main_arg3 (by decide))).trans (Cert.KernelIdeal.Hand.W7_main_arg3 m ρ c)⟩)
      (Cert.KernelIdeal.Hand.run (F := Ideal) m ρ)
  · refine (θ_run Cert.ReferenceIdeal.defs _ _).mono (fun _ h c => ⟨(h c).1.trans ?_, (h c).2⟩)
      (Cert.ReferenceIdeal.RefRun.run m' ρ')
    rw [Cert.ReferenceIdeal.RefValue.res_eq,
      Cert.KernelIdeal.Bridge.xhat_agree m m' c (hagree c).1 (hagree c).2.1 (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
